-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S30 : Shape := ⟨1, ![30]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel
  bcast_S_S30 : S_.BroadcastsInDim S30 (![] : Fin 0 → Fin S30.rank)
  reducesTo_S30_S_d0 : S30.ReducesTo [0] S_

variable [Facts]

def fn {F : FTy → Type} [FloatOps F] (main_arg0 : FVec F S2000000x16 .f32) (main_arg1 : IVec S2000000x16 32) (main_arg2 : FVec F S30 .f32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : FVec F S30 .f32 := Host.absf main_arg2
  let main_cst_0 : FVec F S_ .f32 := constant S_ .f32 0x7F800000#32
  let main_v5 : FVec F S30 .f32 := broadcastInDim S30 ![] bcast_S_S30 main_cst_0
  let main_v6 : IVec S30 1 := cmpf .olt main_v4 main_v5
  let main_c_1 : IVec S_ 1 := constantI S_ 1 1#1
  let main_v7 : IVec S_ 1 := (fun x v => Host.reduce IntOp.andi x v reducesTo_S30_S_d0 h_S_) main_v6 main_c_1
  let main_v8 : IVec S_ 1 := andi main_v3 main_v7
  main_v8
-- ==== Kernel.lean ====
abbrev S2000000x16 : Shape := ⟨2, ![2000000, 16]⟩
abbrev S30 : Shape := ⟨1, ![30]⟩
abbrev S1x128 : Shape := ⟨2, ![1, 128]⟩
abbrev S2000x16 : Shape := ⟨2, ![2000, 16]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S1x30 : Shape := ⟨2, ![1, 30]⟩
abbrev S_ : Shape := ⟨0, ![]⟩
abbrev S2 : Shape := ⟨1, ![2]⟩

abbrev nBuf : Space → Nat
  | .hbm => 45
  | .vmem => 13
  | .smem => 0
  | _ => 0

abbrev bufTy : (tb : Table) → Fin (tcTables nBuf tb) → BufTy
  | .hbm, ⟨0, _⟩ => ⟨S2000000x16, .f32⟩
  | .hbm, ⟨1, _⟩ => ⟨S2000000x16, .i32⟩
  | .hbm, ⟨2, _⟩ => ⟨S30, .f32⟩
  | .hbm, ⟨3, _⟩ => ⟨S1x128, .f32⟩
  | .hbm, ⟨4, _⟩ => ⟨S1x30, .f32⟩
  | .hbm, ⟨5, _⟩ => ⟨S30, .f32⟩
  | .hbm, ⟨6, _⟩ => ⟨S_, .f32⟩
  | .hbm, ⟨7, _⟩ => ⟨S30, .f32⟩
  | .hbm, ⟨8, _⟩ => ⟨S30, .i1⟩
  | .hbm, ⟨9, _⟩ => ⟨S_, .f32⟩
  | .hbm, ⟨10, _⟩ => ⟨S30, .f32⟩
  | .hbm, ⟨11, _⟩ => ⟨S30, .f32⟩
  | .hbm, ⟨12, _⟩ => ⟨S_, .f32⟩
  | .hbm, ⟨13, _⟩ => ⟨S30, .f32⟩
  | .hbm, ⟨14, _⟩ => ⟨S30, .f32⟩
  | .hbm, ⟨15, _⟩ => ⟨S30, .f32⟩
  | .hbm, ⟨16, _⟩ => ⟨S30, .f32⟩
  | .hbm, ⟨17, _⟩ => ⟨S_, .f32⟩
  | .hbm, ⟨18, _⟩ => ⟨S30, .f32⟩
  | .hbm, ⟨19, _⟩ => ⟨S30, .f32⟩
  | .hbm, ⟨20, _⟩ => ⟨S30, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S30, .f32⟩
  | .hbm, ⟨28, _⟩ => ⟨S30, .f32⟩
  | .hbm, ⟨29, _⟩ => ⟨S30, .f32⟩
  | .hbm, ⟨30, _⟩ => ⟨S30, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2000x16, .f32⟩
  | .local _ .vmem, ⟨1, _⟩ => ⟨S2000x16, .f32⟩
  | .local _ .vmem, ⟨2, _⟩ => ⟨S2000x16, .i32⟩
  | .local _ .vmem, ⟨3, _⟩ => ⟨S2000x16, .i32⟩
  | .local _ .vmem, ⟨4, _⟩ => ⟨S1x128, .f32⟩
  | .local _ .vmem, ⟨5, _⟩ => ⟨S1x128, .f32⟩
  | .local _ .vmem, ⟨6, _⟩ => ⟨S2000x16, .f32⟩
  | .local _ .vmem, ⟨7, _⟩ => ⟨S2000x16, .f32⟩
  | .local _ .vmem, ⟨8, _⟩ => ⟨S2000x16, .i32⟩
  | .local _ .vmem, ⟨9, _⟩ => ⟨S2000x16, .i32⟩
  | .local _ .vmem, ⟨10, _⟩ => ⟨S1x128, .f32⟩
  | .local _ .vmem, ⟨11, _⟩ => ⟨S1x1, .f32⟩
  | .local _ .vmem, ⟨12, _⟩ => ⟨S1x1, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![1000], ![false]⟩

def k0_cond2 (i : grid0.Coords) : BitVec 1 :=
  let arg0 : BitVec 32 := BitVec.ofNat 32 (i 0).val
  let c999_i32 : BitVec 32 := 999#32
  let v587 : BitVec 1 := Scalar.cmpi .eq arg0 c999_i32
  let v588 : BitVec 32 := Scalar.extui v587
  let c0_i32_247 : BitVec 32 := 0#32
  let v589 : BitVec 1 := Scalar.cmpi .ne v588 c0_i32_247
  v589

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1000], ![false]⟩

def k1_cond2 (i : grid1.Coords) : BitVec 1 :=
  let arg0 : BitVec 32 := BitVec.ofNat 32 (i 0).val
  let c999_i32 : BitVec 32 := 999#32
  let v242 : BitVec 1 := Scalar.cmpi .eq arg0 c999_i32
  let v243 : BitVec 32 := Scalar.extui v242
  let c0_i32_51 : BitVec 32 := 0#32
  let v244 : BitVec 1 := Scalar.cmpi .ne v243 c0_i32_51
  v244

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x16_S2000x16_0_0 : ∀ a, (![0, 0] : Fin 2 → Nat) a + S2000x16.size a ≤ S2000x16.size a
  h_S2000x16 : 0 < S2000x16.numel
  iota_S1x128_d1_w32 : S1x128.Iotas .tc 32 [1]
  natLt_1_32 : 1 < 32
  reduces_S2000x16_S2000 : S2000x16.Reduces [1] S2000
  shapeCasts_S2000_S2000x1 : S2000.ShapeCasts S2000x1
  reduces_S2000x1_S1 : S2000x1.Reduces [0] S1
  shapeCasts_S1_S1x1 : S1.ShapeCasts S1x1
  shapeCasts_S1x1_S1x1 : S1x1.ShapeCasts S1x1
  broadcasts_S1x1_S1x128 : S1x1.Broadcasts S1x128
  slices_S1x128_S1x30_0_0 : S1x128.Slices ![0, 0] S1x30
  shapeCasts_S1x30_S30 : S1x30.ShapeCasts S30
  bcast_S_S30 : S_.BroadcastsInDim S30 (![] : Fin 0 → Fin S30.rank)
  reducesTo_S30_S_d0 : S30.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x1_S1x1_0_0 : ∀ a, (![0, 0] : Fin 2 → Nat) a + S1x1.size a ≤ S1x1.size a
  h_S1x1 : 0 < S1x1.numel
  inb_S1x128_S1x1_0_0 : ∀ a, (![0, 0] : Fin 2 → Nat) a + S1x1.size a ≤ S1x128.size a
  inpos_S1x1_p0_0 : ∀ a, (![0, 0] : Fin 2 → Nat) a < S1x1.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  inb_S1x128_S1x1_0_10 : ∀ a, (![0, 10] : Fin 2 → Nat) a + S1x1.size a ≤ S1x128.size a
  inb_S1x128_S1x1_0_11 : ∀ a, (![0, 11] : Fin 2 → Nat) a + S1x1.size a ≤ S1x128.size a
  inb_S1x128_S1x1_0_12 : ∀ a, (![0, 12] : Fin 2 → Nat) a + S1x1.size a ≤ S1x128.size a
  inb_S1x128_S1x1_0_13 : ∀ a, (![0, 13] : Fin 2 → Nat) a + S1x1.size a ≤ S1x128.size a
  inb_S1x128_S1x1_0_14 : ∀ a, (![0, 14] : Fin 2 → Nat) a + S1x1.size a ≤ S1x128.size a
  inb_S1x128_S1x1_0_15 : ∀ a, (![0, 15] : Fin 2 → Nat) a + S1x1.size a ≤ S1x128.size a
  inb_S1x128_S1x1_0_16 : ∀ a, (![0, 16] : Fin 2 → Nat) a + S1x1.size a ≤ S1x128.size a
  inb_S1x128_S1x1_0_17 : ∀ a, (![0, 17] : Fin 2 → Nat) a + S1x1.size a ≤ S1x128.size a
  inb_S1x128_S1x1_0_18 : ∀ a, (![0, 18] : Fin 2 → Nat) a + S1x1.size a ≤ S1x128.size a
  inb_S1x128_S1x1_0_19 : ∀ a, (![0, 19] : Fin 2 → Nat) a + S1x1.size a ≤ S1x128.size a
  inb_S1x128_S1x1_0_20 : ∀ a, (![0, 20] : Fin 2 → Nat) a + S1x1.size a ≤ S1x128.size a
  inb_S1x128_S1x1_0_21 : ∀ a, (![0, 21] : Fin 2 → Nat) a + S1x1.size a ≤ S1x128.size a
  inb_S1x128_S1x1_0_22 : ∀ a, (![0, 22] : Fin 2 → Nat) a + S1x1.size a ≤ S1x128.size a
  inb_S1x128_S1x1_0_23 : ∀ a, (![0, 23] : Fin 2 → Nat) a + S1x1.size a ≤ S1x128.size a
  inb_S1x128_S1x1_0_24 : ∀ a, (![0, 24] : Fin 2 → Nat) a + S1x1.size a ≤ S1x128.size a
  inb_S1x128_S1x1_0_25 : ∀ a, (![0, 25] : Fin 2 → Nat) a + S1x1.size a ≤ S1x128.size a
  inb_S1x128_S1x1_0_26 : ∀ a, (![0, 26] : Fin 2 → Nat) a + S1x1.size a ≤ S1x128.size a
  inb_S1x128_S1x1_0_27 : ∀ a, (![0, 27] : Fin 2 → Nat) a + S1x1.size a ≤ S1x128.size a
  inb_S1x128_S1x1_0_28 : ∀ a, (![0, 28] : Fin 2 → Nat) a + S1x1.size a ≤ S1x128.size a
  inb_S1x128_S1x1_0_29 : ∀ a, (![0, 29] : Fin 2 → Nat) a + S1x1.size a ≤ S1x128.size a
  shapeCasts_S1x1_S_ : S1x1.ShapeCasts S_
  scatter_S1x128_S2_S30_0_0_01_0_wf : ScatterDims.WF S1x128 S2 S30 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S2000000x16.size a
  hwx0_0 : ∀ i : grid0.Coords, EltTy.bits .f32 = 32 ∨ (Rect.block (s := S2000000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S2000000x16.size a
  hwx0_1 : ∀ i : grid0.Coords, EltTy.bits .i32 = 32 ∨ (Rect.block (s := S2000000x16) S2000x16.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S2000000x16.size a
  hwx1_0 : ∀ i : grid1.Coords, EltTy.bits .f32 = 32 ∨ (Rect.block (s := S2000000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S2000000x16.size a
  hwx1_1 : ∀ i : grid1.Coords, EltTy.bits .i32 = 32 ∨ (Rect.block (s := S2000000x16) S2000x16.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def scatter_S1x128_S2_S30_0_0_01_0 : ScatterDims S1x128 S2 S30 where
  updateWindowDims := [0]
  insertedWindowDims := [0]
  scatterDimsToOperandDims := [0, 1]
  indexVectorDim := 0
  wf := scatter_S1x128_S2_S30_0_0_01_0_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2000000x16 : Shape := ⟨2, ![2000000, 16]⟩
abbrev S30 : Shape := ⟨1, ![30]⟩
abbrev S_ : Shape := ⟨0, ![]⟩
abbrev S32000000 : Shape := ⟨1, ![32000000]⟩
abbrev S32000000x1 : Shape := ⟨2, ![32000000, 1]⟩
abbrev S2000000x16x1 : Shape := ⟨3, ![2000000, 16, 1]⟩

abbrev nBuf : Space → Nat
  | .hbm => 109
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x16, .i32⟩
  | .hbm, ⟨2, _⟩ => ⟨S30, .f32⟩
  | .hbm, ⟨3, _⟩ => ⟨S2000000x16, .f32⟩
  | .hbm, ⟨4, _⟩ => ⟨S2000000x16, .f32⟩
  | .hbm, ⟨5, _⟩ => ⟨S2000000x16, .f32⟩
  | .hbm, ⟨6, _⟩ => ⟨S_, .f32⟩
  | .hbm, ⟨7, _⟩ => ⟨S2000000x16, .f32⟩
  | .hbm, ⟨8, _⟩ => ⟨S2000000x16, .f32⟩
  | .hbm, ⟨9, _⟩ => ⟨S_, .f32⟩
  | .hbm, ⟨10, _⟩ => ⟨S2000000x16, .f32⟩
  | .hbm, ⟨11, _⟩ => ⟨S2000000x16, .f32⟩
  | .hbm, ⟨12, _⟩ => ⟨S2000000x16, .f32⟩
  | .hbm, ⟨13, _⟩ => ⟨S2000000x16, .f32⟩
  | .hbm, ⟨14, _⟩ => ⟨S_, .f32⟩
  | .hbm, ⟨15, _⟩ => ⟨S2000000x16, .f32⟩
  | .hbm, ⟨16, _⟩ => ⟨S2000000x16, .f32⟩
  | .hbm, ⟨17, _⟩ => ⟨S2000000x16, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2000000x16, .i32⟩
  | .hbm, ⟨22, _⟩ => ⟨S2000000x16, .i32⟩
  | .hbm, ⟨23, _⟩ => ⟨S_, .i32⟩
  | .hbm, ⟨24, _⟩ => ⟨S2000000x16, .i32⟩
  | .hbm, ⟨25, _⟩ => ⟨S2000000x16, .i32⟩
  | .hbm, ⟨26, _⟩ => ⟨S32000000, .i32⟩
  | .hbm, ⟨27, _⟩ => ⟨S_, .f32⟩
  | .hbm, ⟨28, _⟩ => ⟨S32000000, .f32⟩
  | .hbm, ⟨29, _⟩ => ⟨S_, .f32⟩
  | .hbm, ⟨30, _⟩ => ⟨S30, .f32⟩
  | .hbm, ⟨31, _⟩ => ⟨S32000000x1, .i32⟩
  | .hbm, ⟨32, _⟩ => ⟨S30, .f32⟩
  | .hbm, ⟨33, _⟩ => ⟨S_, .f32⟩
  | .hbm, ⟨34, _⟩ => ⟨S30, .f32⟩
  | .hbm, ⟨35, _⟩ => ⟨S30, .i1⟩
  | .hbm, ⟨36, _⟩ => ⟨S_, .f32⟩
  | .hbm, ⟨37, _⟩ => ⟨S30, .f32⟩
  | .hbm, ⟨38, _⟩ => ⟨S30, .f32⟩
  | .hbm, ⟨39, _⟩ => ⟨S_, .f32⟩
  | .hbm, ⟨40, _⟩ => ⟨S30, .f32⟩
  | .hbm, ⟨41, _⟩ => ⟨S30, .f32⟩
  | .hbm, ⟨42, _⟩ => ⟨S30, .f32⟩
  | .hbm, ⟨43, _⟩ => ⟨S30, .f32⟩
  | .hbm, ⟨44, _⟩ => ⟨S_, .f32⟩
  | .hbm, ⟨45, _⟩ => ⟨S30, .f32⟩
  | .hbm, ⟨46, _⟩ => ⟨S30, .f32⟩
  | .hbm, ⟨47, _⟩ => ⟨S30, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S30, .f32⟩
  | .hbm, ⟨55, _⟩ => ⟨S30, .f32⟩
  | .hbm, ⟨56, _⟩ => ⟨S30, .f32⟩
  | .hbm, ⟨57, _⟩ => ⟨S30, .f32⟩
  | .hbm, ⟨58, _⟩ => ⟨S_, .i32⟩
  | .hbm, ⟨59, _⟩ => ⟨S2000000x16, .i32⟩
  | .hbm, ⟨60, _⟩ => ⟨S2000000x16, .i1⟩
  | .hbm, ⟨61, _⟩ => ⟨S_, .i32⟩
  | .hbm, ⟨62, _⟩ => ⟨S2000000x16, .i32⟩
  | .hbm, ⟨63, _⟩ => ⟨S2000000x16, .i32⟩
  | .hbm, ⟨64, _⟩ => ⟨S2000000x16, .i32⟩
  | .hbm, ⟨65, _⟩ => ⟨S2000000x16x1, .i32⟩
  | .hbm, ⟨66, _⟩ => ⟨S2000000x16, .f32⟩
  | .hbm, ⟨67, _⟩ => ⟨S2000000x16, .f32⟩
  | .hbm, ⟨68, _⟩ => ⟨S_, .f32⟩
  | .hbm, ⟨69, _⟩ => ⟨S2000000x16, .f32⟩
  | .hbm, ⟨70, _⟩ => ⟨S2000000x16, .f32⟩
  | .hbm, ⟨71, _⟩ => ⟨S2000000x16, .f32⟩
  | .hbm, ⟨72, _⟩ => ⟨S2000000x16, .f32⟩
  | .hbm, ⟨73, _⟩ => ⟨S2000000x16, .i1⟩
  | .hbm, ⟨74, _⟩ => ⟨S2000000x16, .f32⟩
  | .hbm, ⟨75, _⟩ => ⟨S2000000x16, .f32⟩
  | .hbm, ⟨76, _⟩ => ⟨S2000000x16, .f32⟩
  | .hbm, ⟨77, _⟩ => ⟨S2000000x16, .f32⟩
  | .hbm, ⟨78, _⟩ => ⟨S2000000x16, .f32⟩
  | .hbm, ⟨79, _⟩ => ⟨S2000000x16, .f32⟩
  | .hbm, ⟨80, _⟩ => ⟨S2000000x16, .f32⟩
  | .hbm, ⟨81, _⟩ => ⟨S2000000x16, .f32⟩
  | .hbm, ⟨82, _⟩ => ⟨S2000000x16, .f32⟩
  | .hbm, ⟨83, _⟩ => ⟨S_, .f32⟩
  | .hbm, ⟨84, _⟩ => ⟨S2000000x16, .f32⟩
  | .hbm, ⟨85, _⟩ => ⟨S2000000x16, .f32⟩
  | .hbm, ⟨86, _⟩ => ⟨S_, .f32⟩
  | .hbm, ⟨87, _⟩ => ⟨S2000000x16, .f32⟩
  | .hbm, ⟨88, _⟩ => ⟨S2000000x16, .f32⟩
  | .hbm, ⟨89, _⟩ => ⟨S2000000x16, .f32⟩
  | .hbm, ⟨90, _⟩ => ⟨S2000000x16, .f32⟩
  | .hbm, ⟨91, _⟩ => ⟨S2000000x16, .i1⟩
  | .hbm, ⟨92, _⟩ => ⟨S2000000x16, .f32⟩
  | .hbm, ⟨93, _⟩ => ⟨S2000000x16, .f32⟩
  | .hbm, ⟨94, _⟩ => ⟨S2000000x16, .f32⟩
  | .hbm, ⟨95, _⟩ => ⟨S2000000x16, .f32⟩
  | .hbm, ⟨96, _⟩ => ⟨S2000000x16, .f32⟩
  | .hbm, ⟨97, _⟩ => ⟨S2000000x16, .f32⟩
  | .hbm, ⟨98, _⟩ => ⟨S2000000x16, .f32⟩
  | .hbm, ⟨99, _⟩ => ⟨S2000000x16, .f32⟩
  | .hbm, ⟨100, _⟩ => ⟨S2000000x16, .f32⟩
  | .hbm, ⟨101, _⟩ => ⟨S2000000x16, .f32⟩
  | .hbm, ⟨102, _⟩ => ⟨S2000000x16, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_12 : Ref sig .tc := ⟨.hbm, 58, rfl⟩
abbrev main_v36 : Ref sig .tc := ⟨.hbm, 59, rfl⟩
abbrev main_v37 : Ref sig .tc := ⟨.hbm, 60, rfl⟩
abbrev main_c_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_v44 : Ref sig .tc := ⟨.hbm, 81, rfl⟩
abbrev main_v45 : Ref sig .tc := ⟨.hbm, 82, rfl⟩
abbrev main_cst_14 : Ref sig .tc := ⟨.hbm, 83, rfl⟩
abbrev main_v46 : Ref sig .tc := ⟨.hbm, 84, rfl⟩
abbrev main_v47 : Ref sig .tc := ⟨.hbm, 85, rfl⟩
abbrev main_call4_cst : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_15 : Ref sig .tc := ⟨.hbm, 103, rfl⟩
abbrev main_v52 : Ref sig .tc := ⟨.hbm, 104, rfl⟩
abbrev main_cst_16 : Ref sig .tc := ⟨.hbm, 105, rfl⟩
abbrev main_v53 : Ref sig .tc := ⟨.hbm, 106, rfl⟩
abbrev main_cst_17 : Ref sig .tc := ⟨.hbm, 107, rfl⟩
abbrev main_v54 : Ref sig .tc := ⟨.hbm, 108, rfl⟩

abbrev nD : Nat := 1
abbrev τ : Topo := Topo.v7x

variable {F : FTy → Type} [FloatOps F]

class Facts₀ : Prop where
  bcast_S_S2000000x16 : S_.BroadcastsInDim S2000000x16 (![] : Fin 0 → Fin S2000000x16.rank)
  shapeCasts_S2000000x16_S32000000 : S2000000x16.ShapeCasts S32000000
  bcast_S_S32000000 : S_.BroadcastsInDim S32000000 (![] : Fin 0 → Fin S32000000.rank)
  bcast_S_S30 : S_.BroadcastsInDim S30 (![] : Fin 0 → Fin S30.rank)
  bcast_S32000000_S32000000x1_0 : S32000000.BroadcastsInDim S32000000x1 (![0] : Fin 1 → Fin S32000000x1.rank)
  natLt_1_32 : 1 < 32
  reducesTo_S30_S_d0 : S30.ReducesTo [0] S_
  h_S_ : 0 < S_.numel
  bcast_S2000000x16_S2000000x16x1_0_1 : S2000000x16.BroadcastsInDim S2000000x16x1 (![0, 1] : Fin 2 → Fin S2000000x16x1.rank)
  reducesTo_S2000000x16_S_d0_1 : S2000000x16.ReducesTo [0, 1] S_
  scatter_S30_S32000000x1_S32000000_n_0_0_1_wf : ScatterDims.WF S30 S32000000x1 S32000000 [] [0] [0] 1
  gather_S30_S2000000x16x1_S2000000x16_n_0_n_n_0_2_1_wf : GatherDims.WF S30 S2000000x16x1 S2000000x16 [] [0] [] [0] [] 2 ![1]

variable [Facts₀]

def scatter_S30_S32000000x1_S32000000_n_0_0_1 : ScatterDims S30 S32000000x1 S32000000 where
  updateWindowDims := []
  insertedWindowDims := [0]
  scatterDimsToOperandDims := [0]
  indexVectorDim := 1
  wf := scatter_S30_S32000000x1_S32000000_n_0_0_1_wf
def gather_S30_S2000000x16x1_S2000000x16_n_0_n_n_0_2_1 : GatherDims S30 S2000000x16x1 S2000000x16 where
  offsetDims := []
  collapsedSliceDims := [0]
  operandBatchingDims := []
  startIndicesBatchingDims := []
  startIndexMap := [0]
  indexVectorDim := 2
  sliceSizes := ![1]
  wf := gather_S30_S2000000x16x1_S2000000x16_n_0_n_n_0_2_1_wf

class Facts : Prop extends Facts₀ where

variable [Facts]
-- ==== Proof.BR0Runs.lean ====
/- Region 0 (the histogram kernel): what its three whole-body runs share. The two branch conditions of the body in
   closed form over the grid of 1000 points, where its output window is idle and where it is written back, the
   staging and scratch memrefs, and the region invariant with the scratch as an owned memref. -/
import proofs.«181526_j69131793596448_2_alg».proof.Proof.Gen.Kernel.Launch
import proofs.«181526_j69131793596448_2_alg».proof.Proof.Gen.Kernel.Skeleton
import proofs.«181526_j69131793596448_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option Elab.async false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the reset of the scratch), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the write-out of the scratch), from the grid coordinate. -/
abbrev cond0_1 (i : grid0.Coords) : Prop := k0_cond2 i = 1#1
/-- It holds at the last point only. -/
theorem hcond0_1 : ∀ t : Fin cfg0.N, cond0_1 (grid0.coords t) ↔ t.val = 999 :=
  (by decide +kernel : ∀ t : Fin grid0.N, cond0_1 (grid0.coords t) ↔ t.val = 999)

namespace PA

/-! ## Where the windows are idle, and where the output is written back -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Where the second conditional is not taken the output window is idle: nothing is stored into it. -/
theorem idleAt0_2 : ∀ t : Fin cfg0.N, ¬cond0_1 (grid0.coords t) → cfg0.idle 2 (grid0.coords t) = true := by
  intro t h
  show (!(k0_cond2 (grid0.coords t) == 1#1)) = true
  rw [Bool.not_eq_true', beq_eq_false_iff_ne]
  exact h
/-- And there it is not written back: the write-back is at the last point only. -/
theorem noFlush0_2 : ∀ t : Fin cfg0.N, ¬cond0_1 (grid0.coords t) → (cfg0.win 2).flush t = false := by
  intro t h
  have hN : t.val < 1000 := lt_of_lt_of_eq t.isLt (show cfg0.N = 1000 from N_0)
  have h999 : ¬ t.val = 999 := fun e => h ((hcond0_1 t).mpr e)
  cases hf : (cfg0.win 2).flush t with
  | false => rfl
  | true => exact absurd ((flush0_2 t).mp hf) (by omega)
/-- Where the second conditional is taken the output window is live. -/
theorem liveAt0_2 : ∀ t : Fin cfg0.N, cond0_1 (grid0.coords t) → cfg0.idle 2 (grid0.coords t) = false := by
  intro t h
  show (!(k0_cond2 (grid0.coords t) == 1#1)) = false
  rw [Bool.not_eq_false', beq_iff_eq]
  exact h

end PA

/-! ## The staging and scratch memrefs -/

/-- The output window's staging buffer, through which its contents are stated. -/
abbrev VO0_2 : View sig .tc .vmem S1x128 .f32 := (Memref.whole cc0_stg2_0 : Memref sig .tc .vmem S1x128 .f32).view
/-- Each window's current staging memref at point `t`, and its wholeness. -/
abbrev ms0_0 (t : Fin cfg0.N) : Memref sig .tc .vmem S2000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x16 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
/-- The scratch operand: a whole scoped buffer of the kernel's own, carried between points. -/
abbrev scM0_0 : Memref sig .tc .vmem S1x128 .f32 := Memref.whole cc0_scratch0
/-- The scratch as a view: what it holds is stated through it. -/
abbrev VS0_0 : View sig .tc .vmem S1x128 .f32 := scM0_0.view

namespace PA

/-- The scoped buffers of the core that are neither a staging buffer of this region nor its scratch (the other
    region's staging buffers and scratch), each whole at some contents: carried through the region unopened. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

end PA

/-- The region invariant with the scratch as a memref owned at some contents, the other scoped buffers beside it. -/
theorem PhiA0_eq (c : Dev nD) :
    (Pipeline.ΦA spec0 c : sProp 𝕄)
      = iprop(iprop((∃ d, owns (c : Thread nD τ) scM0_0 fullShare d) ∗ PA.rest0 c) ∗ (∃ r, prngReg c r)) := by
  unfold Pipeline.ΦA; rw [scopedRest0_eq]; simp only [scM0_0, owns_whole]; unfold PA.rest0; try rfl

end Cert.Kernel.Hand

end
-- ==== Proof.BR0RunA.lean ====
/- Region 0 (the histogram kernel): the whole-body run of the kernel in case A — the first point: the scratch is reset, the output is not written. The pieces each buffer ends with are the witness the run finds. -/
import proofs.«181526_j69131793596448_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (first conditional taken, second not): on whole memrefs — the inputs at their contents, the idle output at
    contents handed back untouched, the scratch at anything — the body runs to the continuation holding the inputs and
    the output as they were and the scratch with its pieces `LS0` written. -/
noncomputable def kernelRun0_A (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.BR0RunB.lean ====
/- Region 0 (the histogram kernel): the whole-body run of the kernel in case B — a middle point: neither conditional is taken; the scratch is carried from the point before. -/
import proofs.«181526_j69131793596448_2_alg».proof.Proof.BR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (neither conditional taken): on whole memrefs — the inputs at their contents, the idle output at contents
    handed back untouched, the scratch at what the point before left (`xs0`) — the body runs to the continuation
    holding the inputs and the output as they were and the scratch with its pieces `LS0` written. -/
noncomputable def kernelRun0_B (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.BR0RunC.lean ====
/- Region 0 (the histogram kernel): the whole-body run of the kernel in case C — the last point: the scratch is not reset, and its contents are stored to the output. -/
import proofs.«181526_j69131793596448_2_alg».proof.Proof.BR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (first conditional not taken, second taken): on whole memrefs — the inputs at their contents, the output at
    anything, the scratch at what the point before left (`xs0`) — the body runs to the continuation holding the inputs
    as they were, the output with its pieces `L2` written and the scratch with its pieces `LS0` written. -/
noncomputable def kernelRun0_C (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR0Frame.lean ====
/- Region 0 (the histogram kernel): its frame half at a PARAMETER `V`, the TensorCore's buffer contents when the
   region is entered. What the output window's staging buffer and the carried scratch hold per case (the runs' pieces read
   back) and point by point (`outsAt0`), the region invariant with the scratch at the previous point's contents, the
   proof data, and the body obligation at every point. -/
import proofs.«181526_j69131793596448_2_alg».proof.Proof.BR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output window's buffer and in the scratch -/

/-- Case A (the first point) stores nothing into the output window, idle there and not written back: no pieces — a
    placeholder (junk read back) that nothing consults. -/
def out0_A_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) : Vec F S1x128 .f32 :=
  VO0_2.read (Elt F) (VO0_2.writes (Elt F) VO0_2.junk (kernelRun0_A c i arg1 harg1 arg2 harg2 arg3 harg3 arg4 harg4 hc0 hc1 x0 x1).1)

/-- Case A's pieces for the scratch tile it (whole stores), so they cover it. -/
theorem scover0_A_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) (y : S1x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x128.size (by sl_kernel_rfl) y

/-- What case A leaves in the scratch: its pieces read back over junk. -/
def sout0_A_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) : Vec F S1x128 .f32 :=
  VS0_0.read (Elt F) (VS0_0.writes (Elt F) VS0_0.junk (kernelRun0_A c i arg1 harg1 arg2 harg2 arg3 harg3 arg4 harg4 hc0 hc1 x0 x1).2.1)

/-- Case B (a middle point) stores nothing into the output window, idle there and not written back: no pieces — a
    placeholder (junk read back) that nothing consults. -/
def out0_B_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) : Vec F S1x128 .f32 :=
  VO0_2.read (Elt F) (VO0_2.writes (Elt F) VO0_2.junk (kernelRun0_B c i arg1 harg1 arg2 harg2 arg3 harg3 arg4 harg4 hc0 hc1 x0 x1 xs0).1)

/-- Case B's pieces for the scratch tile it (whole stores), so they cover it. -/
theorem scover0_B_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) (y : S1x128.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x128.size (by sl_kernel_rfl) y

/-- What case B leaves in the scratch: its pieces read back over junk. -/
def sout0_B_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) : Vec F S1x128 .f32 :=
  VS0_0.read (Elt F) (VS0_0.writes (Elt F) VS0_0.junk (kernelRun0_B c i arg1 harg1 arg2 harg2 arg3 harg3 arg4 harg4 hc0 hc1 x0 x1 xs0).2.1)

/-- Case C's pieces for the output window tile its block (one whole store), so they cover it. -/
theorem cover0_C_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) (y : S1x128.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x128.size (by sl_kernel_rfl) y

/-- What case C leaves in the output window's staging buffer: its pieces read back over junk. -/
def out0_C_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) : Vec F S1x128 .f32 :=
  VO0_2.read (Elt F) (VO0_2.writes (Elt F) VO0_2.junk (kernelRun0_C c i arg1 harg1 arg2 harg2 arg3 harg3 arg4 harg4 hc0 hc1 x0 x1 xs0).1)

/-- Case C's pieces for the scratch tile it (whole stores), so they cover it. -/
theorem scover0_C_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) (y : S1x128.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x128.size (by sl_kernel_rfl) y

/-- What case C leaves in the scratch: its pieces read back over junk. -/
def sout0_C_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) : Vec F S1x128 .f32 :=
  VS0_0.read (Elt F) (VS0_0.writes (Elt F) VS0_0.junk (kernelRun0_C c i arg1 harg1 arg2 harg2 arg3 harg3 arg4 harg4 hc0 hc1 x0 x1 xs0).2.1)

section Region

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem PA.before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem PA.before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output window's buffer and the scratch hold after each point -/

/-- The accumulation. What the output window's staging buffer (`.1`) and the carried scratch (`.2`) hold after the
    body at position `n`: the case the closed forms select at `n` (the first point, the last point, or a point between),
    run at the point's memrefs and input blocks, the scratch at what this leaves at `n - 1`. -/
def outsAt0 (c : Dev nD) : (n : ℕ) → n < cfg0.N → Vec F S1x128 .f32 × Vec F S1x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd (show (0 : ℕ) = 999 from (hcond0_1 ⟨0, hn⟩).mp h) (by decide)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd (show (0 : ℕ) = 999 from (hcond0_1 ⟨0, hn⟩).mp h) (by decide)) (iblk0 V c 0 ⟨0, hn⟩) (iblk0 V c 1 ⟨0, hn⟩))
  | n + 1, hn =>
    if h1 : n + 1 = 999 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at the first point: case A's contents. -/
theorem outsAt0_A (c : Dev nD) (t : Fin cfg0.N) (h0 : t.val = 0) (h1 : ¬t.val = 999) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

/-- `outsAt0` at a point between the first and the last: case B's contents, over what the point before left. -/
theorem outsAt0_B (c : Dev nD) (t : Fin cfg0.N) (h0 : ¬t.val = 0) (h1 : ¬t.val = 999) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: case C's contents, over what the point before left. -/
theorem outsAt0_C (c : Dev nD) (t : Fin cfg0.N) (h0 : ¬t.val = 0) (h1 : t.val = 999) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (every scoped buffer that is no staging
    buffer at anything, the generator register at some state); afterwards the same with the carried scratch at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ PA.rest0 c) ∗ (∃ r, prngReg c r))

theorem PA.PhiS0_zero (c : Dev nD) (n : ℕ) (h : n ≤ cfg0.N) (hz : n = 0) : PhiS0 V c n h = Pipeline.ΦA spec0 c := by
  subst hz; rfl

theorem PA.PhiS0_succ (c : Dev nD) (n : ℕ) (hn : n < cfg0.N) :
    PhiS0 V c (n + 1) hn = iprop(iprop(owns (c : Thread nD τ) scM0_0 fullShare ((outsAt0 V c n hn).2) ∗ PA.rest0 c) ∗ (∃ r, prngReg c r)) := rfl

theorem PA.PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ PA.rest0 c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt0`; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PA.PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem PA.before0_0 (c : Dev nD) (t : Fin cfg0.N) (d) : (dat0 V c).before 0 t d = iblk0 V c 0 t :=
  PA.before0_0_of V (dat0 V c) (A_eq0 V c 0) (after0_0 V c) t d
theorem PA.before0_1 (c : Dev nD) (t : Fin cfg0.N) (d) : (dat0 V c).before 1 t d = iblk0 V c 1 t :=
  PA.before0_1_of V (dat0 V c) (A_eq0 V c 1) (after0_1 V c) t d

/-! ## The body obligation, at a generic point -/

/-- What the body is called with at point `t`, the windows one by one, -/
def PA.bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def PA.bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in, so that
    case's run applies; the invariant hands the body the scratch at what the point before left (at anything at the first
    point) and takes it back at this point's contents, the pieces covering it; the other scoped buffers, the generator
    register and what the core owes pass through unread. -/
theorem PA.sound_body0 (c : Dev nD) (t : Fin cfg0.N) :
    PA.bodyPre0 V c t ⊢ wp frame (wpE (defs₀ (F := F)) Variants.none c none) Set.univ (bodyAt0 t) (fun _ => PA.bodyPost0 V c t) := by
  unfold PA.bodyPre0 PA.bodyPost0 bodyAt0
  simp only [PA.before0_0, PA.before0_1]
  rw [show (dat0 V c).owesAt () t.succ = (dat0 V c).owesAt () t.castSucc from rfl]
  rw [show (dat0 V c).Φ t.succ = PhiS0 V c (t.val + 1) t.isLt from rfl, PA.PhiS0_succ]
  have hN : t.val < 1000 := lt_of_lt_of_eq t.isLt (show cfg0.N = 1000 from N_0)
  by_cases h0 : t.val = 0
  · have h1 : ¬t.val = 999 := by omega
    rw [show (dat0 V c).leavesExact 0 t = owns (c : Thread nD τ) (ms0_0 t) fullShare ((dat0 V c).after 0 t) from by
      unfold Dat.leavesExact; rw [PA.liveAt0_0 t], after0_0]
    rw [show (dat0 V c).leavesExact 1 t = owns (c : Thread nD τ) (ms0_1 t) fullShare ((dat0 V c).after 1 t) from by
      unfold Dat.leavesExact; rw [PA.liveAt0_1 t], after0_1]
    rw [Dat.leavesExact_idle (dat0 V c) 2 t (PA.idleAt0_2 t (fun h => h1 ((hcond0_1 t).mp h))) (PA.noFlush0_2 t (fun h => h1 ((hcond0_1 t).mp h)))]
    rw [outsAt0_A V c t h0 h1]
    unfold sout0_A_0; (try dsimp only)
    rw [PA.PhiS0_castSucc V c t, PA.PhiS0_zero V c _ _ h0, PhiA0_eq]
    iintro ⟨⟨⟨HS0, Hr⟩, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := h0
    by_cases h1 : t.val = 999
    · rw [show (dat0 V c).leavesExact 0 t = owns (c : Thread nD τ) (ms0_0 t) fullShare ((dat0 V c).after 0 t) from by
        unfold Dat.leavesExact; rw [PA.liveAt0_0 t], after0_0]
      rw [show (dat0 V c).leavesExact 1 t = owns (c : Thread nD τ) (ms0_1 t) fullShare ((dat0 V c).after 1 t) from by
        unfold Dat.leavesExact; rw [PA.liveAt0_1 t], after0_1]
      rw [show (dat0 V c).leavesExact 2 t = owns (c : Thread nD τ) (ms0_2 t) fullShare ((dat0 V c).after 2 t) from by
        unfold Dat.leavesExact; rw [PA.liveAt0_2 t ((hcond0_1 t).mpr h1)], after0_2]
      rw [outsAt0_C V c t h0 h1]
      unfold out0_C_2 sout0_C_0; (try dsimp only)
      rw [PA.PhiS0_castSucc V c t, PA.PhiS0_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [PA.liveAt0_0 t], after0_0]
      rw [show (dat0 V c).leavesExact 1 t = owns (c : Thread nD τ) (ms0_1 t) fullShare ((dat0 V c).after 1 t) from by
        unfold Dat.leavesExact; rw [PA.liveAt0_1 t], after0_1]
      rw [Dat.leavesExact_idle (dat0 V c) 2 t (PA.idleAt0_2 t (fun h => h1 ((hcond0_1 t).mp h))) (PA.noFlush0_2 t (fun h => h1 ((hcond0_1 t).mp h)))]
      rw [outsAt0_B V c t h0 h1]
      unfold sout0_B_0; (try dsimp only)
      rw [PA.PhiS0_castSucc V c t, PA.PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact PA.sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PA.PhiS0_zero V c 0 _ rfl]
  try exact Idealize.SL.BI.Entails.refl _

/-- After any point but the first the invariant gives the class's back: the scratch's named contents are forgotten. -/
theorem PA.Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PA.PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  PA.Phi_out0 V c _ (by rw [Fin.val_last]; have : cfg0.N = 1000 := N_0; omega)

end Region

end Cert.Kernel.Hand

end
-- ==== Proof.BR1Runs.lean ====
import proofs.«181526_j69131793596448_2_alg».proof.Proof.Gen.Kernel.Launch
import proofs.«181526_j69131793596448_2_alg».proof.Proof.Gen.Kernel.Skeleton
import proofs.«181526_j69131793596448_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional of the body: the grid coordinate is zero. -/
abbrev cond1_0 (i : grid1.Coords) : Prop := (Scalar.cmpi .ne (Scalar.extui (Scalar.cmpi .eq (BitVec.ofNat 32 (i 0).val) 0#32)) 0#32) = 1#1

-- one closed form at a time: each is decided over all 1000 points
set_option Elab.async false

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional of the body: the grid coordinate is 999. -/
abbrev cond1_1 (i : grid1.Coords) : Prop := k1_cond2 i = 1#1

/-- It holds at the last point only. -/
theorem hcond1_1 : ∀ t : Fin cfg1.N, cond1_1 (grid1.coords t) ↔ t.val = 999 :=
  (by decide +kernel : ∀ t : Fin grid1.N, cond1_1 (grid1.coords t) ↔ t.val = 999)

namespace PB

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Where the second conditional fails the output is idle: nothing is stored into it. -/
theorem idleAt1_3_of (i : grid1.Coords) (h : ¬cond1_1 i) : cfg1.idle 3 i = true := by
  show (!(k1_cond2 i == 1#1)) = true
  simp only [Bool.not_eq_true', beq_eq_false_iff_ne, ne_eq]; exact h

/-- Where it holds the output is live. -/
theorem liveAt1_3_of (i : grid1.Coords) (h : cond1_1 i) : cfg1.idle 3 i = false := by
  show (!(k1_cond2 i == 1#1)) = false
  simp only [Bool.not_eq_false', beq_iff_eq]; exact h

/-- The output is not written back before the last point. -/
theorem noFlush1_3_of (t : Fin cfg1.N) (h : ¬ t.val = 999) : (cfg1.win 3).flush t = false := by
  have hN : t.val < 1000 := lt_of_lt_of_eq t.isLt (show cfg1.N = 1000 from N_1)
  cases hf : (cfg1.win 3).flush t with
  | false => rfl
  | true => exact absurd (by have := (flush1_3 t).mp hf; omega) h

theorem idleAt1_3_A : ∀ t : Fin cfg1.N, cond1_0 (grid1.coords t) → ¬cond1_1 (grid1.coords t) → cfg1.idle 3 (grid1.coords t) = true :=
  fun t _ h => idleAt1_3_of _ h
theorem noFlush1_3_A : ∀ t : Fin cfg1.N, cond1_0 (grid1.coords t) → ¬cond1_1 (grid1.coords t) → (cfg1.win 3).flush t = false :=
  fun t _ h => noFlush1_3_of t (fun h9 => h ((hcond1_1 t).mpr h9))
theorem idleAt1_3_B : ∀ t : Fin cfg1.N, ¬cond1_0 (grid1.coords t) → ¬cond1_1 (grid1.coords t) → cfg1.idle 3 (grid1.coords t) = true :=
  fun t _ h => idleAt1_3_of _ h
theorem noFlush1_3_B : ∀ t : Fin cfg1.N, ¬cond1_0 (grid1.coords t) → ¬cond1_1 (grid1.coords t) → (cfg1.win 3).flush t = false :=
  fun t _ h => noFlush1_3_of t (fun h9 => h ((hcond1_1 t).mpr h9))
theorem liveAt1_3_C : ∀ t : Fin cfg1.N, ¬cond1_0 (grid1.coords t) → cond1_1 (grid1.coords t) → cfg1.idle 3 (grid1.coords t) = false :=
  fun t _ h => liveAt1_3_of _ h

end PB

/-! ## The memrefs the body runs on -/

/-- One staging buffer of the output window, through which its contents are stated. -/
abbrev VO1_3 : View sig .tc .vmem S1x1 .f32 := (Memref.whole cc1_stg3_0 : Memref sig .tc .vmem S1x1 .f32).view
/-- Each window's current staging memref at point `t`, and its wholeness. -/
abbrev ms1_0 (t : Fin cfg1.N) : Memref sig .tc .vmem S2000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x16 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator, a whole scoped buffer passed beside the windows. -/
abbrev scM1_0 : Memref sig .tc .vmem S1x1 .f32 := Memref.whole cc1_scratch0
/-- The same as a view: what it holds between points is stated through it. -/
abbrev VS1_0 : View sig .tc .vmem S1x1 .f32 := scM1_0.view

namespace PB

/-- Every scoped buffer of the core that is neither a staging buffer of this call nor its scratch accumulator, each at
    some contents: carried through the call unopened. -/
abbrev rest1 (c : Dev nD) : sProp 𝕄 :=
  Pipeline.scopedRestBut (Ix := Unit) (Name := ℕ) (U := UR sig nD τ) (Lvl := ℕ) (Val := Elt F) spec1 c [cc1_scratch0]

/-- The scoped rest of the call split at its scratch accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ rest1 (F := F) c) :=
  Pipeline.scopedRest_split_of_list spec1 c [cc1_scratch0] (by decide) (by decide)

end PB

/-- The class's invariant with the scratch accumulator as a memref owned at some contents, the other scoped buffers
    carried beside it. -/
theorem PhiA1_eq (c : Dev nD) :
    (Pipeline.ΦA spec1 c : sProp 𝕄)
      = iprop(iprop((∃ d, owns (c : Thread nD τ) scM1_0 fullShare d) ∗ PB.rest1 (F := F) c) ∗ (∃ r, prngReg c r)) := by
  unfold Pipeline.ΦA; rw [PB.scopedRest1_split]; simp only [scM1_0, owns_whole]; try rfl

end Cert.Kernel.Hand

end
-- ==== Proof.BR1RunA.lean ====
import proofs.«181526_j69131793596448_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last
    first), in case A (the first point: the accumulator is reset, nothing is written out; the output is handed back as it came, the accumulator comes at anything), with the proof that on whole memrefs — the three inputs at their contents — the body
    runs to the continuation holding the inputs as they were and each stored buffer with its pieces written. -/
noncomputable def kernelRun1_A (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.BR1RunB.lean ====
import proofs.«181526_j69131793596448_2_alg».proof.Proof.BR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last
    first), in case B (a point strictly between the first and the last: no reset, nothing written out; the output is handed back as it came, the accumulator comes at what the point before left), with the proof that on whole memrefs — the three inputs at their contents — the body
    runs to the continuation holding the inputs as they were and each stored buffer with its pieces written. -/
noncomputable def kernelRun1_B (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.BR1RunC.lean ====
import proofs.«181526_j69131793596448_2_alg».proof.Proof.BR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last
    first), in case C (the last point: no reset, the accumulator is written out; the output comes at anything, the accumulator at what the point before left), with the proof that on whole memrefs — the three inputs at their contents — the body
    runs to the continuation holding the inputs as they were and each stored buffer with its pieces written. -/
noncomputable def kernelRun1_C (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.BR1Frame.lean ====
import proofs.«181526_j69131793596448_2_alg».proof.Proof.BR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at the first point only and its block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's staging buffer and in the scratch accumulator -/

/-- Case A stores nothing into the output: a placeholder (no pieces read back over junk) that nothing consults. -/
def out1_A_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) : Vec F S1x1 .f32 :=
  VO1_3.read (Elt F) (VO1_3.writes (Elt F) VO1_3.junk (kernelRun1_A c i arg1 harg1 arg2 harg2 arg3 harg3 arg4 harg4 arg5 harg5 hc0 hc1 x0 x1 x2).1)

/-- Case A's pieces for the scratch accumulator cover it. -/
theorem scover1_A_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) (y : S1x1.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x1.size (by sl_kernel_rfl) y

/-- What case A leaves in the scratch accumulator: its pieces read back over junk. -/
def sout1_A_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) : Vec F S1x1 .f32 :=
  VS1_0.read (Elt F) (VS1_0.writes (Elt F) VS1_0.junk (kernelRun1_A c i arg1 harg1 arg2 harg2 arg3 harg3 arg4 harg4 arg5 harg5 hc0 hc1 x0 x1 x2).2.1)

/-- Case B stores nothing into the output: a placeholder (no pieces read back over junk) that nothing consults. -/
def out1_B_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 hc1 x0 x1 x2 xs0).1)

/-- Case B's pieces for the scratch accumulator cover it. -/
theorem scover1_B_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) (y : S1x1.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x1.size (by sl_kernel_rfl) y

/-- What case B leaves in the scratch accumulator: its pieces read back over junk. -/
def sout1_B_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- Case C's pieces for the output tile its block, so they cover it. -/
theorem cover1_C_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) (y : S1x1.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x1.size (by sl_kernel_rfl) y

/-- What case C leaves in the output's staging buffer: its pieces read back over junk. -/
def out1_C_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs0).1)

/-- Case C's pieces for the scratch accumulator cover it. -/
theorem scover1_C_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) (y : S1x1.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x1.size (by sl_kernel_rfl) y

/-- What case C leaves in the scratch accumulator: its pieces read back over junk. -/
def sout1_C_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 hc0 hc1 x0 x1 x2 xs0).2.1)

/-! ## What the output's staging buffer and the accumulator hold after each point -/

/-- The accumulation: the case the closed forms select at position `n`, run at the point's memrefs and input blocks, the
    accumulator at what position `n - 1` left (first component: the output's staging buffer; second: the accumulator). -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : n + 1 = 999 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point: case A's contents. -/
theorem outsAt1_A (c : Dev nD) (t : Fin cfg1.N) (h0 : t.val = 0) (h1 : ¬t.val = 999) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (by exfalso; (try dsimp only at h0); omega)

/-- `outsAt1` at a point strictly between the first and the last: case B's contents, over what the point before left. -/
theorem outsAt1_B (c : Dev nD) (t : Fin cfg1.N) (h0 : ¬t.val = 0) (h1 : ¬t.val = 999) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact h0 rfl)
  | succ n => exact (dif_neg h1).trans rfl

/-- `outsAt1` at the last point: case C's contents, over what the point before left. -/
theorem outsAt1_C (c : Dev nD) (t : Fin cfg1.N) (h0 : ¬t.val = 0) (h1 : t.val = 999) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact h0 rfl)
  | succ n => exact (dif_pos h1).trans rfl

/-- The region invariant before position `n`: before the first point the class's (every scoped buffer that is no staging
    buffer at anything); afterwards the accumulator at what the point before left in it, the other scoped buffers at
    anything, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ PB.rest1 (F := F) c) ∗ (∃ r, prngReg c r))

namespace PB

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ PB.rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ PB.rest1 (F := F) c) ∗ (∃ r, prngReg c r)) := by
  cases n with
  | zero => exact absurd rfl hz
  | succ n => rfl

end PB

/-! ## The pipeline's proof data -/

/-- The proof data of the pipeline on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

namespace PB

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

end PB

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

namespace PB

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the first point) and takes it
    back at this point's contents, the other scoped buffers and the generator register passing through; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1000 := lt_of_lt_of_eq t.isLt (show cfg1.N = 1000 from N_1)
  by_cases h0 : t.val = 0
  · by_cases h1 : t.val = 999
    · exfalso; omega
    · -- the first point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      rw [PhiS1_castSucc V c t, PhiS1_zero V c _ _ h0, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · by_cases h1 : t.val = 999
    · -- the last point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a point strictly between
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

end PB

/-- The library's body obligation, at every point. -/
theorem body_obligation1 (c : Dev nD) : BodyObligation (dat1 (F := F) V c) (defs₀ (F := F)) Variants.none () Set.univ := fun t => by
  rw [bigSep_W1, bigSep_W1]
  exact PB.sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PB.PhiS1_zero V c 0 _ rfl]
  try exact Idealize.SL.BI.Entails.refl _

namespace PB

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

end PB

/-- The same after the last point. -/
theorem hout1 (c : Dev nD) : (dat1 V c).Φ (Fin.last cfg1.N) ⊢ Pipeline.ΦA spec1 c :=
  PB.Phi_out1 V c _ (by rw [Fin.val_last]; have : cfg1.N = 1000 := N_1; omega)

end Cert.Kernel.Hand

end
-- ==== Proof.BMainRun.lean ====
/- The run of the main function over the two regions' halves: the buffers' contents at every boundary between two
   segments (a fold from the launch memory: a host stretch's result, a region's arrays at what its write-backs leave),
   each argument array read back through the fold to its launch contents, every pipeline's proof data at its region's
   entry contents, a segment per host stretch and per region over the thread state "every unscoped buffer at the
   boundary's contents, the generator register at some state, nothing owed", and the launch: every final state holds
   every unscoped buffer at the last boundary's contents, hence the arguments as launched. Stated at any float
   interpretation. -/
import proofs.«181526_j69131793596448_2_alg».proof.Proof.Gen.Kernel.Launch
import proofs.«181526_j69131793596448_2_alg».proof.Proof.Gen.Kernel.Skeleton
import proofs.«181526_j69131793596448_2_alg».proof.Proof.Gen.Kernel.Points
import proofs.«181526_j69131793596448_2_alg».proof.Proof.Gen.Kernel.Regions
import proofs.«181526_j69131793596448_2_alg».proof.Proof.BR0Frame
import proofs.«181526_j69131793596448_2_alg».proof.Proof.BR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary between two segments of the main function

The main function is region 0, five stretches of host operations, region 1, one more stretch. -/

/-- Core `c`'s buffers at launch. -/
abbrev W0 : Dev nD → Valuation τ sig (Elt F) := fun c b => m (c, b)
/-- The same read at the TensorCore's references: region 0's entry contents (no host operation stands before it). -/
abbrev V0r : (c : Dev nD) → (b : Ref sig .tc) → Buf (Elt F) ((c : Thread nD τ).loc b) := fun c b => W0 m c b
/-- At region 0's exit: its arrays at what the pipeline leaves (the inputs as entered, the output's write-backs folded),
    every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- After each of the five host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- The same read at the TensorCore's references: region 1's entry contents. -/
abbrev V6r : (c : Dev nD) → (b : Ref sig .tc) → Buf (Elt F) ((c : Thread nD τ).loc b) := fun c b => W6 m c b
/-- At region 1's exit: its arrays at what the pipeline leaves, every other buffer as entered. -/
def W7 (c : Dev nD) : Valuation τ sig (Elt F) :=
  Pipeline.withArrays spec1 c (W6 m c) fun w => (dat1 (V6r m) c).arrAt w cfg1.N
theorem W7_arr (c : Dev nD) (w : Fin cfg1.W) :
    W7 m c (Proc.devRef .tc (Pipeline.arrRef spec1 w)) = (dat1 (V6r m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- After the last host stretch: what the main function returns on. -/
abbrev W8 : Dev nD → Valuation τ sig (Elt F) := fun c => StableHlo.after hostOps2 (W7 m c)

namespace PC

/-- The regions' exit contents read at the TensorCore's references. -/
abbrev V1r : (c : Dev nD) → (b : Ref sig .tc) → Buf (Elt F) ((c : Thread nD τ).loc b) := fun c b => W1 m c b
abbrev V7r : (c : Dev nD) → (b : Ref sig .tc) → Buf (Elt F) ((c : Thread nD τ).loc b) := fun c b => W7 m c b
/-- At a region's exit each of its arrays holds what the pipeline leaves and every other buffer what it held at entry. -/
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)
theorem hF1 (c : Dev nD) (w : Fin cfg1.W) : (dat1 (V6r m) c).arrAt w cfg1.N = V7r m c (Pipeline.arrRef spec1 w) :=
  (W7_arr m c w).symm
theorem hrest1 (c : Dev nD) : ∀ b, b ∉ Finset.univ.image (Pipeline.arrRef spec1) → V7r m c b = V6r m c b :=
  fun b hb => W7_of_ne m c b fun w e => hb (Finset.mem_image.mpr ⟨w, Finset.mem_univ _, e⟩)

end PC

/-! ## The arguments end as launched: no host operation writes one, and a region reads it through an input window or
    leaves it aside, so the fold at an argument's buffer walks back to the launch memory -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := (W7_arr m c 0).trans (((dat1 (V6r m) c).arrAt_in 0 rfl _).trans (A_eq1 (V6r m) c 0))
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (V0r m) c).arrAt_in 0 rfl _).trans (A_eq0 (V0r m) c 0))
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := (W7_arr m c 1).trans (((dat1 (V6r m) c).arrAt_in 1 rfl _).trans (A_eq1 (V6r m) c 1))
    _ = W5 m c (Proc.devRef .tc main_arg1) := StableHlo.after_of_writes_sub hostOps1_4 _ hostOps1_4_writes (by decide)
    _ = W4 m c (Proc.devRef .tc main_arg1) := StableHlo.after_of_writes_sub hostOps1_3 _ hostOps1_3_writes (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := (W1_arr m c 1).trans (((dat0 (V0r m) c).arrAt_in 1 rfl _).trans (A_eq0 (V0r m) c 1))
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace PC

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V6r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents after the stretch, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what is owed: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its arrays are
    split out of the unscoped buffers and put back at the exit contents; the generator register goes into the class
    invariant and comes out of it, the region's own invariant standing between the two; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun w => A_eq0 (V0r m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0r m) c)
    unfold Pipeline.ΦA
    iintro ⟨Hp, -, Hr⟩
    isplitl [Hr]; · iexact Hr
    iexact Hp
  hout c := by
    refine BIBase.Entails.trans (hout0 (V0r m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W6`, left at `W7`. Its arrays are
    split out of the unscoped buffers and put back at the exit contents; the generator register goes into the class
    invariant and comes out of it, the region's own invariant standing between the two; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6r m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6r m c) fun w => A_eq1 (V6r m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6r m) c)
    unfold Pipeline.ΦA
    iintro ⟨Hp, -, Hr⟩
    isplitl [Hr]; · iexact Hr
    iexact Hp
  hout c := by
    refine BIBase.Entails.trans (hout1 (V6r m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6r m c) (V7r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

/-- The main function's eight segments in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)) ]
/-- The main function is the run of the segments: it is the chain of its items, and the segments' run is the chain of
    their programs, the same items. -/
theorem main_run (c : Dev nD) : main (F := F) c = Pipeline.Seg.run (segs m) := by
  rw [main_chain c, Pipeline.Seg.run_eq_chain]; rfl

-- the launch theorem's implicit arguments are found by unifying its conclusion with this one, which takes unfolding
-- plain definitions in a metavariable's type
set_option backward.isDefEq.respectTransparency.types false in
/-- The launch over the segments, at any claim `Q` that follows from every core's unscoped buffers holding the last
    boundary's contents: at the compiled mesh, from any memory with zero counters, every weakly fair execution of the
    main function on the TensorCores terminates, nothing faulting, and every final state satisfies `Q`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W8 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c)
            ∗ (∃ r, prngReg c r) ∗ ∃ W, owes (c : Thread nD τ) (0 : CellTallies nD τ sig Unit) W)
          ⊢ iprop((StableHlo.held (c : Thread nD τ) (Pipeline.ucRefs τ sig) (W8 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := hQ)

end PC

/-- THE RUN: at the compiled mesh, from any memory with zero counters, every weakly fair execution of the main function
    on the TensorCores terminates, nothing faulting, and in every final state every unscoped buffer of every core holds
    the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  PC.run_of m ρ fun _ h => h

/-- THE FRAME: every final state has the argument arrays as launched, each read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  PC.run_of m ρ fun s h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c)⟩

/-- info: 'Cert.Kernel.Hand.frame' depends on axioms: [propext, Classical.choice, Quot.sound] -/
#guard_msgs in #print axioms frame
/-- info: 'Cert.Kernel.Hand.run_all' depends on axioms: [propext, Classical.choice, Quot.sound] -/
#guard_msgs in #print axioms run_all

end Cert.Kernel.Hand

end
-- ==== Proof.IR0Runs.lean ====
/- Region 0 (the histogram kernel): what its three whole-body runs share. The two branch conditions of the body in
   closed form over the grid of 1000 points, where its output window is idle and where it is written back, the
   staging and scratch memrefs, and the region invariant with the scratch as an owned memref. -/
import proofs.«181526_j69131793596448_2_alg».proof.Proof.Gen.KernelIdeal.Launch
import proofs.«181526_j69131793596448_2_alg».proof.Proof.Gen.KernelIdeal.Skeleton
import proofs.«181526_j69131793596448_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option Elab.async false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the reset of the scratch), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the write-out of the scratch), from the grid coordinate. -/
abbrev cond0_1 (i : grid0.Coords) : Prop := k0_cond2 i = 1#1
/-- It holds at the last point only. -/
theorem hcond0_1 : ∀ t : Fin cfg0.N, cond0_1 (grid0.coords t) ↔ t.val = 999 :=
  (by decide +kernel : ∀ t : Fin grid0.N, cond0_1 (grid0.coords t) ↔ t.val = 999)

namespace PA

/-! ## Where the windows are idle, and where the output is written back -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Where the second conditional is not taken the output window is idle: nothing is stored into it. -/
theorem idleAt0_2 : ∀ t : Fin cfg0.N, ¬cond0_1 (grid0.coords t) → cfg0.idle 2 (grid0.coords t) = true := by
  intro t h
  show (!(k0_cond2 (grid0.coords t) == 1#1)) = true
  rw [Bool.not_eq_true', beq_eq_false_iff_ne]
  exact h
/-- And there it is not written back: the write-back is at the last point only. -/
theorem noFlush0_2 : ∀ t : Fin cfg0.N, ¬cond0_1 (grid0.coords t) → (cfg0.win 2).flush t = false := by
  intro t h
  have hN : t.val < 1000 := lt_of_lt_of_eq t.isLt (show cfg0.N = 1000 from N_0)
  have h999 : ¬ t.val = 999 := fun e => h ((hcond0_1 t).mpr e)
  cases hf : (cfg0.win 2).flush t with
  | false => rfl
  | true => exact absurd ((flush0_2 t).mp hf) (by omega)
/-- Where the second conditional is taken the output window is live. -/
theorem liveAt0_2 : ∀ t : Fin cfg0.N, cond0_1 (grid0.coords t) → cfg0.idle 2 (grid0.coords t) = false := by
  intro t h
  show (!(k0_cond2 (grid0.coords t) == 1#1)) = false
  rw [Bool.not_eq_false', beq_iff_eq]
  exact h

end PA

/-! ## The staging and scratch memrefs -/

/-- The output window's staging buffer, through which its contents are stated. -/
abbrev VO0_2 : View sig .tc .vmem S1x128 .f32 := (Memref.whole cc0_stg2_0 : Memref sig .tc .vmem S1x128 .f32).view
/-- Each window's current staging memref at point `t`, and its wholeness. -/
abbrev ms0_0 (t : Fin cfg0.N) : Memref sig .tc .vmem S2000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x16 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
/-- The scratch operand: a whole scoped buffer of the kernel's own, carried between points. -/
abbrev scM0_0 : Memref sig .tc .vmem S1x128 .f32 := Memref.whole cc0_scratch0
/-- The scratch as a view: what it holds is stated through it. -/
abbrev VS0_0 : View sig .tc .vmem S1x128 .f32 := scM0_0.view

namespace PA

/-- The scoped buffers of the core that are neither a staging buffer of this region nor its scratch (the other
    region's staging buffers and scratch), each whole at some contents: carried through the region unopened. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

end PA

/-- The region invariant with the scratch as a memref owned at some contents, the other scoped buffers beside it. -/
theorem PhiA0_eq (c : Dev nD) :
    (Pipeline.ΦA spec0 c : sProp 𝕄)
      = iprop(iprop((∃ d, owns (c : Thread nD τ) scM0_0 fullShare d) ∗ PA.rest0 c) ∗ (∃ r, prngReg c r)) := by
  unfold Pipeline.ΦA; rw [scopedRest0_eq]; simp only [scM0_0, owns_whole]; unfold PA.rest0; try rfl

end Cert.KernelIdeal.Hand

end
-- ==== Proof.IR0RunA.lean ====
/- Region 0 (the histogram kernel): the whole-body run of the kernel in case A — the first point: the scratch is reset, the output is not written. The pieces each buffer ends with are the witness the run finds. -/
import proofs.«181526_j69131793596448_2_alg».proof.Proof.IR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (first conditional taken, second not): on whole memrefs — the inputs at their contents, the idle output at
    contents handed back untouched, the scratch at anything — the body runs to the continuation holding the inputs and
    the output as they were and the scratch with its pieces `LS0` written. -/
noncomputable def kernelRun0_A (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.IR0RunB.lean ====
/- Region 0 (the histogram kernel): the whole-body run of the kernel in case B — a middle point: neither conditional is taken; the scratch is carried from the point before. -/
import proofs.«181526_j69131793596448_2_alg».proof.Proof.IR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (neither conditional taken): on whole memrefs — the inputs at their contents, the idle output at contents
    handed back untouched, the scratch at what the point before left (`xs0`) — the body runs to the continuation
    holding the inputs and the output as they were and the scratch with its pieces `LS0` written. -/
noncomputable def kernelRun0_B (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.IR0RunC.lean ====
/- Region 0 (the histogram kernel): the whole-body run of the kernel in case C — the last point: the scratch is not reset, and its contents are stored to the output. -/
import proofs.«181526_j69131793596448_2_alg».proof.Proof.IR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (first conditional not taken, second taken): on whole memrefs — the inputs at their contents, the output at
    anything, the scratch at what the point before left (`xs0`) — the body runs to the continuation holding the inputs
    as they were, the output with its pieces `L2` written and the scratch with its pieces `LS0` written. -/
noncomputable def kernelRun0_C (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.IR0Frame.lean ====
/- Region 0 (the histogram kernel): its frame half at a PARAMETER `V`, the TensorCore's buffer contents when the
   region is entered. What the output window's staging buffer and the carried scratch hold per case (the runs' pieces read
   back) and point by point (`outsAt0`), the region invariant with the scratch at the previous point's contents, the
   proof data, and the body obligation at every point. -/
import proofs.«181526_j69131793596448_2_alg».proof.Proof.IR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output window's buffer and in the scratch -/

/-- Case A (the first point) stores nothing into the output window, idle there and not written back: no pieces — a
    placeholder (junk read back) that nothing consults. -/
def out0_A_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) : Vec F S1x128 .f32 :=
  VO0_2.read (Elt F) (VO0_2.writes (Elt F) VO0_2.junk (kernelRun0_A c i arg1 harg1 arg2 harg2 arg3 harg3 arg4 harg4 hc0 hc1 x0 x1).1)

/-- Case A's pieces for the scratch tile it (whole stores), so they cover it. -/
theorem scover0_A_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) (y : S1x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x128.size (by sl_kernel_rfl) y

/-- What case A leaves in the scratch: its pieces read back over junk. -/
def sout0_A_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) : Vec F S1x128 .f32 :=
  VS0_0.read (Elt F) (VS0_0.writes (Elt F) VS0_0.junk (kernelRun0_A c i arg1 harg1 arg2 harg2 arg3 harg3 arg4 harg4 hc0 hc1 x0 x1).2.1)

/-- Case B (a middle point) stores nothing into the output window, idle there and not written back: no pieces — a
    placeholder (junk read back) that nothing consults. -/
def out0_B_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) : Vec F S1x128 .f32 :=
  VO0_2.read (Elt F) (VO0_2.writes (Elt F) VO0_2.junk (kernelRun0_B c i arg1 harg1 arg2 harg2 arg3 harg3 arg4 harg4 hc0 hc1 x0 x1 xs0).1)

/-- Case B's pieces for the scratch tile it (whole stores), so they cover it. -/
theorem scover0_B_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) (y : S1x128.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x128.size (by sl_kernel_rfl) y

/-- What case B leaves in the scratch: its pieces read back over junk. -/
def sout0_B_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) : Vec F S1x128 .f32 :=
  VS0_0.read (Elt F) (VS0_0.writes (Elt F) VS0_0.junk (kernelRun0_B c i arg1 harg1 arg2 harg2 arg3 harg3 arg4 harg4 hc0 hc1 x0 x1 xs0).2.1)

/-- Case C's pieces for the output window tile its block (one whole store), so they cover it. -/
theorem cover0_C_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) (y : S1x128.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x128.size (by sl_kernel_rfl) y

/-- What case C leaves in the output window's staging buffer: its pieces read back over junk. -/
def out0_C_2 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) : Vec F S1x128 .f32 :=
  VO0_2.read (Elt F) (VO0_2.writes (Elt F) VO0_2.junk (kernelRun0_C c i arg1 harg1 arg2 harg2 arg3 harg3 arg4 harg4 hc0 hc1 x0 x1 xs0).1)

/-- Case C's pieces for the scratch tile it (whole stores), so they cover it. -/
theorem scover0_C_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) (y : S1x128.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x128.size (by sl_kernel_rfl) y

/-- What case C leaves in the scratch: its pieces read back over junk. -/
def sout0_C_0 (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) : Vec F S1x128 .f32 :=
  VS0_0.read (Elt F) (VS0_0.writes (Elt F) VS0_0.junk (kernelRun0_C c i arg1 harg1 arg2 harg2 arg3 harg3 arg4 harg4 hc0 hc1 x0 x1 xs0).2.1)

section Region

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem PA.before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem PA.before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output window's buffer and the scratch hold after each point -/

/-- The accumulation. What the output window's staging buffer (`.1`) and the carried scratch (`.2`) hold after the
    body at position `n`: the case the closed forms select at `n` (the first point, the last point, or a point between),
    run at the point's memrefs and input blocks, the scratch at what this leaves at `n - 1`. -/
def outsAt0 (c : Dev nD) : (n : ℕ) → n < cfg0.N → Vec F S1x128 .f32 × Vec F S1x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd (show (0 : ℕ) = 999 from (hcond0_1 ⟨0, hn⟩).mp h) (by decide)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd (show (0 : ℕ) = 999 from (hcond0_1 ⟨0, hn⟩).mp h) (by decide)) (iblk0 V c 0 ⟨0, hn⟩) (iblk0 V c 1 ⟨0, hn⟩))
  | n + 1, hn =>
    if h1 : n + 1 = 999 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at the first point: case A's contents. -/
theorem outsAt0_A (c : Dev nD) (t : Fin cfg0.N) (h0 : t.val = 0) (h1 : ¬t.val = 999) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

/-- `outsAt0` at a point between the first and the last: case B's contents, over what the point before left. -/
theorem outsAt0_B (c : Dev nD) (t : Fin cfg0.N) (h0 : ¬t.val = 0) (h1 : ¬t.val = 999) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: case C's contents, over what the point before left. -/
theorem outsAt0_C (c : Dev nD) (t : Fin cfg0.N) (h0 : ¬t.val = 0) (h1 : t.val = 999) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (every scoped buffer that is no staging
    buffer at anything, the generator register at some state); afterwards the same with the carried scratch at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ PA.rest0 c) ∗ (∃ r, prngReg c r))

theorem PA.PhiS0_zero (c : Dev nD) (n : ℕ) (h : n ≤ cfg0.N) (hz : n = 0) : PhiS0 V c n h = Pipeline.ΦA spec0 c := by
  subst hz; rfl

theorem PA.PhiS0_succ (c : Dev nD) (n : ℕ) (hn : n < cfg0.N) :
    PhiS0 V c (n + 1) hn = iprop(iprop(owns (c : Thread nD τ) scM0_0 fullShare ((outsAt0 V c n hn).2) ∗ PA.rest0 c) ∗ (∃ r, prngReg c r)) := rfl

theorem PA.PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ PA.rest0 c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt0`; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PA.PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem PA.before0_0 (c : Dev nD) (t : Fin cfg0.N) (d) : (dat0 V c).before 0 t d = iblk0 V c 0 t :=
  PA.before0_0_of V (dat0 V c) (A_eq0 V c 0) (after0_0 V c) t d
theorem PA.before0_1 (c : Dev nD) (t : Fin cfg0.N) (d) : (dat0 V c).before 1 t d = iblk0 V c 1 t :=
  PA.before0_1_of V (dat0 V c) (A_eq0 V c 1) (after0_1 V c) t d

/-! ## The body obligation, at a generic point -/

/-- What the body is called with at point `t`, the windows one by one, -/
def PA.bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def PA.bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in, so that
    case's run applies; the invariant hands the body the scratch at what the point before left (at anything at the first
    point) and takes it back at this point's contents, the pieces covering it; the other scoped buffers, the generator
    register and what the core owes pass through unread. -/
theorem PA.sound_body0 (c : Dev nD) (t : Fin cfg0.N) :
    PA.bodyPre0 V c t ⊢ wp frame (wpE (defs₀ (F := F)) Variants.none c none) Set.univ (bodyAt0 t) (fun _ => PA.bodyPost0 V c t) := by
  unfold PA.bodyPre0 PA.bodyPost0 bodyAt0
  simp only [PA.before0_0, PA.before0_1]
  rw [show (dat0 V c).owesAt () t.succ = (dat0 V c).owesAt () t.castSucc from rfl]
  rw [show (dat0 V c).Φ t.succ = PhiS0 V c (t.val + 1) t.isLt from rfl, PA.PhiS0_succ]
  have hN : t.val < 1000 := lt_of_lt_of_eq t.isLt (show cfg0.N = 1000 from N_0)
  by_cases h0 : t.val = 0
  · have h1 : ¬t.val = 999 := by omega
    rw [show (dat0 V c).leavesExact 0 t = owns (c : Thread nD τ) (ms0_0 t) fullShare ((dat0 V c).after 0 t) from by
      unfold Dat.leavesExact; rw [PA.liveAt0_0 t], after0_0]
    rw [show (dat0 V c).leavesExact 1 t = owns (c : Thread nD τ) (ms0_1 t) fullShare ((dat0 V c).after 1 t) from by
      unfold Dat.leavesExact; rw [PA.liveAt0_1 t], after0_1]
    rw [Dat.leavesExact_idle (dat0 V c) 2 t (PA.idleAt0_2 t (fun h => h1 ((hcond0_1 t).mp h))) (PA.noFlush0_2 t (fun h => h1 ((hcond0_1 t).mp h)))]
    rw [outsAt0_A V c t h0 h1]
    unfold sout0_A_0; (try dsimp only)
    rw [PA.PhiS0_castSucc V c t, PA.PhiS0_zero V c _ _ h0, PhiA0_eq]
    iintro ⟨⟨⟨HS0, Hr⟩, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := h0
    by_cases h1 : t.val = 999
    · rw [show (dat0 V c).leavesExact 0 t = owns (c : Thread nD τ) (ms0_0 t) fullShare ((dat0 V c).after 0 t) from by
        unfold Dat.leavesExact; rw [PA.liveAt0_0 t], after0_0]
      rw [show (dat0 V c).leavesExact 1 t = owns (c : Thread nD τ) (ms0_1 t) fullShare ((dat0 V c).after 1 t) from by
        unfold Dat.leavesExact; rw [PA.liveAt0_1 t], after0_1]
      rw [show (dat0 V c).leavesExact 2 t = owns (c : Thread nD τ) (ms0_2 t) fullShare ((dat0 V c).after 2 t) from by
        unfold Dat.leavesExact; rw [PA.liveAt0_2 t ((hcond0_1 t).mpr h1)], after0_2]
      rw [outsAt0_C V c t h0 h1]
      unfold out0_C_2 sout0_C_0; (try dsimp only)
      rw [PA.PhiS0_castSucc V c t, PA.PhiS0_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [PA.liveAt0_0 t], after0_0]
      rw [show (dat0 V c).leavesExact 1 t = owns (c : Thread nD τ) (ms0_1 t) fullShare ((dat0 V c).after 1 t) from by
        unfold Dat.leavesExact; rw [PA.liveAt0_1 t], after0_1]
      rw [Dat.leavesExact_idle (dat0 V c) 2 t (PA.idleAt0_2 t (fun h => h1 ((hcond0_1 t).mp h))) (PA.noFlush0_2 t (fun h => h1 ((hcond0_1 t).mp h)))]
      rw [outsAt0_B V c t h0 h1]
      unfold sout0_B_0; (try dsimp only)
      rw [PA.PhiS0_castSucc V c t, PA.PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact PA.sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PA.PhiS0_zero V c 0 _ rfl]
  try exact Idealize.SL.BI.Entails.refl _

/-- After any point but the first the invariant gives the class's back: the scratch's named contents are forgotten. -/
theorem PA.Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PA.PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  PA.Phi_out0 V c _ (by rw [Fin.val_last]; have : cfg0.N = 1000 := N_0; omega)

end Region

end Cert.KernelIdeal.Hand

end
-- ==== Proof.IR1Runs.lean ====
import proofs.«181526_j69131793596448_2_alg».proof.Proof.Gen.KernelIdeal.Launch
import proofs.«181526_j69131793596448_2_alg».proof.Proof.Gen.KernelIdeal.Skeleton
import proofs.«181526_j69131793596448_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional of the body: the grid coordinate is zero. -/
abbrev cond1_0 (i : grid1.Coords) : Prop := (Scalar.cmpi .ne (Scalar.extui (Scalar.cmpi .eq (BitVec.ofNat 32 (i 0).val) 0#32)) 0#32) = 1#1

-- one closed form at a time: each is decided over all 1000 points
set_option Elab.async false

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional of the body: the grid coordinate is 999. -/
abbrev cond1_1 (i : grid1.Coords) : Prop := k1_cond2 i = 1#1

/-- It holds at the last point only. -/
theorem hcond1_1 : ∀ t : Fin cfg1.N, cond1_1 (grid1.coords t) ↔ t.val = 999 :=
  (by decide +kernel : ∀ t : Fin grid1.N, cond1_1 (grid1.coords t) ↔ t.val = 999)

namespace PB

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Where the second conditional fails the output is idle: nothing is stored into it. -/
theorem idleAt1_3_of (i : grid1.Coords) (h : ¬cond1_1 i) : cfg1.idle 3 i = true := by
  show (!(k1_cond2 i == 1#1)) = true
  simp only [Bool.not_eq_true', beq_eq_false_iff_ne, ne_eq]; exact h

/-- Where it holds the output is live. -/
theorem liveAt1_3_of (i : grid1.Coords) (h : cond1_1 i) : cfg1.idle 3 i = false := by
  show (!(k1_cond2 i == 1#1)) = false
  simp only [Bool.not_eq_false', beq_iff_eq]; exact h

/-- The output is not written back before the last point. -/
theorem noFlush1_3_of (t : Fin cfg1.N) (h : ¬ t.val = 999) : (cfg1.win 3).flush t = false := by
  have hN : t.val < 1000 := lt_of_lt_of_eq t.isLt (show cfg1.N = 1000 from N_1)
  cases hf : (cfg1.win 3).flush t with
  | false => rfl
  | true => exact absurd (by have := (flush1_3 t).mp hf; omega) h

theorem idleAt1_3_A : ∀ t : Fin cfg1.N, cond1_0 (grid1.coords t) → ¬cond1_1 (grid1.coords t) → cfg1.idle 3 (grid1.coords t) = true :=
  fun t _ h => idleAt1_3_of _ h
theorem noFlush1_3_A : ∀ t : Fin cfg1.N, cond1_0 (grid1.coords t) → ¬cond1_1 (grid1.coords t) → (cfg1.win 3).flush t = false :=
  fun t _ h => noFlush1_3_of t (fun h9 => h ((hcond1_1 t).mpr h9))
theorem idleAt1_3_B : ∀ t : Fin cfg1.N, ¬cond1_0 (grid1.coords t) → ¬cond1_1 (grid1.coords t) → cfg1.idle 3 (grid1.coords t) = true :=
  fun t _ h => idleAt1_3_of _ h
theorem noFlush1_3_B : ∀ t : Fin cfg1.N, ¬cond1_0 (grid1.coords t) → ¬cond1_1 (grid1.coords t) → (cfg1.win 3).flush t = false :=
  fun t _ h => noFlush1_3_of t (fun h9 => h ((hcond1_1 t).mpr h9))
theorem liveAt1_3_C : ∀ t : Fin cfg1.N, ¬cond1_0 (grid1.coords t) → cond1_1 (grid1.coords t) → cfg1.idle 3 (grid1.coords t) = false :=
  fun t _ h => liveAt1_3_of _ h

end PB

/-! ## The memrefs the body runs on -/

/-- One staging buffer of the output window, through which its contents are stated. -/
abbrev VO1_3 : View sig .tc .vmem S1x1 .f32 := (Memref.whole cc1_stg3_0 : Memref sig .tc .vmem S1x1 .f32).view
/-- Each window's current staging memref at point `t`, and its wholeness. -/
abbrev ms1_0 (t : Fin cfg1.N) : Memref sig .tc .vmem S2000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x16 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator, a whole scoped buffer passed beside the windows. -/
abbrev scM1_0 : Memref sig .tc .vmem S1x1 .f32 := Memref.whole cc1_scratch0
/-- The same as a view: what it holds between points is stated through it. -/
abbrev VS1_0 : View sig .tc .vmem S1x1 .f32 := scM1_0.view

namespace PB

/-- Every scoped buffer of the core that is neither a staging buffer of this call nor its scratch accumulator, each at
    some contents: carried through the call unopened. -/
abbrev rest1 (c : Dev nD) : sProp 𝕄 :=
  Pipeline.scopedRestBut (Ix := Unit) (Name := ℕ) (U := UR sig nD τ) (Lvl := ℕ) (Val := Elt F) spec1 c [cc1_scratch0]

/-- The scoped rest of the call split at its scratch accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ rest1 (F := F) c) :=
  Pipeline.scopedRest_split_of_list spec1 c [cc1_scratch0] (by decide) (by decide)

end PB

/-- The class's invariant with the scratch accumulator as a memref owned at some contents, the other scoped buffers
    carried beside it. -/
theorem PhiA1_eq (c : Dev nD) :
    (Pipeline.ΦA spec1 c : sProp 𝕄)
      = iprop(iprop((∃ d, owns (c : Thread nD τ) scM1_0 fullShare d) ∗ PB.rest1 (F := F) c) ∗ (∃ r, prngReg c r)) := by
  unfold Pipeline.ΦA; rw [PB.scopedRest1_split]; simp only [scM1_0, owns_whole]; try rfl

end Cert.KernelIdeal.Hand

end
-- ==== Proof.IR1RunA.lean ====
import proofs.«181526_j69131793596448_2_alg».proof.Proof.IR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last
    first), in case A (the first point: the accumulator is reset, nothing is written out; the output is handed back as it came, the accumulator comes at anything), with the proof that on whole memrefs — the three inputs at their contents — the body
    runs to the continuation holding the inputs as they were and each stored buffer with its pieces written. -/
noncomputable def kernelRun1_A (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.IR1RunB.lean ====
import proofs.«181526_j69131793596448_2_alg».proof.Proof.IR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last
    first), in case B (a point strictly between the first and the last: no reset, nothing written out; the output is handed back as it came, the accumulator comes at what the point before left), with the proof that on whole memrefs — the three inputs at their contents — the body
    runs to the continuation holding the inputs as they were and each stored buffer with its pieces written. -/
noncomputable def kernelRun1_B (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.IR1RunC.lean ====
import proofs.«181526_j69131793596448_2_alg».proof.Proof.IR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last
    first), in case C (the last point: no reset, the accumulator is written out; the output comes at anything, the accumulator at what the point before left), with the proof that on whole memrefs — the three inputs at their contents — the body
    runs to the continuation holding the inputs as they were and each stored buffer with its pieces written. -/
noncomputable def kernelRun1_C (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.IR1Frame.lean ====
import proofs.«181526_j69131793596448_2_alg».proof.Proof.IR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at the first point only and its block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's staging buffer and in the scratch accumulator -/

/-- Case A stores nothing into the output: a placeholder (no pieces read back over junk) that nothing consults. -/
def out1_A_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) : Vec F S1x1 .f32 :=
  VO1_3.read (Elt F) (VO1_3.writes (Elt F) VO1_3.junk (kernelRun1_A c i arg1 harg1 arg2 harg2 arg3 harg3 arg4 harg4 arg5 harg5 hc0 hc1 x0 x1 x2).1)

/-- Case A's pieces for the scratch accumulator cover it. -/
theorem scover1_A_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) (y : S1x1.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x1.size (by sl_kernel_rfl) y

/-- What case A leaves in the scratch accumulator: its pieces read back over junk. -/
def sout1_A_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S2000x16 .f32) (x1 : Vec F S2000x16 .i32) (x2 : Vec F S1x128 .f32) : Vec F S1x1 .f32 :=
  VS1_0.read (Elt F) (VS1_0.writes (Elt F) VS1_0.junk (kernelRun1_A c i arg1 harg1 arg2 harg2 arg3 harg3 arg4 harg4 arg5 harg5 hc0 hc1 x0 x1 x2).2.1)

/-- Case B stores nothing into the output: a placeholder (no pieces read back over junk) that nothing consults. -/
def out1_B_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 hc1 x0 x1 x2 xs0).1)

/-- Case B's pieces for the scratch accumulator cover it. -/
theorem scover1_B_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) (y : S1x1.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x1.size (by sl_kernel_rfl) y

/-- What case B leaves in the scratch accumulator: its pieces read back over junk. -/
def sout1_B_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S2000x16 .f32) (x1 : Vec F S2000x16 .i32) (x2 : Vec F S1x128 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- Case C's pieces for the output tile its block, so they cover it. -/
theorem cover1_C_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) (y : S1x1.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x1.size (by sl_kernel_rfl) y

/-- What case C leaves in the output's staging buffer: its pieces read back over junk. -/
def out1_C_3 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs0).1)

/-- Case C's pieces for the scratch accumulator cover it. -/
theorem scover1_C_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) (y : S1x1.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x1.size (by sl_kernel_rfl) y

/-- What case C leaves in the scratch accumulator: its pieces read back over junk. -/
def sout1_C_0 (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S2000x16 .f32) (x1 : Vec F S2000x16 .i32) (x2 : Vec F S1x128 .f32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 hc0 hc1 x0 x1 x2 xs0).2.1)

/-! ## What the output's staging buffer and the accumulator hold after each point -/

/-- The accumulation: the case the closed forms select at position `n`, run at the point's memrefs and input blocks, the
    accumulator at what position `n - 1` left (first component: the output's staging buffer; second: the accumulator). -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : n + 1 = 999 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point: case A's contents. -/
theorem outsAt1_A (c : Dev nD) (t : Fin cfg1.N) (h0 : t.val = 0) (h1 : ¬t.val = 999) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (by exfalso; (try dsimp only at h0); omega)

/-- `outsAt1` at a point strictly between the first and the last: case B's contents, over what the point before left. -/
theorem outsAt1_B (c : Dev nD) (t : Fin cfg1.N) (h0 : ¬t.val = 0) (h1 : ¬t.val = 999) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact h0 rfl)
  | succ n => exact (dif_neg h1).trans rfl

/-- `outsAt1` at the last point: case C's contents, over what the point before left. -/
theorem outsAt1_C (c : Dev nD) (t : Fin cfg1.N) (h0 : ¬t.val = 0) (h1 : t.val = 999) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact h0 rfl)
  | succ n => exact (dif_pos h1).trans rfl

/-- The region invariant before position `n`: before the first point the class's (every scoped buffer that is no staging
    buffer at anything); afterwards the accumulator at what the point before left in it, the other scoped buffers at
    anything, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ PB.rest1 (F := F) c) ∗ (∃ r, prngReg c r))

namespace PB

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ PB.rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ PB.rest1 (F := F) c) ∗ (∃ r, prngReg c r)) := by
  cases n with
  | zero => exact absurd rfl hz
  | succ n => rfl

end PB

/-! ## The pipeline's proof data -/

/-- The proof data of the pipeline on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

namespace PB

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

end PB

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

namespace PB

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the first point) and takes it
    back at this point's contents, the other scoped buffers and the generator register passing through; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1000 := lt_of_lt_of_eq t.isLt (show cfg1.N = 1000 from N_1)
  by_cases h0 : t.val = 0
  · by_cases h1 : t.val = 999
    · exfalso; omega
    · -- the first point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      rw [PhiS1_castSucc V c t, PhiS1_zero V c _ _ h0, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · by_cases h1 : t.val = 999
    · -- the last point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a point strictly between
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

end PB

/-- The library's body obligation, at every point. -/
theorem body_obligation1 (c : Dev nD) : BodyObligation (dat1 (F := F) V c) (defs₀ (F := F)) Variants.none () Set.univ := fun t => by
  rw [bigSep_W1, bigSep_W1]
  exact PB.sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PB.PhiS1_zero V c 0 _ rfl]
  try exact Idealize.SL.BI.Entails.refl _

namespace PB

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

end PB

/-- The same after the last point. -/
theorem hout1 (c : Dev nD) : (dat1 V c).Φ (Fin.last cfg1.N) ⊢ Pipeline.ΦA spec1 c :=
  PB.Phi_out1 V c _ (by rw [Fin.val_last]; have : cfg1.N = 1000 := N_1; omega)

end Cert.KernelIdeal.Hand

end
-- ==== Proof.IMainRun.lean ====
/- The run of the main function over the two regions' halves: the buffers' contents at every boundary between two
   segments (a fold from the launch memory: a host stretch's result, a region's arrays at what its write-backs leave),
   each argument array read back through the fold to its launch contents, every pipeline's proof data at its region's
   entry contents, a segment per host stretch and per region over the thread state "every unscoped buffer at the
   boundary's contents, the generator register at some state, nothing owed", and the launch: every final state holds
   every unscoped buffer at the last boundary's contents, hence the arguments as launched. Stated at any float
   interpretation. -/
import proofs.«181526_j69131793596448_2_alg».proof.Proof.Gen.KernelIdeal.Launch
import proofs.«181526_j69131793596448_2_alg».proof.Proof.Gen.KernelIdeal.Skeleton
import proofs.«181526_j69131793596448_2_alg».proof.Proof.Gen.KernelIdeal.Points
import proofs.«181526_j69131793596448_2_alg».proof.Proof.Gen.KernelIdeal.Regions
import proofs.«181526_j69131793596448_2_alg».proof.Proof.IR0Frame
import proofs.«181526_j69131793596448_2_alg».proof.Proof.IR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary between two segments of the main function

The main function is region 0, five stretches of host operations, region 1, one more stretch. -/

/-- Core `c`'s buffers at launch. -/
abbrev W0 : Dev nD → Valuation τ sig (Elt F) := fun c b => m (c, b)
/-- The same read at the TensorCore's references: region 0's entry contents (no host operation stands before it). -/
abbrev V0r : (c : Dev nD) → (b : Ref sig .tc) → Buf (Elt F) ((c : Thread nD τ).loc b) := fun c b => W0 m c b
/-- At region 0's exit: its arrays at what the pipeline leaves (the inputs as entered, the output's write-backs folded),
    every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- After each of the five host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- The same read at the TensorCore's references: region 1's entry contents. -/
abbrev V6r : (c : Dev nD) → (b : Ref sig .tc) → Buf (Elt F) ((c : Thread nD τ).loc b) := fun c b => W6 m c b
/-- At region 1's exit: its arrays at what the pipeline leaves, every other buffer as entered. -/
def W7 (c : Dev nD) : Valuation τ sig (Elt F) :=
  Pipeline.withArrays spec1 c (W6 m c) fun w => (dat1 (V6r m) c).arrAt w cfg1.N
theorem W7_arr (c : Dev nD) (w : Fin cfg1.W) :
    W7 m c (Proc.devRef .tc (Pipeline.arrRef spec1 w)) = (dat1 (V6r m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- After the last host stretch: what the main function returns on. -/
abbrev W8 : Dev nD → Valuation τ sig (Elt F) := fun c => StableHlo.after hostOps2 (W7 m c)

namespace PC

/-- The regions' exit contents read at the TensorCore's references. -/
abbrev V1r : (c : Dev nD) → (b : Ref sig .tc) → Buf (Elt F) ((c : Thread nD τ).loc b) := fun c b => W1 m c b
abbrev V7r : (c : Dev nD) → (b : Ref sig .tc) → Buf (Elt F) ((c : Thread nD τ).loc b) := fun c b => W7 m c b
/-- At a region's exit each of its arrays holds what the pipeline leaves and every other buffer what it held at entry. -/
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)
theorem hF1 (c : Dev nD) (w : Fin cfg1.W) : (dat1 (V6r m) c).arrAt w cfg1.N = V7r m c (Pipeline.arrRef spec1 w) :=
  (W7_arr m c w).symm
theorem hrest1 (c : Dev nD) : ∀ b, b ∉ Finset.univ.image (Pipeline.arrRef spec1) → V7r m c b = V6r m c b :=
  fun b hb => W7_of_ne m c b fun w e => hb (Finset.mem_image.mpr ⟨w, Finset.mem_univ _, e⟩)

end PC

/-! ## The arguments end as launched: no host operation writes one, and a region reads it through an input window or
    leaves it aside, so the fold at an argument's buffer walks back to the launch memory -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := (W7_arr m c 0).trans (((dat1 (V6r m) c).arrAt_in 0 rfl _).trans (A_eq1 (V6r m) c 0))
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (V0r m) c).arrAt_in 0 rfl _).trans (A_eq0 (V0r m) c 0))
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := (W7_arr m c 1).trans (((dat1 (V6r m) c).arrAt_in 1 rfl _).trans (A_eq1 (V6r m) c 1))
    _ = W5 m c (Proc.devRef .tc main_arg1) := StableHlo.after_of_writes_sub hostOps1_4 _ hostOps1_4_writes (by decide)
    _ = W4 m c (Proc.devRef .tc main_arg1) := StableHlo.after_of_writes_sub hostOps1_3 _ hostOps1_3_writes (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := (W1_arr m c 1).trans (((dat0 (V0r m) c).arrAt_in 1 rfl _).trans (A_eq0 (V0r m) c 1))
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace PC

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V6r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents after the stretch, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what is owed: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its arrays are
    split out of the unscoped buffers and put back at the exit contents; the generator register goes into the class
    invariant and comes out of it, the region's own invariant standing between the two; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun w => A_eq0 (V0r m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0r m) c)
    unfold Pipeline.ΦA
    iintro ⟨Hp, -, Hr⟩
    isplitl [Hr]; · iexact Hr
    iexact Hp
  hout c := by
    refine BIBase.Entails.trans (hout0 (V0r m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W6`, left at `W7`. Its arrays are
    split out of the unscoped buffers and put back at the exit contents; the generator register goes into the class
    invariant and comes out of it, the region's own invariant standing between the two; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6r m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6r m c) fun w => A_eq1 (V6r m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6r m) c)
    unfold Pipeline.ΦA
    iintro ⟨Hp, -, Hr⟩
    isplitl [Hr]; · iexact Hr
    iexact Hp
  hout c := by
    refine BIBase.Entails.trans (hout1 (V6r m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6r m c) (V7r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

/-- The main function's eight segments in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)) ]
/-- The main function is the run of the segments: it is the chain of its items, and the segments' run is the chain of
    their programs, the same items. -/
theorem main_run (c : Dev nD) : main (F := F) c = Pipeline.Seg.run (segs m) := by
  rw [main_chain c, Pipeline.Seg.run_eq_chain]; rfl

-- the launch theorem's implicit arguments are found by unifying its conclusion with this one, which takes unfolding
-- plain definitions in a metavariable's type
set_option backward.isDefEq.respectTransparency.types false in
/-- The launch over the segments, at any claim `Q` that follows from every core's unscoped buffers holding the last
    boundary's contents: at the compiled mesh, from any memory with zero counters, every weakly fair execution of the
    main function on the TensorCores terminates, nothing faulting, and every final state satisfies `Q`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W8 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c)
            ∗ (∃ r, prngReg c r) ∗ ∃ W, owes (c : Thread nD τ) (0 : CellTallies nD τ sig Unit) W)
          ⊢ iprop((StableHlo.held (c : Thread nD τ) (Pipeline.ucRefs τ sig) (W8 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := hQ)

end PC

/-- THE RUN: at the compiled mesh, from any memory with zero counters, every weakly fair execution of the main function
    on the TensorCores terminates, nothing faulting, and in every final state every unscoped buffer of every core holds
    the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  PC.run_of m ρ fun _ h => h

/-- THE FRAME: every final state has the argument arrays as launched, each read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  PC.run_of m ρ fun s h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c)⟩

/-- info: 'Cert.KernelIdeal.Hand.frame' depends on axioms: [propext, Classical.choice, Quot.sound] -/
#guard_msgs in #print axioms frame
/-- info: 'Cert.KernelIdeal.Hand.run_all' depends on axioms: [propext, Classical.choice, Quot.sound] -/
#guard_msgs in #print axioms run_all

end Cert.KernelIdeal.Hand

end
-- ==== Proof.IHost.lean ====
/-
  The host lines between and after the two kernel calls, as pure functions.

  Between the calls the host cuts the thirty bin counts out of the lane-padded histogram row (cnt30), forms the
  weight of each bin from the counts and the running averages (perBinW: a bin is non-empty when its count is
  positive; its average moves to 0.75 · acc + 0.25 · count; the weight is 3.2e7 over that average — over 1 for an
  empty bin — over the number of non-empty bins, at least 1), and lays the thirty weights into a zero row of 128
  lanes (padW).  After the second call it divides the accumulated sum by the number of elements, 3.2e7, and
  multiplies by the loss weight 1 (lossOut).  Whatever the buffers hold when the first host line runs, the row the
  second call reads and the scalar the program returns are these functions of the two calls' results.
-/
import proofs.«181526_j69131793596448_2_alg».proof.Proof.Gen.KernelIdeal.Launch
import Idealize.ShloMosaic.Lib.StableHlo.Run
import Idealize.ShloMosaic.Lib.Pipeline.Frame

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The thirty bin counts: lanes 0 … 29 of the histogram row, as a vector. -/
def cnt30 (row : FVec F S1x128 .f32) : FVec F S30 .f32 :=
  shapeCast S30 (extractStridedSlice S1x30 ![0, 0] row slices_S1x128_S1x30_0_0) shapeCasts_S1x30_S30

/-- Which bins are non-empty: a positive count. -/
def nonempty30 (counts : FVec F S30 .f32) : IVec S30 1 :=
  cmpf .ogt counts (broadcastInDim S30 ![] bcast_S_S30 (constant (F := F) S_ .f32 0x00000000#32))

/-- The weight of each bin from the counts and the running averages. -/
def perBinW (counts acc : FVec F S30 .f32) : FVec F S30 .f32 :=
  Host.divf
    (Host.divf (broadcastInDim S30 ![] bcast_S_S30 (constant (F := F) S_ .f32 0x4BF42400#32))
      (select (nonempty30 counts)
        (select (nonempty30 counts)
          (addf (mulf (broadcastInDim S30 ![] bcast_S_S30 (constant (F := F) S_ .f32 0x3F400000#32)) acc)
            (mulf (broadcastInDim S30 ![] bcast_S_S30 (constant (F := F) S_ .f32 0x3E800000#32)) counts))
          acc)
        (broadcastInDim S30 ![] bcast_S_S30 (constant (F := F) S_ .f32 0x3F800000#32))))
    (broadcastInDim S30 ![] bcast_S_S30
      (maximumf
        (sitofp .f32 (Host.reduce IntOp.addi (extui 32 (nonempty30 counts) natLt_1_32) (constantI S_ 32 0#32) reducesTo_S30_S_d0 h_S_))
        (constant (F := F) S_ .f32 0x3F800000#32)))

/-- The thirty weights laid into lanes 0 … 29 of a zero row of 128 lanes. -/
def padW (w : FVec F S30 .f32) : FVec F S1x128 .f32 :=
  Host.scatter scatter_S1x128_S2_S30_0_0_01_0 (fun _ b => b)
    (broadcastInDim S1x128 ![] bcast_S_S1x128 (constant (F := F) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    w

/-- The returned scalar from the accumulated sum: divided by 3.2e7, times 1. -/
def lossOut (x : FVec F S1x1 .f32) : FVec F S_ .f32 :=
  mulf (Host.divf (shapeCast S_ x shapeCasts_S1x1_S_) (constant (F := F) S_ .f32 0x4BF42400#32)) (constant (F := F) S_ .f32 0x3F800000#32)

/-- The five host stretches between the calls, run from any contents, leave in the weights row the padded weights
    of the counts cut out of the histogram row and of the running averages. -/
theorem host_mid (Wa : Valuation τ sig (Elt F)) :
    StableHlo.after hostOps1_4 (StableHlo.after hostOps1_3 (StableHlo.after hostOps1_2 (StableHlo.after hostOps1_1
        (StableHlo.after hostOps1 Wa)))) (Proc.devRef .tc main_v25)
      = padW (perBinW (cnt30 (Wa (Proc.devRef .tc main_v0))) (Wa (Proc.devRef .tc main_arg2))) := by
  rw [← StableHlo.after_append, ← StableHlo.after_append, ← StableHlo.after_append, ← StableHlo.after_append]
  simp only [hostOps1, hostOps1_1, hostOps1_2, hostOps1_3, hostOps1_4, List.cons_append, List.nil_append]
  after_results_simp
  rfl

/-- They write neither argument array. -/
theorem host_mid_arg0 (Wa : Valuation τ sig (Elt F)) :
    StableHlo.after hostOps1_4 (StableHlo.after hostOps1_3 (StableHlo.after hostOps1_2 (StableHlo.after hostOps1_1
        (StableHlo.after hostOps1 Wa)))) (Proc.devRef .tc main_arg0) = Wa (Proc.devRef .tc main_arg0) := by
  rw [← StableHlo.after_append, ← StableHlo.after_append, ← StableHlo.after_append, ← StableHlo.after_append]
  simp only [hostOps1, hostOps1_1, hostOps1_2, hostOps1_3, hostOps1_4, List.cons_append, List.nil_append]
  after_results_simp

theorem host_mid_arg1 (Wa : Valuation τ sig (Elt F)) :
    StableHlo.after hostOps1_4 (StableHlo.after hostOps1_3 (StableHlo.after hostOps1_2 (StableHlo.after hostOps1_1
        (StableHlo.after hostOps1 Wa)))) (Proc.devRef .tc main_arg1) = Wa (Proc.devRef .tc main_arg1) := by
  rw [← StableHlo.after_append, ← StableHlo.after_append, ← StableHlo.after_append, ← StableHlo.after_append]
  simp only [hostOps1, hostOps1_1, hostOps1_2, hostOps1_3, hostOps1_4, List.cons_append, List.nil_append]
  after_results_simp

/-- The last stretch, run from any contents, leaves in the result the scalar of the accumulated sum. -/
theorem host_tail (Wa : Valuation τ sig (Elt F)) :
    StableHlo.after hostOps2 Wa (Proc.devRef .tc main_v29) = lossOut (Wa (Proc.devRef .tc main_v26)) := by
  simp only [hostOps2]
  after_results
  rfl

end Cert.KernelIdeal.Hand

end
-- ==== Proof.IGlue.lean ====
/-
  What the buffers the value depends on hold at each boundary of the main function's run.

  The histogram row after the first call is that call's output array; the running averages and the two argument
  arrays are untouched up to the second call; the weights row the second call reads is the padded weights of the
  counts cut out of the histogram row; the accumulated sum after the second call is that call's output array; the
  returned scalar is the last stretch's function of it.
-/
import proofs.«181526_j69131793596448_2_alg».proof.Proof.IMainRun
import proofs.«181526_j69131793596448_2_alg».proof.Proof.IHost

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- After the first call the histogram row is the call's output array. -/
theorem W1_v0 (c : Dev nD) : W1 m c (Proc.devRef .tc main_v0) = (dat0 (V0r m) c).arrAt 2 cfg0.N :=
  W1_arr m c 2

/-- The first call leaves the running averages as launched. -/
theorem W1_arg2 (c : Dev nD) : W1 m c (Proc.devRef .tc main_arg2) = m ((c : Thread nD τ).loc main_arg2) :=
  (W1_of_ne m c main_arg2 (by decide)).trans rfl

/-- The first call leaves its input arrays as launched. -/
theorem W1_arg0 (c : Dev nD) : W1 m c (Proc.devRef .tc main_arg0) = m ((c : Thread nD τ).loc main_arg0) :=
  ((W1_arr m c 0).trans (((dat0 (V0r m) c).arrAt_in 0 rfl _).trans (A_eq0 (V0r m) c 0))).trans rfl
theorem W1_arg1 (c : Dev nD) : W1 m c (Proc.devRef .tc main_arg1) = m ((c : Thread nD τ).loc main_arg1) :=
  ((W1_arr m c 1).trans (((dat0 (V0r m) c).arrAt_in 1 rfl _).trans (A_eq0 (V0r m) c 1))).trans rfl

/-- The second call finds the argument arrays as launched -/
theorem V6r_arg0 (c : Dev nD) : V6r m c main_arg0 = m ((c : Thread nD τ).loc main_arg0) :=
  (host_mid_arg0 (W1 m c)).trans (W1_arg0 m c)
theorem V6r_arg1 (c : Dev nD) : V6r m c main_arg1 = m ((c : Thread nD τ).loc main_arg1) :=
  (host_mid_arg1 (W1 m c)).trans (W1_arg1 m c)

/-- and the weights row at the padded weights of the first call's counts and the launched running averages. -/
theorem V6r_v25 (c : Dev nD) :
    V6r m c main_v25 = padW (perBinW (cnt30 ((dat0 (V0r m) c).arrAt 2 cfg0.N)) (m ((c : Thread nD τ).loc main_arg2))) := by
  refine (host_mid (W1 m c)).trans ?_
  rw [W1_v0, W1_arg2]

/-- After the second call the accumulated sum is the call's output array, -/
theorem W7_v26 (c : Dev nD) : W7 m c (Proc.devRef .tc main_v26) = (dat1 (V6r m) c).arrAt 3 cfg1.N :=
  W7_arr m c 3

/-- and the returned scalar is the last stretch's function of it. -/
theorem W8_v29 (c : Dev nD) : W8 m c (Proc.devRef .tc main_v29) = lossOut ((dat1 (V6r m) c).arrAt 3 cfg1.N) := by
  refine (host_tail (W7 m c)).trans ?_
  rw [W7_v26]

end Cert.KernelIdeal.Hand

end
-- ==== Proof.Spec.lean ====
/-
  The specification of the gradient-harmonised loss, one element at a time, at the ideal values (floats are extended
  reals, every operation exact).

  For a logit p and an integer target t the gradient density is g = |σ(p) − t|, its bin is g·30 truncated toward zero and
  clipped to [0, 29] (binOf).  A histogram counts the elements of each bin; from the counts and the running
  averages a weight per bin is formed; the loss is the sum over all elements of the binary cross-entropy with logits,
  t·softplus(−p) + (1 − t)·softplus(p) (bceOf), times the weight of the element's bin, divided by the number of elements.

  Both programs walk the same data; they differ in how sums are grouped (row tiles of 2000 rows accumulated one after the
  other, against one sum over everything) and in how a bin's count and weight are looked up (thirty compare-and-select
  rounds, against a scatter-add and a gather).  This file fixes the per-element functions and one tile's share of the
  histogram (laneCount) and of the loss (tileLoss), over which both sides are stated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes the statements are written over: a tile of 2000 rows of 16 logits, and the lane-padded row of 128. -/
abbrev T2000x16 : Shape := ⟨2, ![2000, 16]⟩
abbrev T1x128 : Shape := ⟨2, ![1, 128]⟩

/-- The bin of one element: |σ(p) − t| · 30, truncated toward zero, clipped to [0, 29]. -/
def binOf (p : Ideal .f32) (t : BitVec 32) : BitVec 32 :=
  IntOp.minsi 29#32 (IntOp.maxsi 0#32 (FloatOps.fptosi 32
    (FloatOps.mulf (FloatOps.absf (FloatOps.subf (FloatOps.logistic p) (FloatOps.sitofp .f32 t)))
      (Ideal.ofBits .f32 0x41F00000#32))))

/-- softplus(x) = log(1 + eˣ), computed as max(x, 0) + log1p(exp(0 − |x − 0|)) unless x − 0 differs from itself
    (which no extended real does). -/
def softplusOf (x : Ideal .f32) : Ideal .f32 :=
  Scalar.select (FloatOps.cmpf .one (FloatOps.subf x (Ideal.ofBits .f32 0x00000000#32)) (FloatOps.subf x (Ideal.ofBits .f32 0x00000000#32)))
    (FloatOps.addf x (Ideal.ofBits .f32 0x00000000#32))
    (FloatOps.addf (FloatOps.maximumf x (Ideal.ofBits .f32 0x00000000#32))
      (FloatOps.log1p (FloatOps.exp (FloatOps.subf (Ideal.ofBits .f32 0x00000000#32)
        (FloatOps.absf (FloatOps.subf x (Ideal.ofBits .f32 0x00000000#32)))))))

/-- The binary cross-entropy with logits of one element: t · softplus(0 − p) + (1 − t) · softplus(p). -/
def bceOf (p : Ideal .f32) (t : BitVec 32) : Ideal .f32 :=
  FloatOps.addf
    (FloatOps.mulf (FloatOps.sitofp .f32 t) (softplusOf (FloatOps.subf (Ideal.ofBits .f32 0x00000000#32) p)))
    (FloatOps.mulf (FloatOps.subf (Ideal.ofBits .f32 0x3F800000#32) (FloatOps.sitofp .f32 t)) (softplusOf p))

/-- The weight looked up for bin k in a lane-padded row of weights: lane k of the row when k < 30, else 0. -/
def wOf (w : T1x128.Idx → Ideal .f32) (k : BitVec 32) : Ideal .f32 :=
  if h : k.toNat < 30 then w (ix2 (0 : Fin 1) (⟨k.toNat, by omega⟩ : Fin 128)) else 0

/-- One tile's share of lane j of the histogram row: the number of its elements whose bin is j, for j < 30; the
    padding lanes get nothing. -/
def laneCount (x0 : T2000x16.Idx → Ideal .f32) (x1 : T2000x16.Idx → BitVec 32) (j : Fin 128) : EReal :=
  if j.val < 30 then
    ∑ r : Fin 2000, ∑ q : Fin 16, (if binOf (x0 (ix2 r q)) (x1 (ix2 r q)) = BitVec.ofNat 32 j.val then (1 : EReal) else 0)
  else 0

/-- One tile's share of the loss: the sum over its elements of the cross-entropy times the weight of the element's bin. -/
def tileLoss (x0 : T2000x16.Idx → Ideal .f32) (x1 : T2000x16.Idx → BitVec 32) (w : T1x128.Idx → Ideal .f32) : EReal :=
  ∑ r : Fin 2000, ∑ q : Fin 16, bceOf (x0 (ix2 r q)) (x1 (ix2 r q)) * wOf w (binOf (x0 (ix2 r q)) (x1 (ix2 r q)))

/-- A bin is one of 0, …, 29: the clip's upper bound. -/
theorem binOf_lt (p : Ideal .f32) (t : BitVec 32) : (binOf p t).toNat < 30 := by
  unfold binOf IntOp.minsi IntOp.maxsi
  generalize (FloatOps.fptosi (F := Ideal) (φ := .f32) 32 _ : BitVec 32) = v
  cases h1 : v.slt 0#32
  · simp only [Bool.false_eq_true, if_false]
    cases h2 : (29#32 : BitVec 32).slt v
    · simp only [Bool.false_eq_true, if_false]
      have h1' : ¬ v.toInt < (0#32 : BitVec 32).toInt := by
        intro hh; rw [BitVec.slt, decide_eq_false_iff_not] at h1; exact h1 hh
      have h2' : ¬ (29#32 : BitVec 32).toInt < v.toInt := by
        intro hh; rw [BitVec.slt, decide_eq_false_iff_not] at h2; exact h2 hh
      have e0 : (0#32 : BitVec 32).toInt = 0 := by decide
      have e29 : (29#32 : BitVec 32).toInt = 29 := by decide
      rw [e0] at h1'; rw [e29] at h2'
      have hlt := v.isLt
      rw [BitVec.toInt_eq_toNat_cond] at h1' h2'
      split at h1' <;> split at h2' <;> omega
    · simp only [if_true]; decide
  · simp only [if_true]; decide

end Cert.Spec

end
-- ==== Proof.IR0ValLib.lean ====
/-
  Steps of a keepdims-style total of an a × b array, read at an index written by coordinates, at the ideal
  values: the sum over the columns of each row, a length-a array laid out as a column, the sum down the rows of
  each column, and a 1 × 1 array repeated along a row.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand.PE

open Idealize.ShloMosaic Idealize.ShloMosaic.ValueIdx

variable {α : Type}

/-- The sum over axis 1 of an a × b array from the zero word is, at row r, the sum of that row's entries. -/
theorem sumAxis1_apply {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (r : Fin a) :
    multiReduction .add [1] ⟨1, ![a]⟩ v 0x00000000#32 h hφ hacc (ix1 r) = ∑ q : Fin b, v (ix2 r q) := by
  refine (Ideal.multiReduction_add_single v 0x00000000#32 h hφ hacc (ix1 r)).trans ?_
  refine Finset.sum_congr rfl fun k _ => congrArg v ?_
  funext c
  apply Fin.ext
  show h.liftVal (ix1 r) k.val c = (ix2 r k c).val
  match c with
  | ⟨0, _⟩ => simp [Shape.Reduces.liftVal]
  | ⟨1, _⟩ => simp [Shape.Reduces.liftVal]

/-- The sum over axis 0 of an a × b array from the zero word is, at column q, the sum of that column's entries. -/
theorem sumAxis0_apply {a b : ℕ} (v : FVec Ideal ⟨2, ![a, b]⟩ .f32) (h : (⟨2, ![a, b]⟩ : Shape).Reduces [0] ⟨1, ![b]⟩)
    (hφ : FTy.f32 = FTy.f32 ∨ FTy.f32 = FTy.bf16) (hacc : (0x00000000#32 : BitVec 32) = 0x00000000#32) (q : Fin b) :
    multiReduction .add [0] ⟨1, ![b]⟩ v 0x00000000#32 h hφ hacc (ix1 q) = ∑ r : Fin a, v (ix2 r q) := by
  refine (Ideal.multiReduction_add_single v 0x00000000#32 h hφ hacc (ix1 q)).trans ?_
  refine Finset.sum_congr rfl fun k _ => congrArg v ?_
  funext c
  apply Fin.ext
  show h.liftVal (ix1 q) k.val c = (ix2 k q c).val
  match c with
  | ⟨0, _⟩ => simp [Shape.Reduces.liftVal]
  | ⟨1, _⟩ => simp [Shape.Reduces.liftVal]

/-- A length-a array laid out as an a × 1 column holds, at (i, u), its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A 1 × 1 array repeated along a row of b entries holds its one entry everywhere. -/
theorem broadcastTo_11_1b_apply {b : ℕ} (v : (⟨2, ![1, 1]⟩ : Shape).Idx → α) (h : (⟨2, ![1, 1]⟩ : Shape).Broadcasts ⟨2, ![1, b]⟩)
    (p : Fin 1) (c : Fin b) : broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.KernelIdeal.Hand.PE

end
-- ==== Proof.IR0ValRound.lean ====
/-
  One grid point of the histogram kernel as a function of plain vectors.  A round for the bin word b adds to the
  lane-padded row, at the lane whose number is b, the number of the tile's elements whose bin is b (a 0/1 indicator
  summed along each row, the row totals summed down the column, the 1 × 1 total repeated along the 128 lanes and kept
  at lane b only), and adds 0 at every other lane.  The thirty rounds b = 0, …, 29 in order are histStep.  Read at
  lane j the result is the row's entry plus the tile's share of lane j of the histogram: for j < 30 exactly one round
  meets lane j, for j ≥ 30 none does.  The last part identifies each store's payload of the printed kernel, over the
  values passed to it from the preceding windows of the printed text, with the round of its bin word.
-/
import proofs.«181526_j69131793596448_2_alg».proof.Proof.Spec
import proofs.«181526_j69131793596448_2_alg».proof.Proof.Gen.KernelIdeal.Skeleton
import proofs.«181526_j69131793596448_2_alg».proof.Proof.IR0ValLib

noncomputable section

open scoped BigOperators

namespace Cert.KernelIdeal.Hand.PE

open Cert.KernelIdeal Cert.KernelIdeal.Gen
open Idealize.ShloMosaic Idealize.ShloMosaic.ValueIdx

variable {F : FTy → Type} [FloatOps F]

/-! ## One round, and the thirty rounds -/

/-- The tile's number of elements of bin b as the kernel forms it, a 1 × 1 array: the indicator of "bin = b" as a
    float, summed along each row, laid out as a column, summed down the column, laid out 1 × 1. -/
def binTotal (b : BitVec 32) (idx : IVec S2000x16 32) : FVec F S1x1 .f32 :=
  shapeCast S1x1
    (shapeCast S1x1
      (multiReduction .add [0] S1
        (shapeCast S2000x1
          (multiReduction .add [1] S2000 (sitofp .f32 (extui 32 (cmpi .eq idx (broadcast S2000x16 b)) natLt_1_32))
            0x00000000#32 reduces_S2000x16_S2000 (.inl rfl) rfl)
          shapeCasts_S2000_S2000x1)
        0x00000000#32 reduces_S2000x1_S1 (.inl rfl) rfl)
      shapeCasts_S1_S1x1)
    shapeCasts_S1x1_S1x1

/-- The round of bin word b: the row plus, at the lanes whose number (lane) is b, the tile's total for b, and plus 0
    at the others. -/
def binRound (b : BitVec 32) (lane : IVec S1x128 32) (idx : IVec S2000x16 32) (acc : Vec F S1x128 .f32) : FVec F S1x128 .f32 :=
  shapeCast S1x128
    (addf acc
      (select (cmpi .eq lane (broadcast S1x128 b))
        (broadcastTo S1x128 (binTotal b idx) broadcasts_S1x1_S1x128)
        (broadcast S1x128 (Scalar.ofBits .f32 0x00000000#32))))
    shapeCasts_S1x128_S1x128

/-- The first n rounds, b = 0, …, n − 1, in order. -/
def histFrom (lane : IVec S1x128 32) (idx : IVec S2000x16 32) : ℕ → Vec F S1x128 .f32 → Vec F S1x128 .f32
  | 0, acc => acc
  | n + 1, acc => binRound (BitVec.ofNat 32 n) lane idx (histFrom lane idx n acc)

/-- One grid point: the thirty rounds over the tile's bins (the kernel's clipped integer chain of the logits and the
    targets) and the lane numbers. -/
def histStep (acc : Vec F S1x128 .f32) (x0 : Vec F S2000x16 .f32) (x1 : Vec F S2000x16 .i32) : Vec F S1x128 .f32 :=
  histFrom (iota .tc S1x128 32 [1] iota_S1x128_d1_w32) (k0_pay2 x0 x1) 30 acc

/-! ## The rounds read at a lane, at the ideal values -/

/-- The comparison's bit: 1 when the words agree … -/
theorem cmpi_eq_one {x b : BitVec 32} (h : x = b) : IntOp.cmpi .eq x b = 1#1 := by
  subst h
  show BitVec.ofBool (x == x) = 1#1
  rw [beq_self_eq_true]; rfl
/-- … and 0 when they do not. -/
theorem cmpi_eq_zero {x b : BitVec 32} (h : ¬x = b) : IntOp.cmpi .eq x b = 0#1 := by
  show BitVec.ofBool (x == b) = 0#1
  rw [beq_eq_false_iff_ne.mpr h]; rfl

/-- The indicator of "x = b" as the kernel forms it (the comparison's bit widened to a word, then to a float) is 1 or
    0 on the extended reals. -/
theorem sitofp_eqBit (x b : BitVec 32) :
    (FloatOps.sitofp .f32 ((IntOp.cmpi .eq x b).setWidth 32) : Ideal .f32) = if x = b then (1 : EReal) else 0 := by
  by_cases h : x = b
  · rw [cmpi_eq_one h, if_pos h]
    show (((BitVec.setWidth 32 1#1).toInt : ℝ) : EReal) = 1
    have e1 : (BitVec.setWidth 32 1#1).toInt = 1 := by decide
    rw [e1]; simp
  · rw [cmpi_eq_zero h, if_neg h]
    show (((BitVec.setWidth 32 0#1).toInt : ℝ) : EReal) = 0
    have e0 : (BitVec.setWidth 32 0#1).toInt = 0 := by decide
    rw [e0]; simp

/-- The 1 × 1 total for b is the number of the tile's elements whose bin is b. -/
theorem binTotal_apply (b : BitVec 32) (idx : IVec S2000x16 32) (u v : Fin 1) :
    binTotal (F := Ideal) b idx (ix2 u v)
      = ∑ r : Fin 2000, ∑ q : Fin 16, (if idx (ix2 r q) = b then (1 : EReal) else 0) := by
  unfold binTotal
  rw [shapeCast_self]
  refine (shapeCast_a_1a_apply _ shapeCasts_S1_S1x1 u v).trans ?_
  refine (sumAxis0_apply _ reduces_S2000x1_S1 (.inl rfl) rfl v).trans ?_
  refine Finset.sum_congr rfl fun r _ => ?_
  refine (shapeCast_a_a1_apply _ shapeCasts_S2000_S2000x1 r v).trans ?_
  refine (sumAxis1_apply _ reduces_S2000x16_S2000 (.inl rfl) rfl r).trans ?_
  refine Finset.sum_congr rfl fun q _ => ?_
  exact sitofp_eqBit (idx (ix2 r q)) b

/-- A round read at lane j: the row's entry plus the total for b if j's number is b, plus 0 otherwise. -/
theorem binRound_apply (b : BitVec 32) (idx : IVec S2000x16 32) (acc : Vec Ideal S1x128 .f32) (j : Fin 128) :
    binRound (F := Ideal) b (iota .tc S1x128 32 [1] iota_S1x128_d1_w32) idx acc (ix2 (0 : Fin 1) j)
      = acc (ix2 (0 : Fin 1) j)
        + (if BitVec.ofNat 32 j.val = b then
            ∑ r : Fin 2000, ∑ q : Fin 16, (if idx (ix2 r q) = b then (1 : EReal) else 0) else 0) := by
  unfold binRound
  rw [shapeCast_self]
  show acc (ix2 (0 : Fin 1) j)
      + Scalar.select (IntOp.cmpi .eq (iota .tc S1x128 32 [1] iota_S1x128_d1_w32 (ix2 (0 : Fin 1) j)) b)
          (broadcastTo S1x128 (binTotal (F := Ideal) b idx) broadcasts_S1x1_S1x128 (ix2 (0 : Fin 1) j))
          (Ideal.ofBits .f32 0x00000000#32) = _
  rw [iota_single_apply, broadcastTo_11_1b_apply, binTotal_apply, Ideal.ofBits_zero_f32]
  refine congrArg (fun z : EReal => acc (ix2 (0 : Fin 1) j) + z) ?_
  show Scalar.select (IntOp.cmpi .eq (BitVec.ofNat 32 j.val) b) _ (0 : EReal) = _
  by_cases h : BitVec.ofNat 32 j.val = b
  · rw [cmpi_eq_one h, if_pos h, select_one]
  · rw [cmpi_eq_zero h, if_neg h, select_zero]

/-- Lane numbers and round numbers are small: their words agree only when they do. -/
theorem ofNat_eq_iff (j : Fin 128) (n : ℕ) (hn : n < 30) : BitVec.ofNat 32 j.val = BitVec.ofNat 32 n ↔ j.val = n := by
  constructor
  · intro h
    have h' := congrArg BitVec.toNat h
    rw [BitVec.toNat_ofNat, BitVec.toNat_ofNat] at h'
    have hj := j.isLt
    rw [Nat.mod_eq_of_lt (by omega), Nat.mod_eq_of_lt (by omega)] at h'
    exact h'
  · intro h; rw [h]

/-- The first n rounds read at lane j: lane j has met its round exactly when j < n. -/
theorem histFrom_apply (idx : IVec S2000x16 32) (acc : Vec Ideal S1x128 .f32) (j : Fin 128) :
    ∀ n : ℕ, n ≤ 30 →
      histFrom (F := Ideal) (iota .tc S1x128 32 [1] iota_S1x128_d1_w32) idx n acc (ix2 (0 : Fin 1) j)
        = acc (ix2 (0 : Fin 1) j)
          + (if j.val < n then
              ∑ r : Fin 2000, ∑ q : Fin 16, (if idx (ix2 r q) = BitVec.ofNat 32 j.val then (1 : EReal) else 0) else 0)
  | 0, _ => by
    show acc (ix2 (0 : Fin 1) j) = _
    rw [if_neg (Nat.not_lt_zero _), add_zero]
  | n + 1, hn => by
    show binRound (F := Ideal) (BitVec.ofNat 32 n) _ idx (histFrom _ idx n acc) (ix2 (0 : Fin 1) j) = _
    rw [binRound_apply, histFrom_apply idx acc j n (by omega)]
    by_cases hlt : j.val < n
    · have hne : ¬ BitVec.ofNat 32 j.val = BitVec.ofNat 32 n := fun h => by
        have := (ofNat_eq_iff j n (by omega)).mp h; omega
      rw [if_pos hlt, if_neg hne, if_pos (by omega : j.val < n + 1), add_zero]
    · by_cases heq : j.val = n
      · have he : BitVec.ofNat 32 j.val = BitVec.ofNat 32 n := (ofNat_eq_iff j n (by omega)).mpr heq
        rw [if_neg hlt, if_pos he, if_pos (by omega : j.val < n + 1), add_zero, he]
      · have hne : ¬ BitVec.ofNat 32 j.val = BitVec.ofNat 32 n := fun h => heq ((ofNat_eq_iff j n (by omega)).mp h)
        rw [if_neg hlt, if_neg hne, if_neg (by omega : ¬ j.val < n + 1), add_zero]

/-- The kernel's clipped integer chain, element by element, is the specification's bin. -/
theorem pay2_apply (x0 : Vec Ideal S2000x16 .f32) (x1 : Vec Ideal S2000x16 .i32) (r : Fin 2000) (q : Fin 16) :
    k0_pay2 x0 x1 (ix2 r q) = Cert.Spec.binOf (x0 (ix2 r q)) (x1 (ix2 r q)) := rfl

/-- ONE GRID POINT AT A LANE: the thirty rounds add to the row's entry at lane j the tile's share of lane j. -/
theorem histStep_apply (acc : Vec Ideal S1x128 .f32) (x0 : Vec Ideal S2000x16 .f32) (x1 : Vec Ideal S2000x16 .i32) (j : Fin 128) :
    histStep acc x0 x1 (ix2 (0 : Fin 1) j) = acc (ix2 (0 : Fin 1) j) + Cert.Spec.laneCount x0 x1 j := by
  unfold histStep
  rw [histFrom_apply (k0_pay2 x0 x1) acc j 30 (le_refl _)]
  rfl

end Cert.KernelIdeal.Hand.PE

end
-- ==== Proof.IR0ValChain.lean ====
/-
  Each store's payload of the printed histogram kernel is one round.  The printed text is cut into windows by
  statement count, so a round's payload receives some of its intermediate values from the window before (the
  indicator, its row sums, the column, the 1 × 1 total, the broadcast bin word, the lane comparison, the repeated
  total, the selected row or the sum itself); with those values put back every payload is the round of its bin word
  over the lane numbers, the tile's bins and the row read before the store, by unfolding alone.
-/
import proofs.«181526_j69131793596448_2_alg».proof.Proof.IR0ValRound

noncomputable section

namespace Cert.KernelIdeal.Hand.PE

open Cert.KernelIdeal Cert.KernelIdeal.Gen
open Idealize.ShloMosaic Idealize.ShloMosaic.ValueIdx

variable {F : FTy → Type} [FloatOps F]
variable (idx : IVec S2000x16 32) (lane : IVec S1x128 32) (acc : Vec F S1x128 .f32)
variable (x0 : Vec F S2000x16 .f32) (x1 : Vec F S2000x16 .i32)

theorem pay3_eq : k0_pay3 x0 x1 acc = binRound 0#32 (iota .tc S1x128 32 [1] iota_S1x128_d1_w32) (k0_pay2 x0 x1) acc := rfl
theorem pay5_eq : k0_pay5 lane (k0_pay4 x0 x1) acc = binRound 1#32 lane (k0_pay2 x0 x1) acc := rfl
theorem pay6_eq : k0_pay6 idx lane acc = binRound 2#32 lane idx acc := rfl
theorem pay8_eq : k0_pay8 lane (k0_pay7 (F := F) idx) acc = binRound 3#32 lane idx acc := rfl
theorem pay9_eq : k0_pay9 idx lane acc = binRound 4#32 lane idx acc := rfl
theorem pay11_eq : k0_pay11 lane (k0_pay10 (F := F) idx) acc = binRound 5#32 lane idx acc := rfl
theorem pay12_eq : k0_pay12 idx lane acc = binRound 6#32 lane idx acc := rfl
theorem pay14_eq : k0_pay14 lane (k0_pay13 (F := F) idx) acc = binRound 7#32 lane idx acc := rfl
theorem pay15_eq : k0_pay15 idx lane acc = binRound 8#32 lane idx acc := rfl
theorem pay17_eq : k0_pay17 lane (k0_pay16 (F := F) idx) acc = binRound 9#32 lane idx acc := rfl
theorem pay18_eq : k0_pay18 idx lane acc = binRound 10#32 lane idx acc := rfl
theorem pay21_eq : k0_pay21 lane (k0_pay19 (F := F) idx) k0_pay20 acc = binRound 11#32 lane idx acc := rfl
theorem pay22_eq : k0_pay22 idx lane acc = binRound 12#32 lane idx acc := rfl
theorem pay25_eq : k0_pay25 (k0_pay23 (F := F) idx) (k0_pay24 lane) (Scalar.ofBits .f32 0x00000000#32) acc = binRound 13#32 lane idx acc := rfl
theorem pay26_eq : k0_pay26 idx lane acc = binRound 14#32 lane idx acc := rfl
theorem pay29_eq : k0_pay29 (k0_pay27 lane) (Scalar.ofBits .f32 0x00000000#32) (k0_pay28 (F := F) idx) acc = binRound 15#32 lane idx acc := rfl
theorem pay30_eq : k0_pay30 idx lane acc = binRound 16#32 lane idx acc := rfl
theorem pay32_eq : k0_pay32 (k0_pay31 (F := F) idx lane) acc = binRound 17#32 lane idx acc := rfl
theorem pay33_eq : k0_pay33 idx lane acc = binRound 18#32 lane idx acc := rfl
theorem pay35_eq : k0_pay35 (k0_pay34 (F := F) idx lane) acc = binRound 19#32 lane idx acc := rfl
theorem pay36_eq : k0_pay36 idx lane acc = binRound 20#32 lane idx acc := rfl
theorem pay38_eq : k0_pay38 (k0_pay37 idx lane acc) = binRound 21#32 lane idx acc := rfl
theorem pay39_eq : k0_pay39 idx lane acc = binRound 22#32 lane idx acc := rfl
theorem pay41_eq : k0_pay41 (k0_pay40 idx lane acc) = binRound 23#32 lane idx acc := rfl
theorem pay42_eq : k0_pay42 idx lane acc = binRound 24#32 lane idx acc := rfl
theorem pay44_eq : k0_pay44 (k0_pay43 idx lane acc) = binRound 25#32 lane idx acc := rfl
theorem pay45_eq : k0_pay45 idx lane acc = binRound 26#32 lane idx acc := rfl
theorem pay46_eq : k0_pay46 idx lane acc = binRound 27#32 lane idx acc := rfl
theorem pay47_eq : k0_pay47 idx lane acc = binRound 28#32 lane idx acc := rfl
theorem pay48_eq : k0_pay48 idx lane acc = binRound 29#32 lane idx acc := rfl

/-- The rounds one at a time: the first n + 1 rounds are the round of n after the first n. -/
theorem histFrom_succ (n : ℕ) : histFrom lane idx (n + 1) acc = binRound (BitVec.ofNat 32 n) lane idx (histFrom lane idx n acc) := rfl
theorem histFrom_zero : histFrom lane idx 0 acc = acc := rfl

end Cert.KernelIdeal.Hand.PE

end
-- ==== Proof.IR0ValCases.lean ====
/-
  Region 0 (the histogram kernel): what each of its three control cases leaves in the scratch row and in the output
  block, as the thirty rounds applied to the row the case started from (the zero row its reset stored at the first
  point, the carried row at every other point), and, at the ideal values, read at a lane: the row's entry plus the
  tile's share of that lane of the histogram.
-/
import proofs.«181526_j69131793596448_2_alg».proof.Proof.IR0Frame
import proofs.«181526_j69131793596448_2_alg».proof.Proof.IR0ValChain
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace PE

variable {F : FTy → Type} [FloatOps F]

/-- A load of the whole buffer after a list of stores whose last is a store of the whole buffer reads that store's
    payload, whatever the earlier stores were. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem hz : (![0, 0] : Fin 2 → Nat) = fun _ => 0 := funext fun a => by fin_cases a <;> rfl

/-- The two constant-zero payloads with the zero spelt as the run leaves it. -/
theorem pay25_eq' (idx : IVec S2000x16 32) (lane : IVec S1x128 32) (acc : Vec F S1x128 .f32) :
    k0_pay25 (k0_pay23 (F := F) idx) (k0_pay24 lane) (FloatOps.ofBits .f32 0x00000000#32) acc = binRound 13#32 lane idx acc := rfl
theorem pay29_eq' (idx : IVec S2000x16 32) (lane : IVec S1x128 32) (acc : Vec F S1x128 .f32) :
    k0_pay29 (k0_pay27 lane) (FloatOps.ofBits .f32 0x00000000#32) (k0_pay28 (F := F) idx) acc = binRound 15#32 lane idx acc := rfl

/-- The zero row the first point's reset stores. -/
theorem pay1_apply (i : S1x128.Idx) : k0_pay1 (F := Ideal) i = 0 := by
  unfold k0_pay1
  rw [shapeCast_self]
  exact Ideal.ofBits_zero_f32

/-! ## What each case leaves: the thirty rounds -/

/-- A middle point leaves in the scratch the thirty rounds applied to the carried row. -/
theorem sout_B (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x16 .f32) (x1 : Vec F S2000x16 .i32) (xs0 : Vec F S1x128 .f32) :
    sout0_B_0 c i arg1 harg1 arg2 harg2 arg3 harg3 arg4 harg4 hc0 hc1 x0 x1 xs0 = histStep xs0 x0 x1 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  simp only [View.canon_cons_unit_zero (S := S1x128) hz, View.canon_unit_zero (S := S1x128) hz, readCov_cons_unit_zero (S := S1x128) _ hz, View.readCov_unit_zero (S := S1x128) _ hz,
    View.readAt_eq_ld, harg1.read_unread, harg2.read_unread, harg4.read_unread, View.ld_unit_zero (S := S2000x16) hz, View.ld_unit_zero (S := S1x128) hz]
  simp only [pay3_eq, pay5_eq, pay6_eq, pay8_eq, pay9_eq, pay11_eq, pay12_eq, pay14_eq, pay15_eq, pay17_eq, pay18_eq, pay21_eq, pay22_eq, pay25_eq', pay26_eq, pay29_eq', pay30_eq,
    pay32_eq, pay33_eq, pay35_eq, pay36_eq, pay38_eq, pay39_eq, pay41_eq, pay42_eq, pay44_eq, pay45_eq, pay46_eq, pay47_eq, pay48_eq]
  rfl

/-- The last point leaves in the scratch the thirty rounds applied to the carried row … -/
theorem sout_C (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) :
    sout0_C_0 c i arg1 harg1 arg2 harg2 arg3 harg3 arg4 harg4 hc0 hc1 x0 x1 xs0 = histStep xs0 x0 x1 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  simp only [View.canon_cons_unit_zero (S := S1x128) hz, View.canon_unit_zero (S := S1x128) hz, readCov_cons_unit_zero (S := S1x128) _ hz, View.readCov_unit_zero (S := S1x128) _ hz,
    View.readAt_eq_ld, harg1.read_unread, harg2.read_unread, harg3.read_unread, harg4.read_unread, View.ld_unit_zero (S := S2000x16) hz, View.ld_unit_zero (S := S1x128) hz]
  simp only [pay3_eq, pay5_eq, pay6_eq, pay8_eq, pay9_eq, pay11_eq, pay12_eq, pay14_eq, pay15_eq, pay17_eq, pay18_eq, pay21_eq, pay22_eq, pay25_eq', pay26_eq, pay29_eq', pay30_eq,
    pay32_eq, pay33_eq, pay35_eq, pay36_eq, pay38_eq, pay39_eq, pay41_eq, pay42_eq, pay44_eq, pay45_eq, pay46_eq, pay47_eq, pay48_eq]
  rfl

/-- … and stores that same row into the output block. -/
theorem out_C (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x16 .f32) (x1 : Vec F S2000x16 .i32) (xs0 : Vec F S1x128 .f32) :
    out0_C_2 c i arg1 harg1 arg2 harg2 arg3 harg3 arg4 harg4 hc0 hc1 x0 x1 xs0 = histStep xs0 x0 x1 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  simp only [View.canon_cons_unit_zero (S := S1x128) hz, View.canon_unit_zero (S := S1x128) hz, readCov_cons_unit_zero (S := S1x128) _ hz, View.readCov_unit_zero (S := S1x128) _ hz,
    View.readAt_eq_ld, harg1.read_unread, harg2.read_unread, harg3.read_unread, harg4.read_unread, View.ld_unit_zero (S := S2000x16) hz, View.ld_unit_zero (S := S1x128) hz]
  simp only [pay3_eq, pay5_eq, pay6_eq, pay8_eq, pay9_eq, pay11_eq, pay12_eq, pay14_eq, pay15_eq, pay17_eq, pay18_eq, pay21_eq, pay22_eq, pay25_eq', pay26_eq, pay29_eq', pay30_eq,
    pay32_eq, pay33_eq, pay35_eq, pay36_eq, pay38_eq, pay39_eq, pay41_eq, pay42_eq, pay44_eq, pay45_eq, pay46_eq, pay47_eq, pay48_eq]
  rfl

/-- The first point leaves in the scratch the thirty rounds applied to the zero row its reset stored. -/
theorem sout_A (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x16 .f32) (x1 : Vec F S2000x16 .i32) :
    sout0_A_0 c i arg1 harg1 arg2 harg2 arg3 harg3 arg4 harg4 hc0 hc1 x0 x1 = histStep (k0_pay1 (F := F)) x0 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  simp only [View.canon_cons_unit_zero (S := S1x128) hz, View.canon_unit_zero (S := S1x128) hz, readCov_cons_unit_zero (S := S1x128) _ hz, View.readCov_unit_zero (S := S1x128) _ hz,
    View.readAt_eq_ld, harg1.read_unread, harg2.read_unread, harg4.read_unread, View.ld_unit_zero (S := S2000x16) hz, View.ld_unit_zero (S := S1x128) hz]
  simp only [pay3_eq, pay5_eq, pay6_eq, pay8_eq, pay9_eq, pay11_eq, pay12_eq, pay14_eq, pay15_eq, pay17_eq, pay18_eq, pay21_eq, pay22_eq, pay25_eq', pay26_eq, pay29_eq', pay30_eq,
    pay32_eq, pay33_eq, pay35_eq, pay36_eq, pay38_eq, pay39_eq, pay41_eq, pay42_eq, pay44_eq, pay45_eq, pay46_eq, pay47_eq, pay48_eq]
  rfl

end PE

/-! ## One point read at a lane -/

namespace PE

/-- A middle point adds to lane j of the carried row the tile's share of lane j. -/
theorem step_B (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec Ideal S2000x16 .f32) (x1 : Vec Ideal S2000x16 .i32) (xs0 : Vec Ideal S1x128 .f32) (j : Fin 128) :
    sout0_B_0 c i arg1 harg1 arg2 harg2 arg3 harg3 arg4 harg4 hc0 hc1 x0 x1 xs0 (ix2 (0 : Fin 1) j)
      = xs0 (ix2 (0 : Fin 1) j) + Cert.Spec.laneCount x0 x1 j :=
  (congrFun (sout_B c i arg1 harg1 arg2 harg2 arg3 harg3 arg4 harg4 hc0 hc1 x0 x1 xs0) (ix2 (0 : Fin 1) j)).trans
    (histStep_apply xs0 x0 x1 j)

/-- So does the last point, in the scratch … -/
theorem step_C (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec Ideal S2000x16 .f32) (x1 : Vec Ideal S2000x16 .i32) (xs0 : Vec Ideal S1x128 .f32) (j : Fin 128) :
    sout0_C_0 c i arg1 harg1 arg2 harg2 arg3 harg3 arg4 harg4 hc0 hc1 x0 x1 xs0 (ix2 (0 : Fin 1) j)
      = xs0 (ix2 (0 : Fin 1) j) + Cert.Spec.laneCount x0 x1 j :=
  (congrFun (sout_C c i arg1 harg1 arg2 harg2 arg3 harg3 arg4 harg4 hc0 hc1 x0 x1 xs0) (ix2 (0 : Fin 1) j)).trans
    (histStep_apply xs0 x0 x1 j)

/-- … and in the output block. -/
theorem stepOut_C (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec Ideal S2000x16 .f32) (x1 : Vec Ideal S2000x16 .i32) (xs0 : Vec Ideal S1x128 .f32) (j : Fin 128) :
    out0_C_2 c i arg1 harg1 arg2 harg2 arg3 harg3 arg4 harg4 hc0 hc1 x0 x1 xs0 (ix2 (0 : Fin 1) j)
      = xs0 (ix2 (0 : Fin 1) j) + Cert.Spec.laneCount x0 x1 j :=
  (congrFun (out_C c i arg1 harg1 arg2 harg2 arg3 harg3 arg4 harg4 hc0 hc1 x0 x1 xs0) (ix2 (0 : Fin 1) j)).trans
    (histStep_apply xs0 x0 x1 j)

/-- The first point leaves at lane j the tile's share alone: 0 plus it. -/
theorem step_A (c : Dev nD) (i : grid0.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec Ideal S2000x16 .f32) (x1 : Vec Ideal S2000x16 .i32) (j : Fin 128) :
    sout0_A_0 c i arg1 harg1 arg2 harg2 arg3 harg3 arg4 harg4 hc0 hc1 x0 x1 (ix2 (0 : Fin 1) j) = Cert.Spec.laneCount x0 x1 j :=
  (congrFun (sout_A c i arg1 harg1 arg2 harg2 arg3 harg3 arg4 harg4 hc0 hc1 x0 x1) (ix2 (0 : Fin 1) j)).trans
    ((histStep_apply (k0_pay1 (F := Ideal)) x0 x1 j).trans (by rw [pay1_apply, zero_add]))

end PE

end Cert.KernelIdeal.Hand

end
-- ==== Proof.IR0Value.lean ====
/-
  Region 0 (the histogram kernel) at the ideal values: what its scratch row and its result array hold.
  One grid point adds to lane j of the scratch row the point's tile's share of lane j of the histogram (from zero at
  the first point); so after point n the row is the sum, in the grid's order, of the shares of tiles 0, …, n (hist0),
  by induction on the point.  The result array is written back once, after the last point, by a block that is the
  whole 1 × 128 array: it ends holding the row after point 999.  Tile t of a 2000000 × 16 argument is its rows
  2000 t, …, 2000 t + 1999.
-/
import proofs.«181526_j69131793596448_2_alg».proof.Proof.IR0ValCases

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The scratch row after each point, and the result array -/

section Region

variable (V : (c : Dev nD) → (b : Ref sig .tc) → Buf (Elt Ideal) ((c : Thread nD τ).loc b))

/-- The histogram row after point n: the tiles' lane counts added in the grid's order, from zero. -/
def hist0 (c : Dev nD) : (n : ℕ) → n < cfg0.N → Fin 128 → EReal
  | 0, h => fun j => Cert.Spec.laneCount (iblk0 V c 0 ⟨0, h⟩) (iblk0 V c 1 ⟨0, h⟩) j
  | n + 1, h => fun j => hist0 c n (Nat.lt_of_succ_lt h) j + Cert.Spec.laneCount (iblk0 V c 0 ⟨n + 1, h⟩) (iblk0 V c 1 ⟨n + 1, h⟩) j

namespace PE

/-- The row after a point depends on the point's number only. -/
theorem hist0_congr (c : Dev nD) (n n' : ℕ) (e : n = n') (h : n < cfg0.N) (h' : n' < cfg0.N) : hist0 V c n h = hist0 V c n' h' := by
  subst e; rfl

/-- After a point other than the first the row is the row after the point before plus the point's tile's share. -/
theorem hist0_step (c : Dev nD) (t : Fin cfg0.N) (h0 : ¬t.val = 0) (j : Fin 128) :
    hist0 V c t.val t.isLt j
      = hist0 V c (t.val - 1) (Nat.lt_of_le_of_lt (Nat.sub_le _ _) t.isLt) j + Cert.Spec.laneCount (iblk0 V c 0 t) (iblk0 V c 1 t) j := by
  obtain ⟨n, hn⟩ := t
  cases n with
  | zero => exact absurd rfl h0
  | succ n => rfl

end PE

/-- After point n the scratch row is the histogram row after point n: by induction on the point, each case adding the
    point's tile. -/
theorem scratch0_eq (c : Dev nD) : ∀ (n : ℕ) (h : n < cfg0.N) (j : Fin 128),
    (outsAt0 (F := Ideal) V c n h).2 (ix2 (0 : Fin 1) j) = hist0 V c n h j
  | 0, h, j => by
    rw [outsAt0_A V c ⟨0, h⟩ rfl (fun h' : (0 : ℕ) = 999 => absurd h' (by decide))]
    dsimp only
    exact PE.step_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _)
      ((hcond0_0 ⟨0, h⟩).mpr rfl) (fun hh => absurd ((hcond0_1 ⟨0, h⟩).mp hh) (fun h' : (0 : ℕ) = 999 => absurd h' (by decide)))
      (iblk0 V c 0 ⟨0, h⟩) (iblk0 V c 1 ⟨0, h⟩) j
  | n + 1, h, j => by
    have ih := scratch0_eq c n (Nat.lt_of_succ_lt h) j
    rw [PE.hist0_step V c ⟨n + 1, h⟩ (Nat.succ_ne_zero n) j, ← PE.hist0_congr V c n (n + 1 - 1) rfl (Nat.lt_of_succ_lt h) _, ← ih]
    by_cases h1 : n + 1 = 999
    · rw [outsAt0_C V c ⟨n + 1, h⟩ (Nat.succ_ne_zero n) h1]
      dsimp only
      exact PE.step_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        (fun hh => Nat.succ_ne_zero n ((hcond0_0 ⟨n + 1, h⟩).mp hh)) ((hcond0_1 ⟨n + 1, h⟩).mpr h1)
        (iblk0 V c 0 ⟨n + 1, h⟩) (iblk0 V c 1 ⟨n + 1, h⟩) (outsAt0 V c (n + 1 - 1) (Nat.lt_of_le_of_lt (Nat.sub_le _ _) h)).2 j
    · rw [outsAt0_B V c ⟨n + 1, h⟩ (Nat.succ_ne_zero n) h1]
      dsimp only
      exact PE.step_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        (fun hh => Nat.succ_ne_zero n ((hcond0_0 ⟨n + 1, h⟩).mp hh)) (fun hh => h1 ((hcond0_1 ⟨n + 1, h⟩).mp hh))
        (iblk0 V c 0 ⟨n + 1, h⟩) (iblk0 V c 1 ⟨n + 1, h⟩) (outsAt0 V c (n + 1 - 1) (Nat.lt_of_le_of_lt (Nat.sub_le _ _) h)).2 j

namespace PE

/-- At the point that writes the output back (the point numbered 999), the output block holds the histogram row after
    that point. -/
theorem outAt (c : Dev nD) (t : Fin cfg0.N) (h0 : ¬t.val = 0) (h1 : t.val = 999) (j : Fin 128) :
    (outsAt0 (F := Ideal) V c t.val t.isLt).1 (ix2 (0 : Fin 1) j) = hist0 V c t.val t.isLt j := by
  rw [hist0_step V c t h0 j, ← scratch0_eq V c (t.val - 1) (Nat.lt_of_le_of_lt (Nat.sub_le _ _) t.isLt) j, outsAt0_C V c t h0 h1]
  dsimp only
  exact stepOut_C c (grid0.coords t) (ms0_0 t) (hs0_0 t) (ms0_1 t) (hs0_1 t) (ms0_2 t) (hs0_2 t) scM0_0 (Memref.isWhole_whole _)
    (fun hh => h0 ((hcond0_0 t).mp hh)) ((hcond0_1 t).mpr h1)
    (iblk0 V c 0 t) (iblk0 V c 1 t) (outsAt0 V c (t.val - 1) (Nat.lt_of_le_of_lt (Nat.sub_le _ _) t.isLt)).2 j

/-- The output window's block index is (0, 0) at every point: its block is the whole 1 × 128 array. -/
theorem index0_2 (t : Fin cfg0.N) (a : Fin 2) : win0_2.index t a = 0 := by
  fin_cases a <;> rfl

/-- The number of the last point is below the number of points. -/
theorem lt999 : 999 < cfg0.N := by rw [show cfg0.N = 1000 from N_0]; decide

/-- The one write-back writes the histogram row after point 999: its block is the whole array. -/
theorem flushed_eq (c : Dev nD) (t : Fin cfg0.N) (hf : (cfg0.win 2).flush t = true) :
    (dat0 (F := Ideal) V c).flushed 2 t
      = ((cfg0.win 2).blk t).view.read (Elt Ideal) (fun i => hist0 V c 999 lt999 (i 1)) := by
  have hN : cfg0.N = 1000 := N_0
  have h3 : t.val = 999 := by have := (flush0_2 t).mp hf; have := t.isLt; omega
  have h0 : ¬t.val = 0 := by omega
  show (cfg0.win 2).cut (grid0.coords t) ((dat0 V c).after 2 t) = _
  rw [after0_2]
  have e : (outsAt0 (F := Ideal) V c t.val t.isLt).1 = fun i => hist0 V c 999 lt999 (i 1) := by
    funext i
    obtain ⟨p, q, rfl⟩ : ∃ (p : Fin 1) (q : Fin 128), i = ix2 p q := ⟨i 0, i 1, eq_ix2 i⟩
    obtain rfl : p = 0 := Subsingleton.elim _ _
    exact (outAt V c t h0 h3 q).trans (congrFun (hist0_congr V c t.val 999 h3 t.isLt lt999) q)
  rw [e]
  have hz' : (fun a => win0_2.index t a * main_v0.ty.shape.size a) = fun _ => 0 :=
    funext fun a => by rw [index0_2 t a, Nat.zero_mul]
  exact (Memref.read_access_unit_zero (Elt Ideal) main_v0 hz' (fun a => by rw [congrFun hz' a]; simp) (fun i => hist0 V c 999 lt999 (i 1))).symm

end PE

/-- The result array after the region: the histogram row after the last point. -/
theorem final0 (c : Dev nD) :
    (dat0 (F := Ideal) V c).arrAt 2 cfg0.N = fun i => hist0 V c 999 (by rw [show cfg0.N = 1000 from N_0]; decide) (i 1) :=
  (dat0 V c).arrAt_eq_of_cover 2 (fun i => hist0 V c 999 PE.lt999 (i 1)) (PE.flushed_eq V c) fun i =>
    ⟨⟨999, PE.lt999⟩, (flush0_2 ⟨999, PE.lt999⟩).mpr rfl, by
      show i ∈ ((View.whole main_v0).slice (win0_2.rect ⟨999, PE.lt999⟩)).set
      rw [View.set_slice_whole, Rect.mem_set_unit]
      intro a
      have h0 : (i 0 : Nat) < 1 := (i 0).isLt
      have h1 : (i 1 : Nat) < 128 := (i 1).isLt
      match a with
      | ⟨0, _⟩ => show win0_2.index ⟨999, PE.lt999⟩ 0 * 1 ≤ (i 0 : Nat) ∧ (i 0 : Nat) < win0_2.index ⟨999, PE.lt999⟩ 0 * 1 + 1
                  rw [PE.index0_2]; omega
      | ⟨1, _⟩ => show win0_2.index ⟨999, PE.lt999⟩ 1 * 128 ≤ (i 1 : Nat) ∧ (i 1 : Nat) < win0_2.index ⟨999, PE.lt999⟩ 1 * 128 + 128
                  rw [PE.index0_2]; omega⟩

/-! ## A tile of an argument -/

namespace PE
/-- The input windows' block index at point t is (t, 0). -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
end PE

/-- Tile t of the logits: its entry (r, q) is the argument's entry (2000 t + r, q). -/
theorem iblk0_pred (c : Dev nD) (t : Fin cfg0.N) (r : Fin 2000) (q : Fin 16) :
    iblk0 (F := Ideal) V c 0 t (ix2 r q)
      = V c main_arg0 (ix2 (⟨t.val * 2000 + r.val, by have := t.isLt; have hN : cfg0.N = 1000 := N_0; omega⟩ : Fin 2000000) q) := by
  have hi := PE.index0_0 t
  unfold iblk0
  rw [View.read_apply]
  show V c main_arg0 _ = V c main_arg0 _
  refine congrArg (V c main_arg0) ?_
  funext a
  apply Fin.ext
  match a with
  | ⟨0, _⟩ => show win0_0.index t 0 * 2000 + 1 * r.val = t.val * 2000 + r.val; rw [hi.1]; omega
  | ⟨1, _⟩ => show win0_0.index t 1 * 16 + 1 * q.val = q.val; rw [hi.2]; omega

/-- Tile t of the targets likewise. -/
theorem iblk0_target (c : Dev nD) (t : Fin cfg0.N) (r : Fin 2000) (q : Fin 16) :
    iblk0 (F := Ideal) V c 1 t (ix2 r q)
      = V c main_arg1 (ix2 (⟨t.val * 2000 + r.val, by have := t.isLt; have hN : cfg0.N = 1000 := N_0; omega⟩ : Fin 2000000) q) := by
  have hi := PE.index0_1 t
  unfold iblk0
  rw [View.read_apply]
  show V c main_arg1 _ = V c main_arg1 _
  refine congrArg (V c main_arg1) ?_
  funext a
  apply Fin.ext
  match a with
  | ⟨0, _⟩ => show win0_1.index t 0 * 2000 + 1 * r.val = t.val * 2000 + r.val; rw [hi.1]; omega
  | ⟨1, _⟩ => show win0_1.index t 1 * 16 + 1 * q.val = q.val; rw [hi.2]; omega

end Region

end Cert.KernelIdeal.Hand

end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.IR1ValPoint.lean ====
/-
  One grid point of the loss kernel over plain vectors, at the ideal values.

  The point forms each element's bin, looks the bin's weight up in a lane-padded row of weights by thirty
  compare-and-select rounds starting from zero, multiplies it with the element's cross-entropy, sums the products
  over the sixteen columns of each row and then over the two thousand rows, and adds the total to the running
  value. Read at its one entry, the new running value is the old one plus the tile's share of the loss.

  Thirty compare-and-select rounds over a key below thirty leave the entry the key names: round n keeps the old
  value unless the key is n, so after n rounds every key below n has found its entry (induction on n).
-/
import proofs.«181526_j69131793596448_2_alg».proof.Proof.Spec
import proofs.«181526_j69131793596448_2_alg».proof.Proof.LibSliceSum
import proofs.«181526_j69131793596448_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

namespace PF

/-! ## Compare-and-select rounds -/

/-- One round: the new value where the key is n, the old one elsewhere. -/
theorem select_cmpi_eq {α : Type} (k n : BitVec 32) (a b : α) :
    Scalar.select (IntOp.cmpi .eq k n) a b = if k = n then a else b := by
  show (if BitVec.ofBool (k == n) = 1 then a else b) = _
  by_cases h : k = n
  · subst h; simp
  · have hb : (k == n) = false := beq_eq_false_iff_ne.mpr h
    rw [hb, if_neg h]
    exact if_neg (by decide)

/-- n rounds from z: round m puts s m where the key is m. -/
def selChain {α : Type} (k : BitVec 32) (s : ℕ → α) (z : α) : ℕ → α
  | 0 => z
  | n + 1 => Scalar.select (IntOp.cmpi .eq k (BitVec.ofNat 32 n)) (s n) (selChain k s z n)

/-- After n rounds a key below n has found its entry. -/
theorem selChain_of_lt {α : Type} (k : BitVec 32) (s : ℕ → α) (z : α) :
    ∀ n : ℕ, n ≤ 4294967296 → k.toNat < n → selChain k s z n = s k.toNat
  | 0, _, h => absurd h (Nat.not_lt_zero _)
  | n + 1, hn, h => by
    show Scalar.select (IntOp.cmpi .eq k (BitVec.ofNat 32 n)) (s n) (selChain k s z n) = _
    rw [select_cmpi_eq]
    have hmod : n % 2 ^ 32 = n := Nat.mod_eq_of_lt (by omega)
    by_cases hk : k = BitVec.ofNat 32 n
    · rw [if_pos hk]
      have e : k.toNat = n := by rw [hk, BitVec.toNat_ofNat, hmod]
      rw [e]
    · rw [if_neg hk]
      refine selChain_of_lt k s z n (by omega) ?_
      have hne : k.toNat ≠ n := fun e => hk (BitVec.eq_of_toNat_eq (by rw [BitVec.toNat_ofNat, hmod, e]))
      omega

/-! ## Two layout steps and a column sum, read at an index -/

/-- A length-a array cast to an a × 1 column reads, at (r, 0), its entry r. -/
theorem shapeCast_a_a1_apply {α : Type} {a : ℕ} (v : (⟨1, ![a]⟩ : Shape).Idx → α)
    (h : (⟨1, ![a]⟩ : Shape).ShapeCasts ⟨2, ![a, 1]⟩) (r : Fin a) :
    shapeCast ⟨2, ![a, 1]⟩ v h (ix2 r (0 : Fin 1)) = v (ix1 r) :=
  shapeCast_apply v h _ _ (by
    rw [Shape.rowMajor_val_two, Shape.rowMajor_val_one]
    show r.val = r.val * 1 + 0
    omega)

/-- Row 0 of an a × 1 column with row k put back is (k, 0). -/
theorem lift_col {a : ℕ} (h : (⟨2, ![a, 1]⟩ : Shape).Reduces [0] (⟨1, ![1]⟩ : Shape))
    (k : Fin ((⟨2, ![a, 1]⟩ : Shape).size 0)) :
    h.lift (ix1 (0 : Fin 1)) k = ix2 (⟨k.val, k.isLt⟩ : Fin a) (0 : Fin 1) := by
  funext c; apply Fin.ext
  fin_cases c <;> rfl

/-- The sum over the rows of an a × 1 column from the zero word, at its one entry: the sum of the column. -/
theorem colSum_zero_apply {a : ℕ} (src : FVec Ideal ⟨2, ![a, 1]⟩ .f32)
    (h : (⟨2, ![a, 1]⟩ : Shape).Reduces [0] (⟨1, ![1]⟩ : Shape)) (hφ : FTy.f32 = FTy.f32 ∨ FTy.f32 = FTy.bf16)
    (hacc : (0x00000000#32 : BitVec 32) = 0x00000000#32) :
    multiReduction .add [0] ⟨1, ![1]⟩ src 0x00000000#32 h hφ hacc (ix1 (0 : Fin 1)) = ∑ r : Fin a, src (ix2 r (0 : Fin 1)) := by
  refine (Ideal.multiReduction_add_single src 0x00000000#32 h hφ hacc (ix1 (0 : Fin 1))).trans ?_
  exact Finset.sum_congr rfl fun k _ => congrArg src (lift_col h k)

/-! ## The weights' row by entry number -/

/-- Entry n of the lane-padded row of weights, zero past its end. -/
def wAt (w : Vec Ideal S1x128 .f32) (n : ℕ) : Ideal .f32 :=
  if h : n < 128 then w (ix2 (0 : Fin 1) (⟨n, h⟩ : Fin 128)) else 0

/-- At a bin it is the weight the specification looks up. -/
theorem wAt_eq_wOf (w : Vec Ideal S1x128 .f32) (k : BitVec 32) (h : k.toNat < 30) : wAt w k.toNat = Cert.Spec.wOf w k := by
  unfold wAt Cert.Spec.wOf
  rw [dif_pos (show k.toNat < 128 by omega), dif_pos h]

/-! ## The point's vectors at an element -/

/-- A vector comparison of integers compares the elements. -/
theorem cmpi_apply {s : Shape} {w : ℕ} (p : CmpIPredicate) (x y : IVec s w) (i : s.Idx) :
    cmpi p x y i = IntOp.cmpi p (x i) (y i) := rfl

/-- The bins, element by element. -/
theorem pay3_apply (x0 : Vec Ideal S2000x16 .f32) (x1 : Vec Ideal S2000x16 .i32) (i : S2000x16.Idx) :
    k1_pay3 x0 x1 i = Cert.Spec.binOf (x0 i) (x1 i) := rfl

/-- Rounds 0, 1, 2 from zero. -/
theorem pay4_apply (x0 : Vec Ideal S2000x16 .f32) (x1 : Vec Ideal S2000x16 .i32) (v17 v23 v29 : Vec Ideal S1x1 .f32)
    (s : ℕ → Ideal .f32) (i : S2000x16.Idx)
    (h0 : extractAt ![0, 0] v17 inpos_S1x1_p0_0 = s 0) (h1 : extractAt ![0, 0] v23 inpos_S1x1_p0_0 = s 1)
    (h2 : extractAt ![0, 0] v29 inpos_S1x1_p0_0 = s 2) :
    k1_pay4 x0 x1 v17 v23 v29 i = selChain (k1_pay3 x0 x1 i) s (Scalar.ofBits .f32 0x00000000#32) 3 := by
  unfold k1_pay4
  simp only [select_apply, cmpi_apply, broadcast_apply]
  rw [h0, h1, h2]
  rfl

/-- Rounds 3 to 9 over what rounds 0 to 2 left. -/
theorem pay6_apply (v15 : IVec S2000x16 32) (v34 : FVec Ideal S2000x16 .f32) (v36 : Ideal .f32)
    (v41 v47 v53 v59 v65 v71 : Vec Ideal S1x1 .f32) (s : ℕ → Ideal .f32) (z : Ideal .f32) (i : S2000x16.Idx)
    (hp : v34 i = selChain (v15 i) s z 3) (h3 : v36 = s 3)
    (h4 : extractAt ![0, 0] v41 inpos_S1x1_p0_0 = s 4) (h5 : extractAt ![0, 0] v47 inpos_S1x1_p0_0 = s 5)
    (h6 : extractAt ![0, 0] v53 inpos_S1x1_p0_0 = s 6) (h7 : extractAt ![0, 0] v59 inpos_S1x1_p0_0 = s 7)
    (h8 : extractAt ![0, 0] v65 inpos_S1x1_p0_0 = s 8) (h9 : extractAt ![0, 0] v71 inpos_S1x1_p0_0 = s 9) :
    k1_pay6 v15 v34 v36 v41 v47 v53 v59 v65 v71 i = selChain (v15 i) s z 10 := by
  unfold k1_pay6
  simp only [select_apply, cmpi_apply, broadcast_apply]
  rw [hp, h3, h4, h5, h6, h7, h8, h9]
  rfl

/-- Rounds 10 to 15. -/
theorem pay7_apply (v15 : IVec S2000x16 32) (v76 : FVec Ideal S2000x16 .f32)
    (v77 v83 v89 v95 v101 v107 : Vec Ideal S1x1 .f32) (s : ℕ → Ideal .f32) (z : Ideal .f32) (i : S2000x16.Idx)
    (hp : v76 i = selChain (v15 i) s z 10)
    (h10 : extractAt ![0, 0] v77 inpos_S1x1_p0_0 = s 10) (h11 : extractAt ![0, 0] v83 inpos_S1x1_p0_0 = s 11)
    (h12 : extractAt ![0, 0] v89 inpos_S1x1_p0_0 = s 12) (h13 : extractAt ![0, 0] v95 inpos_S1x1_p0_0 = s 13)
    (h14 : extractAt ![0, 0] v101 inpos_S1x1_p0_0 = s 14) (h15 : extractAt ![0, 0] v107 inpos_S1x1_p0_0 = s 15) :
    k1_pay7 v15 v76 v77 v83 v89 v95 v101 v107 i = selChain (v15 i) s z 16 := by
  unfold k1_pay7
  simp only [select_apply, cmpi_apply, broadcast_apply]
  rw [hp, h10, h11, h12, h13, h14, h15]
  rfl

/-- Rounds 16 to 22 (round 16's comparison arrives already made). -/
theorem pay10_apply (v15 : IVec S2000x16 32) (v112 : FVec Ideal S2000x16 .f32) (v114 : Ideal .f32)
    (v119 v125 v131 v137 v143 v149 : Vec Ideal S1x1 .f32) (s : ℕ → Ideal .f32) (z : Ideal .f32) (i : S2000x16.Idx)
    (hp : v112 i = selChain (v15 i) s z 16) (h16 : v114 = s 16)
    (h17 : extractAt ![0, 0] v119 inpos_S1x1_p0_0 = s 17) (h18 : extractAt ![0, 0] v125 inpos_S1x1_p0_0 = s 18)
    (h19 : extractAt ![0, 0] v131 inpos_S1x1_p0_0 = s 19) (h20 : extractAt ![0, 0] v137 inpos_S1x1_p0_0 = s 20)
    (h21 : extractAt ![0, 0] v143 inpos_S1x1_p0_0 = s 21) (h22 : extractAt ![0, 0] v149 inpos_S1x1_p0_0 = s 22) :
    k1_pay10 v15 v112 v114 (k1_pay9 v15) v119 v125 v131 v137 v143 v149 i = selChain (v15 i) s z 23 := by
  unfold k1_pay10 k1_pay9
  simp only [select_apply, cmpi_apply, broadcast_apply]
  rw [hp, h16, h17, h18, h19, h20, h21, h22]
  rfl

/-- Rounds 23 to 29. -/
theorem pay12_apply (v15 : IVec S2000x16 32) (v154 : FVec Ideal S2000x16 .f32) (v156 : Ideal .f32)
    (v161 v167 v173 v179 v185 v191 : Vec Ideal S1x1 .f32) (s : ℕ → Ideal .f32) (z : Ideal .f32) (i : S2000x16.Idx)
    (hp : v154 i = selChain (v15 i) s z 23) (h23 : v156 = s 23)
    (h24 : extractAt ![0, 0] v161 inpos_S1x1_p0_0 = s 24) (h25 : extractAt ![0, 0] v167 inpos_S1x1_p0_0 = s 25)
    (h26 : extractAt ![0, 0] v173 inpos_S1x1_p0_0 = s 26) (h27 : extractAt ![0, 0] v179 inpos_S1x1_p0_0 = s 27)
    (h28 : extractAt ![0, 0] v185 inpos_S1x1_p0_0 = s 28) (h29 : extractAt ![0, 0] v191 inpos_S1x1_p0_0 = s 29) :
    k1_pay12 v15 v154 v156 v161 v167 v173 v179 v185 v191 i = selChain (v15 i) s z 30 := by
  unfold k1_pay12
  simp only [select_apply, cmpi_apply, broadcast_apply]
  rw [hp, h23, h24, h25, h26, h27, h28, h29]
  rfl

/-! ## The products and their two sums -/

/-- The products the point sums: each element's cross-entropy times the weight picked for it. -/
def prodVec (x0 : Vec Ideal S2000x16 .f32) (x1 : Vec Ideal S2000x16 .i32) (wv : FVec Ideal S2000x16 .f32) :
    FVec Ideal S2000x16 .f32 :=
  fun i => Cert.Spec.bceOf (x0 i) (x1 i) * wv i

/-- The last stretch of the point, with the products named: the products summed over the columns, then over the rows,
    added to the running value. -/
theorem pay13_eq (x0 : Vec Ideal S2000x16 .f32) (x1 : Vec Ideal S2000x16 .i32) (wv : FVec Ideal S2000x16 .f32)
    (acc : Vec Ideal S1x1 .f32) :
    k1_pay13 x0 (k1_pay2 x1) wv (Scalar.ofBits .f32 0x00000000#32) acc
      = shapeCast S1x1 (addf acc (shapeCast S1x1 (multiReduction (F := Ideal) .add [0] S1
          (shapeCast S2000x1 (multiReduction (F := Ideal) .add [1] S2000 (prodVec x0 x1 wv) 0x00000000#32
            reduces_S2000x16_S2000 (.inl rfl) rfl) shapeCasts_S2000_S2000x1)
          0x00000000#32 reduces_S2000x1_S1 (.inl rfl) rfl) shapeCasts_S1_S1x1)) shapeCasts_S1x1_S1x1 := rfl

/-- Read at its one entry: the running value plus the sum of the products over rows and columns. -/
theorem pay13_apply (x0 : Vec Ideal S2000x16 .f32) (x1 : Vec Ideal S2000x16 .i32) (wv : FVec Ideal S2000x16 .f32)
    (acc : Vec Ideal S1x1 .f32) :
    k1_pay13 x0 (k1_pay2 x1) wv (Scalar.ofBits .f32 0x00000000#32) acc (ix2 (0 : Fin 1) (0 : Fin 1))
      = acc (ix2 (0 : Fin 1) (0 : Fin 1))
        + ∑ r : Fin 2000, ∑ q : Fin 16, Cert.Spec.bceOf (x0 (ix2 r q)) (x1 (ix2 r q)) * wv (ix2 r q) := by
  rw [pay13_eq, shapeCast_self]
  refine (addf_apply _ _ _).trans ?_
  refine congrArg (acc (ix2 (0 : Fin 1) (0 : Fin 1)) + ·) ?_
  refine (shapeCast_a_1a_apply _ shapeCasts_S1_S1x1 (0 : Fin 1) (0 : Fin 1)).trans ?_
  refine (colSum_zero_apply _ reduces_S2000x1_S1 (.inl rfl) rfl).trans ?_
  refine Finset.sum_congr rfl fun r _ => ?_
  refine (shapeCast_a_a1_apply _ shapeCasts_S2000_S2000x1 r).trans ?_
  exact Cert.LibSliceSum.rowSum_zero_apply (prodVec x0 x1 wv) reduces_S2000x16_S2000 (.inl rfl) rfl r

end PF

/-! ## One point -/

/-- The weight picked for each element: thirty compare-and-select rounds over the element's bin, from zero, round n
    offering entry n of the weights' row. -/
def wSel (x0 : Vec Ideal S2000x16 .f32) (x1 : Vec Ideal S2000x16 .i32) (w : Vec Ideal S1x128 .f32) :
    FVec Ideal S2000x16 .f32 :=
  fun i => PF.selChain (k1_pay3 x0 x1 i) (PF.wAt w) (Scalar.ofBits .f32 0x00000000#32) 30

/-- One point's work on the running value: the products of cross-entropy and picked weight summed over the tile and
    added to it. -/
def lossStep (acc : Vec Ideal S1x1 .f32) (x0 : Vec Ideal S2000x16 .f32) (x1 : Vec Ideal S2000x16 .i32)
    (w : Vec Ideal S1x128 .f32) : Vec Ideal S1x1 .f32 :=
  k1_pay13 x0 (k1_pay2 x1) (wSel x0 x1 w) (Scalar.ofBits .f32 0x00000000#32) acc

/-- The picked weight is the weight of the element's bin. -/
theorem wSel_apply (x0 : Vec Ideal S2000x16 .f32) (x1 : Vec Ideal S2000x16 .i32) (w : Vec Ideal S1x128 .f32)
    (i : S2000x16.Idx) : wSel x0 x1 w i = Cert.Spec.wOf w (Cert.Spec.binOf (x0 i) (x1 i)) := by
  show PF.selChain (k1_pay3 x0 x1 i) (PF.wAt w) _ 30 = _
  rw [PF.pay3_apply, PF.selChain_of_lt _ _ _ 30 (by omega) (Cert.Spec.binOf_lt _ _)]
  exact PF.wAt_eq_wOf w _ (Cert.Spec.binOf_lt _ _)

/-- One point adds the tile's share of the loss to the running value. -/
theorem lossStep_apply (acc : Vec Ideal S1x1 .f32) (x0 : Vec Ideal S2000x16 .f32) (x1 : Vec Ideal S2000x16 .i32)
    (w : Vec Ideal S1x128 .f32) :
    lossStep acc x0 x1 w (ix2 (0 : Fin 1) (0 : Fin 1)) = acc (ix2 (0 : Fin 1) (0 : Fin 1)) + Cert.Spec.tileLoss x0 x1 w := by
  unfold lossStep
  rw [PF.pay13_apply]
  refine congrArg (acc (ix2 (0 : Fin 1) (0 : Fin 1)) + ·) ?_
  unfold Cert.Spec.tileLoss
  refine Finset.sum_congr rfl fun r _ => Finset.sum_congr rfl fun q _ => ?_
  rw [wSel_apply]

end Cert.KernelIdeal.Hand

end
-- ==== Proof.IR1ValCases.lean ====
/-
  What each control case of the loss kernel leaves, read as one point's work on the running value.

  The run of each case found the pieces its stores leave in the running value's buffer and, at the last point, in the
  output's staging buffer. Each is one covering store whose payload is the point's chain of operations over whole-buffer
  loads of the two tiles and thirty one-entry loads of the weights' row; the load at column b read at its one entry is
  entry b of the row, so the chain is the point's work as stated over plain vectors. At the first point the running
  value it reads is the zero just stored; at the last point the output receives the new running value read back.
-/
import proofs.«181526_j69131793596448_2_alg».proof.Proof.IR1Frame
import proofs.«181526_j69131793596448_2_alg».proof.Proof.IR1ValPoint
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx

namespace PF

/-- The zero offsets of a rank-two access, however spelt. -/
theorem hz2 : (![0, 0] : Fin 2 → Nat) = fun _ => 0 := funext fun a => by fin_cases a <;> rfl

/-- The one index of a 1 × 1 array. -/
theorem idx11 (j : S1x1.Idx) : j = ix2 (0 : Fin 1) (0 : Fin 1) := by
  funext a; apply Fin.ext
  match a with
  | ⟨0, _⟩ => have := idx2_lt0 j; show (j 0).val = 0; omega
  | ⟨1, _⟩ => have := idx2_lt1 j; show (j 1).val = 0; omega

/-- The zero the first point stores is zero at its entry. -/
theorem pay1_apply (j : S1x1.Idx) : k1_pay1 (F := Ideal) j = 0 := by
  unfold k1_pay1
  rw [shapeCast_self]
  exact Ideal.ofBits_zero_f32

/-- What a one-entry load of the weights' row at column b reads. -/
abbrev wl (x2 : Vec Ideal S1x128 .f32) (b : ℕ) (inb : ∀ a, (![0, b] : Fin 2 → ℕ) a + S1x1.size a ≤ S1x128.size a) :
    Vec Ideal S1x1 .f32 :=
  View.ld (Val := Elt Ideal) (e' := .f32) x2 (Rect.unit (s := S1x128) ![0, b] S1x1.size inb)

/-- Its one entry is entry b of the row. -/
theorem wl_extract (x2 : Vec Ideal S1x128 .f32) (b : ℕ) (hb : b < 128)
    (inb : ∀ a, (![0, b] : Fin 2 → ℕ) a + S1x1.size a ≤ S1x128.size a) :
    extractAt ![0, 0] (wl x2 b inb) inpos_S1x1_p0_0 = wAt x2 b := by
  unfold wAt
  rw [dif_pos hb]
  show x2 _ = x2 _
  refine congrArg x2 (funext fun a => Fin.ext ?_)
  match a with
  | ⟨0, _⟩ => rfl
  | ⟨1, _⟩ => show b + 1 * 0 = b; omega

/-- The point's chain of operations over those loads is the point's work over plain vectors. -/
theorem payChain_eq (acc : Vec Ideal S1x1 .f32) (x0 : Vec Ideal S2000x16 .f32) (x1 : Vec Ideal S2000x16 .i32)
    (x2 : Vec Ideal S1x128 .f32) :
    k1_pay13 x0 (k1_pay2 x1)
      (k1_pay12 (k1_pay3 x0 x1)
        (k1_pay10 (k1_pay3 x0 x1)
          (k1_pay7 (k1_pay3 x0 x1)
            (k1_pay6 (k1_pay3 x0 x1)
              (k1_pay4 x0 x1 (wl x2 0 inb_S1x128_S1x1_0_0) (wl x2 1 inb_S1x128_S1x1_0_1) (wl x2 2 inb_S1x128_S1x1_0_2))
              (k1_pay5 (wl x2 3 inb_S1x128_S1x1_0_3))
              (wl x2 4 inb_S1x128_S1x1_0_4) (wl x2 5 inb_S1x128_S1x1_0_5) (wl x2 6 inb_S1x128_S1x1_0_6) (wl x2 7 inb_S1x128_S1x1_0_7) (wl x2 8 inb_S1x128_S1x1_0_8) (wl x2 9 inb_S1x128_S1x1_0_9))
            (wl x2 10 inb_S1x128_S1x1_0_10) (wl x2 11 inb_S1x128_S1x1_0_11) (wl x2 12 inb_S1x128_S1x1_0_12) (wl x2 13 inb_S1x128_S1x1_0_13) (wl x2 14 inb_S1x128_S1x1_0_14) (wl x2 15 inb_S1x128_S1x1_0_15))
          (k1_pay8 (wl x2 16 inb_S1x128_S1x1_0_16)) (k1_pay9 (k1_pay3 x0 x1))
          (wl x2 17 inb_S1x128_S1x1_0_17) (wl x2 18 inb_S1x128_S1x1_0_18) (wl x2 19 inb_S1x128_S1x1_0_19) (wl x2 20 inb_S1x128_S1x1_0_20) (wl x2 21 inb_S1x128_S1x1_0_21) (wl x2 22 inb_S1x128_S1x1_0_22))
        (k1_pay11 (wl x2 23 inb_S1x128_S1x1_0_23))
        (wl x2 24 inb_S1x128_S1x1_0_24) (wl x2 25 inb_S1x128_S1x1_0_25) (wl x2 26 inb_S1x128_S1x1_0_26) (wl x2 27 inb_S1x128_S1x1_0_27) (wl x2 28 inb_S1x128_S1x1_0_28) (wl x2 29 inb_S1x128_S1x1_0_29))
      (Scalar.ofBits .f32 0x00000000#32) acc
    = lossStep acc x0 x1 x2 := by
  unfold lossStep
  refine congrArg (fun wv => k1_pay13 x0 (k1_pay2 x1) wv (Scalar.ofBits .f32 0x00000000#32) acc) (funext fun i => ?_)
  show _ = selChain (k1_pay3 x0 x1 i) (wAt x2) (Scalar.ofBits .f32 0x00000000#32) 30
  refine pay12_apply _ _ _ _ _ _ _ _ _ (wAt x2) _ i ?_ (wl_extract x2 23 (by omega) inb_S1x128_S1x1_0_23) (wl_extract x2 24 (by omega) inb_S1x128_S1x1_0_24) (wl_extract x2 25 (by omega) inb_S1x128_S1x1_0_25) (wl_extract x2 26 (by omega) inb_S1x128_S1x1_0_26) (wl_extract x2 27 (by omega) inb_S1x128_S1x1_0_27) (wl_extract x2 28 (by omega) inb_S1x128_S1x1_0_28) (wl_extract x2 29 (by omega) inb_S1x128_S1x1_0_29)
  refine pay10_apply _ _ _ _ _ _ _ _ _ (wAt x2) _ i ?_ (wl_extract x2 16 (by omega) inb_S1x128_S1x1_0_16) (wl_extract x2 17 (by omega) inb_S1x128_S1x1_0_17) (wl_extract x2 18 (by omega) inb_S1x128_S1x1_0_18) (wl_extract x2 19 (by omega) inb_S1x128_S1x1_0_19) (wl_extract x2 20 (by omega) inb_S1x128_S1x1_0_20) (wl_extract x2 21 (by omega) inb_S1x128_S1x1_0_21) (wl_extract x2 22 (by omega) inb_S1x128_S1x1_0_22)
  refine pay7_apply _ _ _ _ _ _ _ _ (wAt x2) _ i ?_ (wl_extract x2 10 (by omega) inb_S1x128_S1x1_0_10) (wl_extract x2 11 (by omega) inb_S1x128_S1x1_0_11) (wl_extract x2 12 (by omega) inb_S1x128_S1x1_0_12) (wl_extract x2 13 (by omega) inb_S1x128_S1x1_0_13) (wl_extract x2 14 (by omega) inb_S1x128_S1x1_0_14) (wl_extract x2 15 (by omega) inb_S1x128_S1x1_0_15)
  refine pay6_apply _ _ _ _ _ _ _ _ _ (wAt x2) _ i ?_ (wl_extract x2 3 (by omega) inb_S1x128_S1x1_0_3) (wl_extract x2 4 (by omega) inb_S1x128_S1x1_0_4) (wl_extract x2 5 (by omega) inb_S1x128_S1x1_0_5) (wl_extract x2 6 (by omega) inb_S1x128_S1x1_0_6) (wl_extract x2 7 (by omega) inb_S1x128_S1x1_0_7) (wl_extract x2 8 (by omega) inb_S1x128_S1x1_0_8) (wl_extract x2 9 (by omega) inb_S1x128_S1x1_0_9)
  exact pay4_apply x0 x1 _ _ _ (wAt x2) i (wl_extract x2 0 (by omega) inb_S1x128_S1x1_0_0) (wl_extract x2 1 (by omega) inb_S1x128_S1x1_0_1) (wl_extract x2 2 (by omega) inb_S1x128_S1x1_0_2)

/-! ## The found pieces, case by case -/

/-- A point strictly between the first and the last leaves the point's work on what it found in the running value. -/
theorem sout_B (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec Ideal S2000x16 .f32) (x1 : Vec Ideal S2000x16 .i32) (x2 : Vec Ideal S1x128 .f32) (xs0 : Vec Ideal S1x1 .f32) :
    sout1_B_0 (F := Ideal) c i arg1 harg1 arg2 harg2 arg3 harg3 arg4 harg4 arg5 harg5 hc0 hc1 x0 x1 x2 xs0 = lossStep xs0 x0 x1 x2 := by
  unfold sout1_B_0
  rw [View.read_writes_eq_canon _ _ _ (scover1_B_0 c i arg1 harg1 arg2 harg2 arg3 harg3 arg4 harg4 arg5 harg5 hc0 hc1 x0 x1 x2 xs0)]
  unfold kernelRun1_B
  dsimp only
  sl_unfold_words
  rw [View.canon_unit_zero hz2]
  simp only [View.readAt_eq_ld, harg1.read_unread, harg2.read_unread, harg3.read_unread, harg5.read_unread,
    View.ld_unit_zero (S := S2000x16) hz2, View.ld_unit_zero (S := S1x1) hz2]
  exact payChain_eq xs0 x0 x1 x2

/-- The last point leaves the same in the running value, -/
theorem sout_C (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec Ideal S2000x16 .f32) (x1 : Vec Ideal S2000x16 .i32) (x2 : Vec Ideal S1x128 .f32) (xs0 : Vec Ideal S1x1 .f32) :
    sout1_C_0 (F := Ideal) c i arg1 harg1 arg2 harg2 arg3 harg3 arg4 harg4 arg5 harg5 hc0 hc1 x0 x1 x2 xs0 = lossStep xs0 x0 x1 x2 := by
  unfold sout1_C_0
  rw [View.read_writes_eq_canon _ _ _ (scover1_C_0 c i arg1 harg1 arg2 harg2 arg3 harg3 arg4 harg4 arg5 harg5 hc0 hc1 x0 x1 x2 xs0)]
  unfold kernelRun1_C
  dsimp only
  sl_unfold_words
  rw [View.canon_unit_zero hz2]
  simp only [View.readAt_eq_ld, harg1.read_unread, harg2.read_unread, harg3.read_unread, harg5.read_unread,
    View.ld_unit_zero (S := S2000x16) hz2, View.ld_unit_zero (S := S1x1) hz2]
  exact payChain_eq xs0 x0 x1 x2

/-- and puts that new running value, read back, into the output's staging buffer. -/
theorem out_C (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec Ideal S2000x16 .f32) (x1 : Vec Ideal S2000x16 .i32) (x2 : Vec Ideal S1x128 .f32) (xs0 : Vec Ideal S1x1 .f32) :
    out1_C_3 (F := Ideal) c i arg1 harg1 arg2 harg2 arg3 harg3 arg4 harg4 arg5 harg5 hc0 hc1 x0 x1 x2 xs0 = lossStep xs0 x0 x1 x2 := by
  unfold out1_C_3
  rw [View.read_writes_eq_canon _ _ _ (cover1_C_3 c i arg1 harg1 arg2 harg2 arg3 harg3 arg4 harg4 arg5 harg5 hc0 hc1 x0 x1 x2 xs0)]
  unfold kernelRun1_C
  dsimp only
  sl_unfold_words
  rw [View.canon_unit_zero hz2, View.readCov_unit_zero (S := S1x1) _ hz2]
  simp only [View.readAt_eq_ld, harg1.read_unread, harg2.read_unread, harg3.read_unread, harg5.read_unread,
    View.ld_unit_zero (S := S2000x16) hz2, View.ld_unit_zero (S := S1x1) hz2]
  exact payChain_eq xs0 x0 x1 x2

/-- The first point stores zero, reads it back, and leaves the point's work on it. -/
theorem sout_A (c : Dev nD) (i : grid1.Coords) (arg1 : Memref sig .tc .vmem S2000x16 .f32) (harg1 : arg1.IsWhole) (arg2 : Memref sig .tc .vmem S2000x16 .i32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec Ideal S2000x16 .f32) (x1 : Vec Ideal S2000x16 .i32) (x2 : Vec Ideal S1x128 .f32) :
    sout1_A_0 (F := Ideal) c i arg1 harg1 arg2 harg2 arg3 harg3 arg4 harg4 arg5 harg5 hc0 hc1 x0 x1 x2 = lossStep (k1_pay1 (F := Ideal)) x0 x1 x2 := by
  unfold sout1_A_0
  rw [View.read_writes_eq_canon _ _ _ (scover1_A_0 c i arg1 harg1 arg2 harg2 arg3 harg3 arg4 harg4 arg5 harg5 hc0 hc1 x0 x1 x2)]
  unfold kernelRun1_A
  dsimp only
  sl_unfold_words
  rw [View.canon_cons_unit_zero (S := S1x1) hz2, View.readCov_unit_zero (S := S1x1) _ hz2]
  simp only [View.readAt_eq_ld, harg1.read_unread, harg2.read_unread, harg3.read_unread, harg5.read_unread,
    View.ld_unit_zero (S := S2000x16) hz2, View.ld_unit_zero (S := S1x1) hz2]
  exact payChain_eq (k1_pay1 (F := Ideal)) x0 x1 x2

end PF

end Cert.KernelIdeal.Hand

end
-- ==== Proof.IR1Value.lean ====
/-
  Region 1's value at the ideal values: after point n the running value's one entry is the sum of the tiles' shares of
  the loss over points 0, …, n in the grid's order, and the output array ends holding the sum over all thousand points.

  By induction on the point over the three control cases: the first point leaves 0 plus its tile's share, every later
  point what the point before left plus its tile's share. The one write-back, at the last point, writes the new running
  value; its block is the whole 1 × 1 array. A tile of the predictions or targets read through its window at point t is
  rows 2000 t, …, 2000 t + 1999 of the array; the weights' one block is the whole row at every point.
-/
import proofs.«181526_j69131793596448_2_alg».proof.Proof.IR1ValCases

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The loss after point n: the tiles' shares added in the grid's order. -/
def loss1 (c : Dev nD) : (n : ℕ) → n < cfg1.N → EReal
  | 0, h => Cert.Spec.tileLoss (iblk1 V c 0 ⟨0, h⟩) (iblk1 V c 1 ⟨0, h⟩) (iblk1 V c 2 ⟨0, h⟩)
  | n + 1, h => loss1 c n (Nat.lt_of_succ_lt h)
      + Cert.Spec.tileLoss (iblk1 V c 0 ⟨n + 1, h⟩) (iblk1 V c 1 ⟨n + 1, h⟩) (iblk1 V c 2 ⟨n + 1, h⟩)

namespace PF

/-- The first point leaves its tile's share. -/
theorem scr_A (c : Dev nD) (t : Fin cfg1.N) (h0 : t.val = 0) (h1 : ¬t.val = 999) :
    (outsAt1 (F := Ideal) V c t.val t.isLt).2 (ix2 (0 : Fin 1) (0 : Fin 1))
      = Cert.Spec.tileLoss (iblk1 V c 0 t) (iblk1 V c 1 t) (iblk1 V c 2 t) := by
  rw [outsAt1_A V c t h0 h1]
  dsimp only
  refine (congrFun (sout_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) _).trans ?_
  refine (lossStep_apply (k1_pay1 (F := Ideal)) (iblk1 V c 0 t) (iblk1 V c 1 t) (iblk1 V c 2 t)).trans ?_
  rw [pay1_apply, zero_add]

/-- A point strictly between leaves what the point before left plus its tile's share. -/
theorem scr_B (c : Dev nD) (t : Fin cfg1.N) (h0 : ¬t.val = 0) (h1 : ¬t.val = 999) :
    (outsAt1 (F := Ideal) V c t.val t.isLt).2 (ix2 (0 : Fin 1) (0 : Fin 1))
      = (outsAt1 V c (t.val - 1) (Nat.lt_of_le_of_lt (Nat.sub_le _ _) t.isLt)).2 (ix2 (0 : Fin 1) (0 : Fin 1))
        + Cert.Spec.tileLoss (iblk1 V c 0 t) (iblk1 V c 1 t) (iblk1 V c 2 t) := by
  rw [outsAt1_B V c t h0 h1]
  dsimp only
  refine (congrFun (sout_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) _).trans ?_
  exact lossStep_apply (outsAt1 V c (t.val - 1) (Nat.lt_of_le_of_lt (Nat.sub_le _ _) t.isLt)).2 (iblk1 V c 0 t) (iblk1 V c 1 t) (iblk1 V c 2 t)

/-- So does the last point, -/
theorem scr_C (c : Dev nD) (t : Fin cfg1.N) (h0 : ¬t.val = 0) (h1 : t.val = 999) :
    (outsAt1 (F := Ideal) V c t.val t.isLt).2 (ix2 (0 : Fin 1) (0 : Fin 1))
      = (outsAt1 V c (t.val - 1) (Nat.lt_of_le_of_lt (Nat.sub_le _ _) t.isLt)).2 (ix2 (0 : Fin 1) (0 : Fin 1))
        + Cert.Spec.tileLoss (iblk1 V c 0 t) (iblk1 V c 1 t) (iblk1 V c 2 t) := by
  rw [outsAt1_C V c t h0 h1]
  dsimp only
  refine (congrFun (sout_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) _).trans ?_
  exact lossStep_apply (outsAt1 V c (t.val - 1) (Nat.lt_of_le_of_lt (Nat.sub_le _ _) t.isLt)).2 (iblk1 V c 0 t) (iblk1 V c 1 t) (iblk1 V c 2 t)

/-- and the output's staging buffer then holds the same as the running value. -/
theorem out_eq_scr_C (c : Dev nD) (t : Fin cfg1.N) (h0 : ¬t.val = 0) (h1 : t.val = 999) :
    (outsAt1 (F := Ideal) V c t.val t.isLt).1 = (outsAt1 (F := Ideal) V c t.val t.isLt).2 := by
  rw [outsAt1_C V c t h0 h1]
  dsimp only
  exact (out_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).trans
    (sout_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).symm

end PF

/-- After point n the running value's one entry is the loss after point n. -/
theorem scratch1_eq (c : Dev nD) : ∀ (n : ℕ) (h : n < cfg1.N),
    (outsAt1 (F := Ideal) V c n h).2 (ix2 (0 : Fin 1) (0 : Fin 1)) = loss1 V c n h
  | 0, h => PF.scr_A V c ⟨0, h⟩ rfl (show ¬(0 : ℕ) = 999 by decide)
  | n + 1, h => by
    by_cases h9 : n + 1 = 999
    · refine (PF.scr_C V c ⟨n + 1, h⟩ (Nat.succ_ne_zero n) h9).trans ?_
      show (outsAt1 V c n _).2 (ix2 (0 : Fin 1) (0 : Fin 1)) + _ = loss1 V c n _ + _
      rw [scratch1_eq c n]
    · refine (PF.scr_B V c ⟨n + 1, h⟩ (Nat.succ_ne_zero n) h9).trans ?_
      show (outsAt1 V c n _).2 (ix2 (0 : Fin 1) (0 : Fin 1)) + _ = loss1 V c n _ + _
      rw [scratch1_eq c n]

namespace PF

/-- The output array's contents after the run: the loss after the last point at its one entry. -/
abbrev res1 (c : Dev nD) : Buf (Elt Ideal) ((c : Thread nD τ).loc main_v26) :=
  fun _ => loss1 V c 999 (by rw [show cfg1.N = 1000 from N_1]; decide)

/-- Windows 2 and 3 sit at block (0, 0) at every point; windows 0 and 1 at block (t, 0). -/
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)

/-- The loss after a point does not depend on how the point's number is written. -/
theorem loss1_congr (c : Dev nD) (n m : ℕ) (hn : n < cfg1.N) (hm : m < cfg1.N) (e : n = m) :
    loss1 V c n hn = loss1 V c m hm := by
  subst e; rfl

/-- At the last point the output's staging buffer holds the loss after the last point at its one entry. -/
theorem out_last (c : Dev nD) (t : Fin cfg1.N) (h9 : t.val = 999) :
    (outsAt1 (F := Ideal) V c t.val t.isLt).1 = res1 V c := funext fun j => by
  rw [out_eq_scr_C V c t (by omega) h9, idx11 j]
  exact (scratch1_eq V c t.val t.isLt).trans (loss1_congr V c _ _ _ _ h9)

/-- The output's block is the whole 1 × 1 array at every point: what is cut from it for the write-back is what the
    block reads of the array. -/
theorem cut_res (c : Dev nD) (t : Fin cfg1.N) :
    (cfg1.win 3).cut (grid1.coords t) (res1 V c) = ((cfg1.win 3).blk t).view.read (Elt Ideal) (res1 V c) := by
  have hz' : (fun a => win1_3.index t a * main_v26.ty.shape.size a) = fun _ => 0 :=
    funext fun a => by
      match a with
      | ⟨0, _⟩ => show win1_3.index t 0 * _ = 0; rw [(idx1_3 t).1, Nat.zero_mul]
      | ⟨1, _⟩ => show win1_3.index t 1 * _ = 0; rw [(idx1_3 t).2, Nat.zero_mul]
  exact (Memref.read_access_unit_zero (Elt Ideal) main_v26 hz' (fun a => by rw [congrFun hz' a]; simp) (res1 V c)).symm

/-- The one write-back, at the last point, writes the loss after the last point. -/
theorem flushed1_eq (c : Dev nD) (t : Fin cfg1.N) (hf : (cfg1.win 3).flush t = true) :
    (dat1 (F := Ideal) V c).flushed 3 t = ((cfg1.win 3).blk t).view.read (Elt Ideal) (res1 V c) := by
  have hN : cfg1.N = 1000 := N_1
  have h9 : t.val = 999 := by have := (flush1_3 t).mp hf; have := t.isLt; omega
  show (cfg1.win 3).cut (grid1.coords t) ((dat1 V c).after 3 t) = _
  rw [after1_3, out_last V c t h9]
  exact cut_res V c t

/-- The last point. -/
abbrev t999 : Fin cfg1.N := ⟨999, by rw [show cfg1.N = 1000 from N_1]; decide⟩

end PF

/-- The output array ends holding the loss after the last point. -/
theorem final1 (c : Dev nD) :
    (dat1 (F := Ideal) V c).arrAt 3 cfg1.N = fun _ => loss1 V c 999 (by rw [show cfg1.N = 1000 from N_1]; decide) :=
  (dat1 (F := Ideal) V c).arrAt_eq_of_cover 3 (PF.res1 V c) (PF.flushed1_eq V c) fun i =>
    ⟨PF.t999, (flush1_3 PF.t999).mpr rfl, by
      show i ∈ ((View.whole main_v26).slice (win1_3.rect PF.t999)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index PF.t999 0 * win1_3.size 0 ≤ (i 0 : Nat) ∧ (i 0 : Nat) < win1_3.index PF.t999 0 * win1_3.size 0 + win1_3.xsize (grid1.coords PF.t999) 0
        rw [show win1_3.index PF.t999 0 * win1_3.size 0 = 0 from by decide +kernel, show win1_3.xsize (grid1.coords PF.t999) 0 = 1 from by decide +kernel]; omega
      | ⟨1, _⟩ =>
        show win1_3.index PF.t999 1 * win1_3.size 1 ≤ (i 1 : Nat) ∧ (i 1 : Nat) < win1_3.index PF.t999 1 * win1_3.size 1 + win1_3.xsize (grid1.coords PF.t999) 1
        rw [show win1_3.index PF.t999 1 * win1_3.size 1 = 0 from by decide +kernel, show win1_3.xsize (grid1.coords PF.t999) 1 = 1 from by decide +kernel]; omega⟩

/-- A tile of the predictions read through its window at point t is rows 2000 t, …, 2000 t + 1999 of the array. -/
theorem iblk1_pred (c : Dev nD) (t : Fin cfg1.N) (r : Fin 2000) (q : Fin 16) :
    iblk1 (F := Ideal) V c 0 t (ix2 r q)
      = V c main_arg0 (ix2 (⟨t.val * 2000 + r.val, by have := t.isLt; have hN : cfg1.N = 1000 := N_1; omega⟩ : Fin 2000000) q) := by
  have hi := PF.idx1_0 t
  unfold iblk1
  rw [View.read_apply]
  show V c main_arg0 _ = V c main_arg0 _
  congr 1
  funext a
  apply Fin.ext
  match a with
  | ⟨0, _⟩ => show win1_0.index t 0 * 2000 + 1 * r.val = t.val * 2000 + r.val; rw [hi.1]; omega
  | ⟨1, _⟩ => show win1_0.index t 1 * 16 + 1 * q.val = q.val; rw [hi.2]; omega

/-- Likewise a tile of the targets. -/
theorem iblk1_target (c : Dev nD) (t : Fin cfg1.N) (r : Fin 2000) (q : Fin 16) :
    iblk1 (F := Ideal) V c 1 t (ix2 r q)
      = V c main_arg1 (ix2 (⟨t.val * 2000 + r.val, by have := t.isLt; have hN : cfg1.N = 1000 := N_1; omega⟩ : Fin 2000000) q) := by
  have hi := PF.idx1_1 t
  unfold iblk1
  rw [View.read_apply]
  show V c main_arg1 _ = V c main_arg1 _
  congr 1
  funext a
  apply Fin.ext
  match a with
  | ⟨0, _⟩ => show win1_1.index t 0 * 2000 + 1 * r.val = t.val * 2000 + r.val; rw [hi.1]; omega
  | ⟨1, _⟩ => show win1_1.index t 1 * 16 + 1 * q.val = q.val; rw [hi.2]; omega

/-- The weights' one block is the whole row at every point. -/
theorem iblk1_weights (c : Dev nD) (t : Fin cfg1.N) :
    (iblk1 (F := Ideal) V c 2 t : Vec Ideal S1x128 .f32) = V c main_v25 := by
  have hi := PF.idx1_2 t
  funext j
  unfold iblk1
  rw [View.read_apply]
  show V c main_v25 _ = V c main_v25 j
  congr 1
  funext a
  apply Fin.ext
  match a with
  | ⟨0, _⟩ => show win1_2.index t 0 * 1 + 1 * (j 0).val = (j 0).val; rw [hi.1]; omega
  | ⟨1, _⟩ => show win1_2.index t 1 * 128 + 1 * (j 1).val = (j 1).val; rw [hi.2]; omega

end Cert.KernelIdeal.Hand

end
-- ==== Proof.Bridge.lean ====
/-
  Two facts about sums in a commutative monoid (the extended reals are one), with nothing of the programs in them.

  A running total — the first term, then one more term at every step — is the sum of the terms so far.
  A sum over a·b rows is the sum over a tiles of the sum over each tile's b rows, row r of tile t being row t·b + r.
  Together: a loop over row tiles that keeps a running total of the tiles' sums ends with the sum over all rows.
-/
import Mathlib.Algebra.BigOperators.Fin
import Mathlib.Logic.Equiv.Fin.Basic

open scoped BigOperators

namespace Cert.Bridge

variable {M : Type*} [AddCommMonoid M]

/-- A running total is the sum of the terms so far. -/
theorem chain_eq_sum (N : ℕ) (g ch : (n : ℕ) → n < N → M)
    (h0 : ∀ h, ch 0 h = g 0 h)
    (hs : ∀ n (h : n + 1 < N), ch (n + 1) h = ch n (Nat.lt_of_succ_lt h) + g (n + 1) h) :
    ∀ (n : ℕ) (h : n < N), ch n h = ∑ t : Fin (n + 1), g t.val (lt_of_le_of_lt (Nat.le_of_lt_succ t.isLt) h)
  | 0, h => by
    rw [h0 h, Fin.sum_univ_one]
    rfl
  | n + 1, h => by
    rw [hs n h, chain_eq_sum N g ch h0 hs n (Nat.lt_of_succ_lt h)]
    conv_rhs => rw [Fin.sum_univ_castSucc]
    rfl

/-- The running total after the last of N steps is the sum of all N terms. -/
theorem chain_last (N : ℕ) (g ch : (n : ℕ) → n < N → M)
    (h0 : ∀ h, ch 0 h = g 0 h)
    (hs : ∀ n (h : n + 1 < N), ch (n + 1) h = ch n (Nat.lt_of_succ_lt h) + g (n + 1) h)
    (n : ℕ) (hn : n < N) (hN : n + 1 = N) :
    ch n hn = ∑ t : Fin N, g t.val t.isLt := by
  subst hN
  exact chain_eq_sum (n + 1) g ch h0 hs n hn

/-- Row r of tile t is a row. -/
theorem tile_lt {a b : ℕ} (t : Fin a) (r : Fin b) : t.val * b + r.val < a * b := by
  have h1 : t.val + 1 ≤ a := t.isLt
  have h2 := r.isLt
  calc t.val * b + r.val < t.val * b + b := by omega
    _ = (t.val + 1) * b := (Nat.succ_mul _ _).symm
    _ ≤ a * b := Nat.mul_le_mul_right b h1

/-- A sum over a·b rows, tile by tile. -/
theorem sum_tiles (a b : ℕ) (f : Fin (a * b) → M) :
    ∑ i : Fin (a * b), f i = ∑ t : Fin a, ∑ r : Fin b, f ⟨t.val * b + r.val, tile_lt t r⟩ := by
  rw [← Fintype.sum_prod_type']
  refine (Fintype.sum_equiv finProdFinEquiv _ _ (fun p => ?_)).symm
  congr 1
  apply Fin.ext
  simp [finProdFinEquiv, Nat.mul_comm, Nat.add_comm]

/-- The same for a number of rows N known to be a·b. -/
theorem sum_tiles' (N a b : ℕ) (hN : N = a * b) (f : Fin N → M) :
    ∑ i : Fin N, f i = ∑ t : Fin a, ∑ r : Fin b, f ⟨t.val * b + r.val, hN ▸ tile_lt t r⟩ := by
  subst hN
  exact sum_tiles a b f

end Cert.Bridge
-- ==== Proof.LibScatterSet.lean ====
/-
  A scatter that SETS, read at one place.

  `Host.scatter d (fun _ b => b) x idx upd` is a left fold over the positions of the update, in row-major
  order: each position writes its element at the place it lands on (`d.resultIdx?`), or nothing when it lands
  outside the array.  If exactly one position lands on a place, that place ends holding that position's element
  (the last write wins, and there is only one); a place on which no position lands keeps the operand's element.
  For any shapes, any dimension record and any element type.
-/
import Idealize.ShloMosaic.PureOps.ShapeOps

namespace Cert.Lib.ScatterSet

open Idealize.ShloMosaic

/-! ## The fold of overwrites, read at one place -/

section Fold

variable {α : Type} {s si u : Shape} {w : Nat}

/-- One step of the fold: position `n` of the update overwrites the place it lands on, if it lands
    inside the array. -/
def step (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

/-- The scatter that sets is the fold of these steps over all positions of the update. -/
theorem scatter_eq_foldl (d : ScatterDims s si u) (x : s.Idx → α) (idx : IVec si w) (upd : u.Idx → α) :
    Host.scatter d (fun _ b => b) x idx upd = (List.finRange u.numel).foldl (step d idx upd) x := rfl

/-- A step that lands elsewhere (or nowhere) leaves the place `i` as it was. -/
theorem step_miss (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases h0 : d.resultIdx? (u.rowMajor.symm n) idx with
  | none => rfl
  | some i0 =>
    have hne : i ≠ i0 := fun e => h (e ▸ h0)
    exact if_neg hne

/-- A step that lands on the place `i` leaves the update's element there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- Steps none of which lands on `i` leave that place as it was. -/
theorem foldl_miss (d : ScatterDims s si u) (idx : IVec si w) (upd : u.Idx → α) (i : s.Idx) (l : List (Fin u.numel))
    (r : s.Idx → α) (h : ∀ m ∈ l, d.resultIdx? (u.rowMajor.symm m) idx ≠ some i) :
    l.foldl (step d idx upd) r i = r i := by
  induction l generalizing r with
  | nil => rfl
  | cons a l ih =>
    rw [List.foldl_cons, ih _ (fun m hm => h m (List.mem_cons_of_mem _ hm))]
    exact step_miss d idx upd r a i (h a List.mem_cons_self)

/-- If `n` is the only position that lands on `i`, then after any run of steps that contains `n` the
    place `i` holds the update's element at `n`: the last time `n` occurs it writes that element, and
    no later step lands there. -/
theorem foldl_hit (d : ScatterDims s si u) (idx : IVec si w) (upd : u.Idx → α) (i : s.Idx) (n : Fin u.numel)
    (hn : d.resultIdx? (u.rowMajor.symm n) idx = some i)
    (huniq : ∀ m, d.resultIdx? (u.rowMajor.symm m) idx = some i → m = n)
    (l : List (Fin u.numel)) (r : s.Idx → α) (hmem : n ∈ l) :
    l.foldl (step d idx upd) r i = upd (u.rowMajor.symm n) := by
  induction l generalizing r with
  | nil => exact absurd hmem (by simp)
  | cons a l ih =>
    rw [List.foldl_cons]
    by_cases hl : n ∈ l
    · exact ih _ hl
    · have ha : a = n := by
        rcases List.mem_cons.1 hmem with e | e
        · exact e.symm
        · exact absurd e hl
      subst ha
      rw [foldl_miss d idx upd i l _ (fun m hm e => hl (huniq m e ▸ hm))]
      exact step_hit d idx upd r a i hn

/-- The scatter that sets, read at a place on which exactly one position of the update lands, is the
    update's element at that position. -/
theorem scatter_set_apply (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have hjs : u.rowMajor.symm (u.rowMajor j) = j := u.rowMajor.symm_apply_apply j
  have := foldl_hit d idx upd i (u.rowMajor j) (by rw [hjs]; exact hj)
    (fun m hm => by rw [← huniq _ hm, Equiv.apply_symm_apply]) (List.finRange u.numel) x (List.mem_finRange _)
  rw [this, hjs]

end Fold

end Cert.Lib.ScatterSet
-- ==== Proof.IPad.lean ====
/-
  The weights row the second call reads, lane by lane.

  The host lays the thirty weights into a zero row of 128 lanes by a scatter that sets, with one start index (0, 0):
  the update's position b lands on lane b of the row's only line, and no other position lands there.  So lane b of
  the row, for b < 30, is weight b.
-/
import proofs.«181526_j69131793596448_2_alg».proof.Proof.IHost
import proofs.«181526_j69131793596448_2_alg».proof.Proof.LibScatterSet
import proofs.«181526_j69131793596448_2_alg».proof.Proof.Spec
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Gen

/-- The scatter's start index is (0, 0): both words of the index vector are zero. -/
theorem padIdx_zero (j : S2.Idx) :
    concatenate S2 0 [⟨S1, broadcastInDim S1 ![] bcast_S_S1 (constantI S_ 32 0#32)⟩, ⟨S1, broadcastInDim S1 ![] bcast_S_S1 (constantI S_ 32 0#32)⟩] concatenates_S1_S1_S2_d0 j = 0#32 := by
  obtain ⟨a, rfl⟩ : ∃ a : Fin 2, j = ix1 a := ⟨j 0, eq_ix1 j⟩
  match a with
  | ⟨0, _⟩ =>
    rw [concatenate_pair_apply_left (0 : Fin S2.rank) _ _ concatenates_S1_S1_S2_d0 (ix1 (⟨0, by decide⟩ : Fin 2)) rfl (ix1 (0 : Fin 1))
      (fun b => by match b with | ⟨0, _⟩ => rfl)]
    rfl
  | ⟨1, _⟩ =>
    rw [concatenate_pair_apply_right (0 : Fin S2.rank) _ _ concatenates_S1_S1_S2_d0 (ix1 (⟨1, by decide⟩ : Fin 2)) rfl rfl (ix1 (0 : Fin 1))
      (fun b hb => by match b with | ⟨0, _⟩ => exact absurd rfl hb) rfl]
    rfl

/-- With the start index (0, 0), position b of the thirty updates lands on lane b. -/
theorem pad_lands (idx : IVec S2 32) (hidx : ∀ j, idx j = 0#32) (b : Fin 30) :
    scatter_S1x128_S2_S30_0_0_01_0.resultIdx? (ix1 b) idx = some (ix2 (0 : Fin 1) (⟨b.val, by omega⟩ : Fin 128)) := by
  have hs : ∀ a, scatter_S1x128_S2_S30_0_0_01_0.start (ix1 b) idx a = 0 := fun a => by
    unfold ScatterDims.start
    split
    · rw [hidx]; rfl
    · rfl
  have hw0 : scatter_S1x128_S2_S30_0_0_01_0.window (ix1 b) (⟨0, by decide⟩ : Fin 2) = 0 := rfl
  have hw1 : scatter_S1x128_S2_S30_0_0_01_0.window (ix1 b) (⟨1, by decide⟩ : Fin 2) = b.val := rfl
  have hb := b.isLt
  unfold ScatterDims.resultIdx?
  rw [dif_pos (fun a => by
    rw [hs]
    match a with
    | ⟨0, _⟩ => rw [hw0]; exact ⟨by simp, by show (0 : Int) + ((0 : Nat) : Int) < ((1 : Nat) : Int); simp⟩
    | ⟨1, _⟩ => rw [hw1]; exact ⟨by omega, by show (0 : Int) + (b.val : Int) < ((128 : Nat) : Int); omega⟩)]
  congr 1
  funext a
  apply Fin.ext
  match a with
  | ⟨0, _⟩ => show (scatter_S1x128_S2_S30_0_0_01_0.start (ix1 b) idx ⟨0, _⟩ + (scatter_S1x128_S2_S30_0_0_01_0.window (ix1 b) ⟨0, _⟩ : Int)).toNat = 0; rw [hs, hw0]; rfl
  | ⟨1, _⟩ => show (scatter_S1x128_S2_S30_0_0_01_0.start (ix1 b) idx ⟨1, _⟩ + (scatter_S1x128_S2_S30_0_0_01_0.window (ix1 b) ⟨1, _⟩ : Int)).toNat = b.val; rw [hs, hw1]; simp

/-- No other position of the update lands on lane b. -/
theorem pad_lands_inj (idx : IVec S2 32) (hidx : ∀ j, idx j = 0#32) (b : Fin 30) (j' : S30.Idx)
    (h : scatter_S1x128_S2_S30_0_0_01_0.resultIdx? j' idx = some (ix2 (0 : Fin 1) (⟨b.val, by omega⟩ : Fin 128))) : j' = ix1 b := by
  obtain ⟨b', rfl⟩ : ∃ b' : Fin 30, j' = ix1 b' := ⟨j' 0, eq_ix1 j'⟩
  rw [pad_lands idx hidx b'] at h
  have h1 := congrFun (Option.some.inj h) (⟨1, by decide⟩ : Fin 2)
  have : b'.val = b.val := by have h2 := Fin.val_eq_of_eq h1; exact h2
  rw [Fin.ext this]

/-- Lane b of the padded row, for b < 30, is weight b. -/
theorem padW_apply {F : FTy → Type} [FloatOps F] (w : FVec F S30 .f32) (b : Fin 30) :
    padW w (ix2 (0 : Fin 1) (⟨b.val, by omega⟩ : Fin 128)) = w (ix1 b) := by
  unfold padW
  exact Cert.Lib.ScatterSet.scatter_set_apply _ _ _ _ _ (ix1 b) (pad_lands _ padIdx_zero b) (fun j' hj' => pad_lands_inj _ padIdx_zero b j' hj')

/-- So the weight looked up in the padded row for a bin k < 30 is weight k. -/
theorem wOf_padW (w : FVec Ideal S30 .f32) (k : BitVec 32) (hk : k.toNat < 30) :
    Cert.Spec.wOf (padW w) k = w (ix1 (⟨k.toNat, hk⟩ : Fin 30)) := by
  unfold Cert.Spec.wOf
  rw [dif_pos hk]
  exact padW_apply w ⟨k.toNat, hk⟩

end Cert.KernelIdeal.Hand

end
-- ==== Proof.KMath.lean ====
/-
  The kernel's result in closed form, and its sums over row tiles re-indexed as sums over all rows.

  The first call leaves in lane j of the histogram row the sum over the 1000 row tiles of the tile's lane count
  (kHist); the host cuts the thirty counts out of it (kCounts), forms the weights and pads them; the second call leaves
  the sum over the tiles of the tile's loss under those weights (kSum); the host divides and scales (kLoss).
  Row r of tile t is row t·2000 + r of the whole array, so a sum over tiles of sums over a tile's rows is the sum over
  all 2000000 rows: count b is the number of elements of bin b among all of them, and the loss is the sum over all
  elements of the cross-entropy times the weight of the element's bin (a bin is < 30, so the padded row's lane is that
  bin's weight).
-/
import proofs.«181526_j69131793596448_2_alg».proof.Proof.Spec
import proofs.«181526_j69131793596448_2_alg».proof.Proof.Bridge
import proofs.«181526_j69131793596448_2_alg».proof.Proof.IHost
import proofs.«181526_j69131793596448_2_alg».proof.Proof.IPad
import Idealize.ShloMosaic.Lib.Pipeline.Value
import Idealize.ShloMosaic.Lib.ValueIdx

noncomputable section

open scoped BigOperators

namespace Cert.KernelIdeal.Hand

open Idealize.ShloMosaic Idealize.ShloMosaic.ValueIdx
open Cert.KernelIdeal Cert.KernelIdeal.Gen
open Cert.Spec (binOf bceOf wOf laneCount tileLoss binOf_lt T2000x16 T1x128)

/-- Row r of tile t, as a row of the whole array. -/
def rowOf (t : Fin 1000) (r : Fin 2000) : Fin 2000000 :=
  ⟨t.val * 2000 + r.val, by have := t.isLt; have := r.isLt; omega⟩

/-- Tile t of an array of 2000000 rows of 16. -/
def blkOf {α : Type} (x : S2000000x16.Idx → α) (t : Fin 1000) : T2000x16.Idx → α :=
  fun y => x (ix2 (rowOf t (y 0)) (y 1))

/-- A sum over all rows, tile by tile. -/
theorem sum_rows {M : Type*} [AddCommMonoid M] (f : Fin 2000000 → M) :
    ∑ i : Fin 2000000, f i = ∑ t : Fin 1000, ∑ r : Fin 2000, f (rowOf t r) :=
  Cert.Bridge.sum_tiles' 2000000 1000 2000 (by norm_num) f

/-- The thirty counts cut out of a lane-padded row: count b is lane b. -/
theorem cnt30_apply {F : FTy → Type} [FloatOps F] (row : FVec F S1x128 .f32) (b : Fin 30) :
    cnt30 row (ix1 b) = row (ix2 (0 : Fin 1) (⟨b.val, by omega⟩ : Fin 128)) := by
  unfold cnt30
  rw [shapeCast_apply _ _ (ix1 b) (ix2 (0 : Fin 1) b) (by
    rw [Shape.rowMajor_val_two, Shape.rowMajor_val_one]; show 0 * 30 + b.val = b.val; omega)]
  exact extractStridedSlice_apply _ _ _ _ _ (fun a => by
    match a with
    | ⟨0, _⟩ => rfl
    | ⟨1, _⟩ => show b.val = 0 + b.val; omega)

variable (pred : S2000000x16.Idx → Ideal .f32) (tg : S2000000x16.Idx → BitVec 32) (acc : FVec Ideal S30 .f32)

/-- Lane j of the histogram row after all tiles. -/
def kHist (j : Fin 128) : EReal := ∑ t : Fin 1000, laneCount (blkOf pred t) (blkOf tg t) j

/-- The thirty counts the host cuts out of it. -/
def kCounts : FVec Ideal S30 .f32 := cnt30 (fun i => kHist pred tg (i 1))

/-- The accumulated loss after all tiles, under the padded weights of those counts. -/
def kSum : EReal := ∑ t : Fin 1000, tileLoss (blkOf pred t) (blkOf tg t) (padW (perBinW (kCounts pred tg) acc))

/-- The returned scalar. -/
def kLoss : FVec Ideal S_ .f32 := lossOut (fun _ => kSum pred tg acc)

/-- Count b is the number of elements of bin b among all rows. -/
theorem kCounts_apply (b : Fin 30) :
    kCounts pred tg (ix1 b)
      = ∑ i : Fin 2000000, ∑ q : Fin 16, (if binOf (pred (ix2 i q)) (tg (ix2 i q)) = BitVec.ofNat 32 b.val then (1 : EReal) else 0) := by
  unfold kCounts
  rw [cnt30_apply]
  show kHist pred tg ⟨b.val, _⟩ = _
  unfold kHist laneCount
  have hb : ((⟨b.val, by omega⟩ : Fin 128)).val < 30 := b.isLt
  simp only [if_pos hb]
  rw [sum_rows]
  rfl

/-- The accumulated loss is the sum over all elements of the cross-entropy times the weight of the element's bin. -/
theorem kSum_eq :
    kSum pred tg acc
      = ∑ i : Fin 2000000, ∑ q : Fin 16, bceOf (pred (ix2 i q)) (tg (ix2 i q))
          * perBinW (kCounts pred tg) acc (ix1 (⟨(binOf (pred (ix2 i q)) (tg (ix2 i q))).toNat, binOf_lt _ _⟩ : Fin 30)) := by
  unfold kSum tileLoss
  rw [sum_rows]
  refine Finset.sum_congr rfl fun t _ => Finset.sum_congr rfl fun r _ => Finset.sum_congr rfl fun q _ => ?_
  show bceOf (pred (ix2 (rowOf t r) q)) (tg (ix2 (rowOf t r) q)) * wOf (padW _) (binOf (pred (ix2 (rowOf t r) q)) (tg (ix2 (rowOf t r) q))) = _
  rw [wOf_padW _ _ (binOf_lt _ _)]

end Cert.KernelIdeal.Hand

end
-- ==== Proof.IValue.lean ====
/-
  The kernel's returned scalar, from the two calls' arrays.

  The first call's output array is the histogram row after the last tile, a running total of the tiles' lane counts:
  the sum over the tiles (kHist), each tile's block being rows t·2000 … t·2000 + 1999 of the launched arrays.  The
  second call finds the launched arrays again and, in its weights row, the padded weights of the counts cut out of
  that histogram; its output array is the running total of the tiles' losses: their sum (kSum).  The last host
  stretch makes the returned scalar of it (kLoss).
-/
import proofs.«181526_j69131793596448_2_alg».proof.Proof.IGlue
import proofs.«181526_j69131793596448_2_alg».proof.Proof.IR0Value
import proofs.«181526_j69131793596448_2_alg».proof.Proof.IR1Value
import proofs.«181526_j69131793596448_2_alg».proof.Proof.KMath

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open Cert.Spec (binOf bceOf wOf laneCount tileLoss binOf_lt T2000x16 T1x128)

/-- A tile's lane count reads its blocks at the (row, column) indices only. -/
theorem laneCount_congr {x0 x0' : T2000x16.Idx → Ideal .f32} {x1 x1' : T2000x16.Idx → BitVec 32}
    (h0 : ∀ (r : Fin 2000) (q : Fin 16), x0 (ix2 r q) = x0' (ix2 r q))
    (h1 : ∀ (r : Fin 2000) (q : Fin 16), x1 (ix2 r q) = x1' (ix2 r q)) (j : Fin 128) :
    laneCount x0 x1 j = laneCount x0' x1' j := by
  unfold laneCount
  simp only [h0, h1]

/-- So does a tile's loss. -/
theorem tileLoss_congr {x0 x0' : T2000x16.Idx → Ideal .f32} {x1 x1' : T2000x16.Idx → BitVec 32} {w w' : T1x128.Idx → Ideal .f32}
    (h0 : ∀ (r : Fin 2000) (q : Fin 16), x0 (ix2 r q) = x0' (ix2 r q))
    (h1 : ∀ (r : Fin 2000) (q : Fin 16), x1 (ix2 r q) = x1' (ix2 r q)) (hw : w = w') :
    tileLoss x0 x1 w = tileLoss x0' x1' w' := by
  subst hw
  unfold tileLoss
  simp only [h0, h1]

/-- A sum over the points of a grid known to have 1000 of them. -/
theorem sum_points {M : Type*} [AddCommMonoid M] (N : ℕ) (hN : N = 1000) (g : (n : ℕ) → n < N → M) :
    ∑ t : Fin N, g t.val t.isLt = ∑ t : Fin 1000, g t.val (hN ▸ t.isLt) := by
  subst hN; rfl

variable (m : (ℓ : Loc nD τ sig) → Buf (Elt Ideal) ℓ)

/-- The histogram row after the last tile is the sum over the tiles of their lane counts over the launched arrays. -/
theorem hist_last (c : Dev nD) (h999 : 999 < cfg0.N) :
    hist0 (V0r m) c 999 h999
      = kHist (m ((c : Thread nD τ).loc main_arg0)) (m ((c : Thread nD τ).loc main_arg1)) := by
  funext j
  rw [Cert.Bridge.chain_last cfg0.N
    (fun n h => laneCount (iblk0 (V0r m) c 0 ⟨n, h⟩) (iblk0 (V0r m) c 1 ⟨n, h⟩) j)
    (fun n h => hist0 (V0r m) c n h j) (fun _ => rfl) (fun _ _ => rfl) 999 h999 (by rw [show cfg0.N = 1000 from N_0])]
  rw [sum_points cfg0.N N_0 (fun n h => laneCount (iblk0 (V0r m) c 0 ⟨n, h⟩) (iblk0 (V0r m) c 1 ⟨n, h⟩) j)]
  unfold kHist
  refine Finset.sum_congr rfl fun t _ => laneCount_congr (fun r q => ?_) (fun r q => ?_) j
  · exact iblk0_pred (V0r m) c ⟨t.val, _⟩ r q
  · exact iblk0_target (V0r m) c ⟨t.val, _⟩ r q

/-- The counts the host cuts out of the first call's output array. -/
theorem counts_eq (c : Dev nD) :
    cnt30 ((dat0 (V0r m) c).arrAt 2 cfg0.N)
      = kCounts (m ((c : Thread nD τ).loc main_arg0)) (m ((c : Thread nD τ).loc main_arg1)) := by
  rw [final0, hist_last]
  rfl

/-- The accumulated loss after the last tile is the sum over the tiles of their losses under the padded weights. -/
theorem loss_last (c : Dev nD) (h999 : 999 < cfg1.N) :
    loss1 (V6r m) c 999 h999
      = kSum (m ((c : Thread nD τ).loc main_arg0)) (m ((c : Thread nD τ).loc main_arg1)) (m ((c : Thread nD τ).loc main_arg2)) := by
  rw [Cert.Bridge.chain_last cfg1.N
    (fun n h => tileLoss (iblk1 (V6r m) c 0 ⟨n, h⟩) (iblk1 (V6r m) c 1 ⟨n, h⟩) (iblk1 (V6r m) c 2 ⟨n, h⟩))
    (fun n h => loss1 (V6r m) c n h) (fun _ => rfl) (fun _ _ => rfl) 999 h999 (by rw [show cfg1.N = 1000 from N_1])]
  rw [sum_points cfg1.N N_1 (fun n h => tileLoss (iblk1 (V6r m) c 0 ⟨n, h⟩) (iblk1 (V6r m) c 1 ⟨n, h⟩) (iblk1 (V6r m) c 2 ⟨n, h⟩))]
  unfold kSum
  refine Finset.sum_congr rfl fun t _ => tileLoss_congr (fun r q => ?_) (fun r q => ?_) ?_
  · refine (iblk1_pred (V6r m) c ⟨t.val, _⟩ r q).trans ?_
    rw [V6r_arg0]; rfl
  · refine (iblk1_target (V6r m) c ⟨t.val, _⟩ r q).trans ?_
    rw [V6r_arg1]; rfl
  · rw [iblk1_weights, V6r_v25, counts_eq]

/-- THE KERNEL'S VALUE: after the run the result buffer holds the closed form of the launched arrays. -/
theorem result_eq (c : Dev nD) :
    W8 m c (Proc.devRef .tc main_v29)
      = kLoss (m ((c : Thread nD τ).loc main_arg0)) (m ((c : Thread nD τ).loc main_arg1)) (m ((c : Thread nD τ).loc main_arg2)) := by
  rw [W8_v29, final1, loss_last]
  rfl

end Cert.KernelIdeal.Hand

end
-- ==== Proof.RefOps.lean ====
/-
  The reference's @main as the list of its 106 host operations, in program order (an outlined function's operations
  stand in its call's place, over that call's buffers), and the facts the run of such a list asks for: @main is the
  list run in order, the signature scopes no buffer and no semaphore, every operation touches TensorCore buffers only.
-/
import proofs.«181526_j69131793596448_2_alg».proof.Proof.Gen.ReferenceIdeal
import Idealize.ShloMosaic.Lib.StableHlo.Run

noncomputable section

namespace Cert.ReferenceIdeal.RefValue.Seq

open Cert.ReferenceIdeal Cert.ReferenceIdeal.Gen Idealize.ShloMosaic Idealize.ShloMosaic.TcCoe Idealize.SL.Sem Idealize.ShloMosaic.StableHlo

variable {F : FTy → Type} [FloatOps F]

/-- @main's 106 operations, in order (a called function's operations stand in its call's place, spelt `TRef.…`). -/
abbrev ops : List (HloOp τ sig (Elt F)) :=
  [ unary main_arg1 main_v0 (sitofp .f32 : (⟨S2000000x16, .i32⟩ : BufTy).Contents (Elt F) → (⟨S2000000x16, .f32⟩ : BufTy).Contents (Elt F)),
    unary main_arg0 main_v1 (Host.negf : (⟨S2000000x16, .f32⟩ : BufTy).Contents (Elt F) → (⟨S2000000x16, .f32⟩ : BufTy).Contents (Elt F)),
    unary main_v1 main_v2 (Host.exp : (⟨S2000000x16, .f32⟩ : BufTy).Contents (Elt F) → (⟨S2000000x16, .f32⟩ : BufTy).Contents (Elt F)),
    nullary main_cst (constant S_ .f32 0x3F800000#32),
    unary main_cst main_v3 (broadcastInDim S2000000x16 ![] bcast_S_S2000000x16 : (⟨S_, .f32⟩ : BufTy).Contents (Elt F) → (⟨S2000000x16, .f32⟩ : BufTy).Contents (Elt F)),
    binary main_v3 main_v2 main_v4 (addf : (⟨S2000000x16, .f32⟩ : BufTy).Contents (Elt F) → (⟨S2000000x16, .f32⟩ : BufTy).Contents (Elt F) → (⟨S2000000x16, .f32⟩ : BufTy).Contents (Elt F)),
    nullary main_cst_0 (constant S_ .f32 0x3F800000#32),
    unary main_cst_0 main_v5 (broadcastInDim S2000000x16 ![] bcast_S_S2000000x16 : (⟨S_, .f32⟩ : BufTy).Contents (Elt F) → (⟨S2000000x16, .f32⟩ : BufTy).Contents (Elt F)),
    binary main_v5 main_v4 main_v6 (Host.divf : (⟨S2000000x16, .f32⟩ : BufTy).Contents (Elt F) → (⟨S2000000x16, .f32⟩ : BufTy).Contents (Elt F) → (⟨S2000000x16, .f32⟩ : BufTy).Contents (Elt F)),
    binary main_v6 main_v0 main_v7 (subf : (⟨S2000000x16, .f32⟩ : BufTy).Contents (Elt F) → (⟨S2000000x16, .f32⟩ : BufTy).Contents (Elt F) → (⟨S2000000x16, .f32⟩ : BufTy).Contents (Elt F)),
    unary main_v7 main_v8 (Host.absf : (⟨S2000000x16, .f32⟩ : BufTy).Contents (Elt F) → (⟨S2000000x16, .f32⟩ : BufTy).Contents (Elt F)),
    nullary main_cst_1 (constant S_ .f32 0x41F00000#32),
    unary main_cst_1 main_v9 (broadcastInDim S2000000x16 ![] bcast_S_S2000000x16 : (⟨S_, .f32⟩ : BufTy).Contents (Elt F) → (⟨S2000000x16, .f32⟩ : BufTy).Contents (Elt F)),
    binary main_v8 main_v9 main_v10 (mulf : (⟨S2000000x16, .f32⟩ : BufTy).Contents (Elt F) → (⟨S2000000x16, .f32⟩ : BufTy).Contents (Elt F) → (⟨S2000000x16, .f32⟩ : BufTy).Contents (Elt F)),
    unary main_v10 main_v11 (fptosi 32 : (⟨S2000000x16, .f32⟩ : BufTy).Contents (Elt F) → (⟨S2000000x16, .i32⟩ : BufTy).Contents (Elt F)),
    nullary main_c (constantI S_ 32 0#32),
    nullary main_c_2 (constantI S_ 32 29#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2000000x16, .i32⟩) main_call0_v1) (broadcastInDim S2000000x16 ![] bcast_S_S2000000x16),
    TRef.binary (TRef.of (T := ⟨S2000000x16, .i32⟩) main_call0_v1) (TRef.of (T := ⟨S2000000x16, .i32⟩) main_v11) (TRef.of (T := ⟨S2000000x16, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S2000000x16, .i32⟩) main_call0_v4) (broadcastInDim S2000000x16 ![] bcast_S_S2000000x16),
    TRef.binary (TRef.of (T := ⟨S2000000x16, .i32⟩) main_call0_v4) (TRef.of (T := ⟨S2000000x16, .i32⟩) main_call0_v2) (TRef.of (T := ⟨S2000000x16, .i32⟩) main_v12) minsi,
    reshape main_v12 main_v13 rfl shapeCasts_S2000000x16_S32000000,
    nullary main_cst_3 (constant S_ .f32 0x3F800000#32),
    unary main_cst_3 main_v14 (broadcastInDim S32000000 ![] bcast_S_S32000000 : (⟨S_, .f32⟩ : BufTy).Contents (Elt F) → (⟨S32000000, .f32⟩ : BufTy).Contents (Elt F)),
    nullary main_cst_4 (constant S_ .f32 0x00000000#32),
    unary main_cst_4 main_v15 (broadcastInDim S30 ![] bcast_S_S30 : (⟨S_, .f32⟩ : BufTy).Contents (Elt F) → (⟨S30, .f32⟩ : BufTy).Contents (Elt F)),
    unary main_v13 main_v16 (broadcastInDim S32000000x1 ![0] bcast_S32000000_S32000000x1_0 : (⟨S32000000, .i32⟩ : BufTy).Contents (Elt F) → (⟨S32000000x1, .i32⟩ : BufTy).Contents (Elt F)),
    ternary main_v15 main_v16 main_v14 main_v17 ((fun x i u => Host.scatterAdd scatter_S30_S32000000x1_S32000000_n_0_0_1 x i u) : (⟨S30, .f32⟩ : BufTy).Contents (Elt F) → (⟨S32000000x1, .i32⟩ : BufTy).Contents (Elt F) → (⟨S32000000, .f32⟩ : BufTy).Contents (Elt F) → (⟨S30, .f32⟩ : BufTy).Contents (Elt F)),
    nullary main_cst_5 (constant S_ .f32 0x00000000#32),
    unary main_cst_5 main_v18 (broadcastInDim S30 ![] bcast_S_S30 : (⟨S_, .f32⟩ : BufTy).Contents (Elt F) → (⟨S30, .f32⟩ : BufTy).Contents (Elt F)),
    binary main_v17 main_v18 main_v19 (cmpf .ogt : (⟨S30, .f32⟩ : BufTy).Contents (Elt F) → (⟨S30, .f32⟩ : BufTy).Contents (Elt F) → (⟨S30, .i1⟩ : BufTy).Contents (Elt F)),
    nullary main_cst_6 (constant S_ .f32 0x3F400000#32),
    unary main_cst_6 main_v20 (broadcastInDim S30 ![] bcast_S_S30 : (⟨S_, .f32⟩ : BufTy).Contents (Elt F) → (⟨S30, .f32⟩ : BufTy).Contents (Elt F)),
    binary main_v20 main_arg2 main_v21 (mulf : (⟨S30, .f32⟩ : BufTy).Contents (Elt F) → (⟨S30, .f32⟩ : BufTy).Contents (Elt F) → (⟨S30, .f32⟩ : BufTy).Contents (Elt F)),
    nullary main_cst_7 (constant S_ .f32 0x3E800000#32),
    unary main_cst_7 main_v22 (broadcastInDim S30 ![] bcast_S_S30 : (⟨S_, .f32⟩ : BufTy).Contents (Elt F) → (⟨S30, .f32⟩ : BufTy).Contents (Elt F)),
    binary main_v22 main_v17 main_v23 (mulf : (⟨S30, .f32⟩ : BufTy).Contents (Elt F) → (⟨S30, .f32⟩ : BufTy).Contents (Elt F) → (⟨S30, .f32⟩ : BufTy).Contents (Elt F)),
    binary main_v21 main_v23 main_v24 (addf : (⟨S30, .f32⟩ : BufTy).Contents (Elt F) → (⟨S30, .f32⟩ : BufTy).Contents (Elt F) → (⟨S30, .f32⟩ : BufTy).Contents (Elt F)),
    TRef.ternary (TRef.of (T := ⟨S30, .i1⟩) main_v19) (TRef.of (T := ⟨S30, .f32⟩) main_v24) (TRef.of (T := ⟨S30, .f32⟩) main_arg2) (TRef.of (T := ⟨S30, .f32⟩) main_v25) select,
    nullary main_cst_8 (constant S_ .f32 0x3F800000#32),
    unary main_cst_8 main_v26 (broadcastInDim S30 ![] bcast_S_S30 : (⟨S_, .f32⟩ : BufTy).Contents (Elt F) → (⟨S30, .f32⟩ : BufTy).Contents (Elt F)),
    TRef.ternary (TRef.of (T := ⟨S30, .i1⟩) main_v19) (TRef.of (T := ⟨S30, .f32⟩) main_v25) (TRef.of (T := ⟨S30, .f32⟩) main_v26) (TRef.of (T := ⟨S30, .f32⟩) main_v27) select,
    unary main_v19 main_v28 ((extui 32 · natLt_1_32) : (⟨S30, .i1⟩ : BufTy).Contents (Elt F) → (⟨S30, .i32⟩ : BufTy).Contents (Elt F)),
    nullary main_c_9 (constantI S_ 32 0#32),
    binary main_v28 main_c_9 main_v29 ((fun x v => Host.reduce IntOp.addi x v reducesTo_S30_S_d0 h_S_) : (⟨S30, .i32⟩ : BufTy).Contents (Elt F) → (⟨S_, .i32⟩ : BufTy).Contents (Elt F) → (⟨S_, .i32⟩ : BufTy).Contents (Elt F)),
    unary main_v29 main_v30 (sitofp .f32 : (⟨S_, .i32⟩ : BufTy).Contents (Elt F) → (⟨S_, .f32⟩ : BufTy).Contents (Elt F)),
    nullary main_cst_10 (constant S_ .f32 0x3F800000#32),
    binary main_v30 main_cst_10 main_v31 (maximumf : (⟨S_, .f32⟩ : BufTy).Contents (Elt F) → (⟨S_, .f32⟩ : BufTy).Contents (Elt F) → (⟨S_, .f32⟩ : BufTy).Contents (Elt F)),
    nullary main_cst_11 (constant S_ .f32 0x4BF42400#32),
    unary main_cst_11 main_v32 (broadcastInDim S30 ![] bcast_S_S30 : (⟨S_, .f32⟩ : BufTy).Contents (Elt F) → (⟨S30, .f32⟩ : BufTy).Contents (Elt F)),
    binary main_v32 main_v27 main_v33 (Host.divf : (⟨S30, .f32⟩ : BufTy).Contents (Elt F) → (⟨S30, .f32⟩ : BufTy).Contents (Elt F) → (⟨S30, .f32⟩ : BufTy).Contents (Elt F)),
    unary main_v31 main_v34 (broadcastInDim S30 ![] bcast_S_S30 : (⟨S_, .f32⟩ : BufTy).Contents (Elt F) → (⟨S30, .f32⟩ : BufTy).Contents (Elt F)),
    binary main_v33 main_v34 main_v35 (Host.divf : (⟨S30, .f32⟩ : BufTy).Contents (Elt F) → (⟨S30, .f32⟩ : BufTy).Contents (Elt F) → (⟨S30, .f32⟩ : BufTy).Contents (Elt F)),
    nullary main_c_12 (constantI S_ 32 0#32),
    unary main_c_12 main_v36 (broadcastInDim S2000000x16 ![] bcast_S_S2000000x16 : (⟨S_, .i32⟩ : BufTy).Contents (Elt F) → (⟨S2000000x16, .i32⟩ : BufTy).Contents (Elt F)),
    binary main_v12 main_v36 main_v37 (cmpi .slt : (⟨S2000000x16, .i32⟩ : BufTy).Contents (Elt F) → (⟨S2000000x16, .i32⟩ : BufTy).Contents (Elt F) → (⟨S2000000x16, .i1⟩ : BufTy).Contents (Elt F)),
    nullary main_c_13 (constantI S_ 32 30#32),
    unary main_c_13 main_v38 (broadcastInDim S2000000x16 ![] bcast_S_S2000000x16 : (⟨S_, .i32⟩ : BufTy).Contents (Elt F) → (⟨S2000000x16, .i32⟩ : BufTy).Contents (Elt F)),
    binary main_v12 main_v38 main_v39 (addi : (⟨S2000000x16, .i32⟩ : BufTy).Contents (Elt F) → (⟨S2000000x16, .i32⟩ : BufTy).Contents (Elt F) → (⟨S2000000x16, .i32⟩ : BufTy).Contents (Elt F)),
    ternary main_v37 main_v39 main_v12 main_v40 (select : (⟨S2000000x16, .i1⟩ : BufTy).Contents (Elt F) → (⟨S2000000x16, .i32⟩ : BufTy).Contents (Elt F) → (⟨S2000000x16, .i32⟩ : BufTy).Contents (Elt F) → (⟨S2000000x16, .i32⟩ : BufTy).Contents (Elt F)),
    unary main_v40 main_v41 (broadcastInDim S2000000x16x1 ![0, 1] bcast_S2000000x16_S2000000x16x1_0_1 : (⟨S2000000x16, .i32⟩ : BufTy).Contents (Elt F) → (⟨S2000000x16x1, .i32⟩ : BufTy).Contents (Elt F)),
    binary main_v35 main_v41 main_v42 ((fun x i => Host.gather gather_S30_S2000000x16x1_S2000000x16_n_0_n_n_0_2_1 x i) : (⟨S30, .f32⟩ : BufTy).Contents (Elt F) → (⟨S2000000x16x1, .i32⟩ : BufTy).Contents (Elt F) → (⟨S2000000x16, .f32⟩ : BufTy).Contents (Elt F)),
    unary main_arg0 main_v43 (Host.negf : (⟨S2000000x16, .f32⟩ : BufTy).Contents (Elt F) → (⟨S2000000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2000000x16, .f32⟩) main_call3_v0) (broadcastInDim S2000000x16 ![] bcast_S_S2000000x16),
    TRef.binary (TRef.of (T := ⟨S2000000x16, .f32⟩) main_v43) (TRef.of (T := ⟨S2000000x16, .f32⟩) main_call3_v0) (TRef.of (T := ⟨S2000000x16, .f32⟩) main_call3_v1) maximumf,
    TRef.unary (TRef.of (T := ⟨S_, .f32⟩) main_call3_cst) (TRef.of (T := ⟨S2000000x16, .f32⟩) main_call3_v2) (broadcastInDim S2000000x16 ![] bcast_S_S2000000x16),
    TRef.binary (TRef.of (T := ⟨S2000000x16, .f32⟩) main_v43) (TRef.of (T := ⟨S2000000x16, .f32⟩) main_call3_v2) (TRef.of (T := ⟨S2000000x16, .f32⟩) main_call3_v3) subf,
    TRef.binary (TRef.of (T := ⟨S2000000x16, .f32⟩) main_call3_v3) (TRef.of (T := ⟨S2000000x16, .f32⟩) main_call3_v3) (TRef.of (T := ⟨S2000000x16, .i1⟩) main_call3_v4) (cmpf .une),
    TRef.unary (TRef.of (T := ⟨S_, .f32⟩) main_call3_cst) (TRef.of (T := ⟨S2000000x16, .f32⟩) main_call3_v5) (broadcastInDim S2000000x16 ![] bcast_S_S2000000x16),
    TRef.binary (TRef.of (T := ⟨S2000000x16, .f32⟩) main_v43) (TRef.of (T := ⟨S2000000x16, .f32⟩) main_call3_v5) (TRef.of (T := ⟨S2000000x16, .f32⟩) main_call3_v6) addf,
    TRef.unary (TRef.of (T := ⟨S2000000x16, .f32⟩) main_call3_v3) (TRef.of (T := ⟨S2000000x16, .f32⟩) main_call3_v7) Host.absf,
    TRef.unary (TRef.of (T := ⟨S2000000x16, .f32⟩) main_call3_v7) (TRef.of (T := ⟨S2000000x16, .f32⟩) main_call3_v8) Host.negf,
    TRef.unary (TRef.of (T := ⟨S2000000x16, .f32⟩) main_call3_v8) (TRef.of (T := ⟨S2000000x16, .f32⟩) main_call3_v9) Host.exp,
    TRef.unary (TRef.of (T := ⟨S2000000x16, .f32⟩) main_call3_v9) (TRef.of (T := ⟨S2000000x16, .f32⟩) main_call3_v10) Host.log1p,
    TRef.binary (TRef.of (T := ⟨S2000000x16, .f32⟩) main_call3_v1) (TRef.of (T := ⟨S2000000x16, .f32⟩) main_call3_v10) (TRef.of (T := ⟨S2000000x16, .f32⟩) main_call3_v11) addf,
    TRef.ternary (TRef.of (T := ⟨S2000000x16, .i1⟩) main_call3_v4) (TRef.of (T := ⟨S2000000x16, .f32⟩) main_call3_v6) (TRef.of (T := ⟨S2000000x16, .f32⟩) main_call3_v11) (TRef.of (T := ⟨S2000000x16, .f32⟩) main_v44) select,
    binary main_v0 main_v44 main_v45 (mulf : (⟨S2000000x16, .f32⟩ : BufTy).Contents (Elt F) → (⟨S2000000x16, .f32⟩ : BufTy).Contents (Elt F) → (⟨S2000000x16, .f32⟩ : BufTy).Contents (Elt F)),
    nullary main_cst_14 (constant S_ .f32 0x3F800000#32),
    unary main_cst_14 main_v46 (broadcastInDim S2000000x16 ![] bcast_S_S2000000x16 : (⟨S_, .f32⟩ : BufTy).Contents (Elt F) → (⟨S2000000x16, .f32⟩ : BufTy).Contents (Elt F)),
    binary main_v46 main_v0 main_v47 (subf : (⟨S2000000x16, .f32⟩ : BufTy).Contents (Elt F) → (⟨S2000000x16, .f32⟩ : BufTy).Contents (Elt F) → (⟨S2000000x16, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2000000x16, .f32⟩) main_call4_v0) (broadcastInDim S2000000x16 ![] bcast_S_S2000000x16),
    TRef.binary (TRef.of (T := ⟨S2000000x16, .f32⟩) main_arg0) (TRef.of (T := ⟨S2000000x16, .f32⟩) main_call4_v0) (TRef.of (T := ⟨S2000000x16, .f32⟩) main_call4_v1) maximumf,
    TRef.unary (TRef.of (T := ⟨S_, .f32⟩) main_call4_cst) (TRef.of (T := ⟨S2000000x16, .f32⟩) main_call4_v2) (broadcastInDim S2000000x16 ![] bcast_S_S2000000x16),
    TRef.binary (TRef.of (T := ⟨S2000000x16, .f32⟩) main_arg0) (TRef.of (T := ⟨S2000000x16, .f32⟩) main_call4_v2) (TRef.of (T := ⟨S2000000x16, .f32⟩) main_call4_v3) subf,
    TRef.binary (TRef.of (T := ⟨S2000000x16, .f32⟩) main_call4_v3) (TRef.of (T := ⟨S2000000x16, .f32⟩) main_call4_v3) (TRef.of (T := ⟨S2000000x16, .i1⟩) main_call4_v4) (cmpf .une),
    TRef.unary (TRef.of (T := ⟨S_, .f32⟩) main_call4_cst) (TRef.of (T := ⟨S2000000x16, .f32⟩) main_call4_v5) (broadcastInDim S2000000x16 ![] bcast_S_S2000000x16),
    TRef.binary (TRef.of (T := ⟨S2000000x16, .f32⟩) main_arg0) (TRef.of (T := ⟨S2000000x16, .f32⟩) main_call4_v5) (TRef.of (T := ⟨S2000000x16, .f32⟩) main_call4_v6) addf,
    TRef.unary (TRef.of (T := ⟨S2000000x16, .f32⟩) main_call4_v3) (TRef.of (T := ⟨S2000000x16, .f32⟩) main_call4_v7) Host.absf,
    TRef.unary (TRef.of (T := ⟨S2000000x16, .f32⟩) main_call4_v7) (TRef.of (T := ⟨S2000000x16, .f32⟩) main_call4_v8) Host.negf,
    TRef.unary (TRef.of (T := ⟨S2000000x16, .f32⟩) main_call4_v8) (TRef.of (T := ⟨S2000000x16, .f32⟩) main_call4_v9) Host.exp,
    TRef.unary (TRef.of (T := ⟨S2000000x16, .f32⟩) main_call4_v9) (TRef.of (T := ⟨S2000000x16, .f32⟩) main_call4_v10) Host.log1p,
    TRef.binary (TRef.of (T := ⟨S2000000x16, .f32⟩) main_call4_v1) (TRef.of (T := ⟨S2000000x16, .f32⟩) main_call4_v10) (TRef.of (T := ⟨S2000000x16, .f32⟩) main_call4_v11) addf,
    TRef.ternary (TRef.of (T := ⟨S2000000x16, .i1⟩) main_call4_v4) (TRef.of (T := ⟨S2000000x16, .f32⟩) main_call4_v6) (TRef.of (T := ⟨S2000000x16, .f32⟩) main_call4_v11) (TRef.of (T := ⟨S2000000x16, .f32⟩) main_v48) select,
    binary main_v47 main_v48 main_v49 (mulf : (⟨S2000000x16, .f32⟩ : BufTy).Contents (Elt F) → (⟨S2000000x16, .f32⟩ : BufTy).Contents (Elt F) → (⟨S2000000x16, .f32⟩ : BufTy).Contents (Elt F)),
    binary main_v45 main_v49 main_v50 (addf : (⟨S2000000x16, .f32⟩ : BufTy).Contents (Elt F) → (⟨S2000000x16, .f32⟩ : BufTy).Contents (Elt F) → (⟨S2000000x16, .f32⟩ : BufTy).Contents (Elt F)),
    binary main_v50 main_v42 main_v51 (mulf : (⟨S2000000x16, .f32⟩ : BufTy).Contents (Elt F) → (⟨S2000000x16, .f32⟩ : BufTy).Contents (Elt F) → (⟨S2000000x16, .f32⟩ : BufTy).Contents (Elt F)),
    nullary main_cst_15 (constant S_ .f32 0x00000000#32),
    binary main_v51 main_cst_15 main_v52 ((fun x v => Host.reduceAdd x v reducesTo_S2000000x16_S_d0_1 h_S_) : (⟨S2000000x16, .f32⟩ : BufTy).Contents (Elt F) → (⟨S_, .f32⟩ : BufTy).Contents (Elt F) → (⟨S_, .f32⟩ : BufTy).Contents (Elt F)),
    nullary main_cst_16 (constant S_ .f32 0x4BF42400#32),
    binary main_v52 main_cst_16 main_v53 (Host.divf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_v53 main_cst_17 main_v54 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., ternary_bufs_sub .., nullary_bufs_sub .., unary_bufs_sub .., ternary_bufs_sub .., unary_bufs_sub .., nullary_bufs_sub .., binary_bufs_sub .., unary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., binary_bufs_sub .., nullary_bufs_sub .., binary_bufs_sub .., nullary_bufs_sub .., binary_bufs_sub .., nullary_bufs_sub .., binary_bufs_sub ..⟩

end Cert.ReferenceIdeal.RefValue.Seq

end
-- ==== Proof.RefStages.lean ====
/-
  The reference, stage by stage: each definition is one printed operation (or a short run of them) applied to the
  earlier stages, in program order, at the ideal values.

  t = the targets as floats; σ = 1 / (1 + exp(−pred)); g = |σ − t|; the bin index is g · 30 truncated toward zero and
  clipped to [0, 29] (the outlined clip: the maximum with 0, then the minimum with 29); the histogram is the scatter-add
  of ones into thirty zeros at the bin indices, flattened row-major and set as a column; the per-bin weights are one
  function of the histogram and the running averages (refW); each element's weight is gathered at its bin index (30
  added when negative); the cross-entropy is t · softplus(−pred) + (1 − t) · softplus(pred) with the outlined softplus
  max(x, 0) + log1p(exp(−|x − 0|)) guarded by x − 0 ≠ x − 0; the result is the sum over all elements of cross-entropy
  times weight, from 0, divided by 3.2e7 and multiplied by 1.

  refCounts and refLoss state the histogram and the result in closed form over the specification's per-element functions.
-/
import proofs.«181526_j69131793596448_2_alg».proof.Proof.Gen.ReferenceIdeal
import proofs.«181526_j69131793596448_2_alg».proof.Proof.Spec

noncomputable section

open scoped BigOperators

namespace Cert.ReferenceIdeal.RefValue

open Cert.ReferenceIdeal Cert.ReferenceIdeal.Gen Idealize.ShloMosaic Idealize.ShloMosaic.ValueIdx

/-- A scalar constant spread over the [2000000, 16] array. -/
def splatF (b : BitVec 32) : FVec Ideal S2000000x16 .f32 :=
  broadcastInDim S2000000x16 ![] bcast_S_S2000000x16 (constant (F := Ideal) S_ .f32 b)

/-- A scalar constant spread over the thirty bins. -/
def splatB (b : BitVec 32) : FVec Ideal S30 .f32 :=
  broadcastInDim S30 ![] bcast_S_S30 (constant (F := Ideal) S_ .f32 b)

/-- An integer scalar spread over the [2000000, 16] array. -/
def splatI (b : BitVec 32) : IVec S2000000x16 32 :=
  broadcastInDim S2000000x16 ![] bcast_S_S2000000x16 (constantI S_ 32 b)

/-- %0: the targets as floats. -/
def stT (tg : S2000000x16.Idx → BitVec 32) : FVec Ideal S2000000x16 .f32 :=
  sitofp .f32 tg

/-- %1 … %6: 1 / (1 + exp(−pred)). -/
def stSig (pred : S2000000x16.Idx → Ideal .f32) : FVec Ideal S2000000x16 .f32 :=
  Host.divf (splatF 0x3F800000#32) (addf (splatF 0x3F800000#32) (Host.exp (Host.negf pred)))

/-- %7, %8: the gradient density |σ − t|. -/
def stG (pred : S2000000x16.Idx → Ideal .f32) (tg : S2000000x16.Idx → BitVec 32) : FVec Ideal S2000000x16 .f32 :=
  Host.absf (subf (stSig pred) (stT tg))

/-- %9 … %12: g · 30 truncated toward zero, then the outlined clip: the minimum of 29 and the maximum of 0 and it. -/
def stIdx (pred : S2000000x16.Idx → Ideal .f32) (tg : S2000000x16.Idx → BitVec 32) : IVec S2000000x16 32 :=
  minsi (splatI 29#32) (maxsi (splatI 0#32) (fptosi 32 (mulf (stG pred tg) (splatF 0x41F00000#32))))

/-- %13 … %17: the scatter-add of ones into thirty zeros at the bin indices, flattened row-major, as a column. -/
def stCounts (pred : S2000000x16.Idx → Ideal .f32) (tg : S2000000x16.Idx → BitVec 32) : FVec Ideal S30 .f32 :=
  Host.scatterAdd (F := Ideal) scatter_S30_S32000000x1_S32000000_n_0_0_1
    (splatB 0x00000000#32)
    (broadcastInDim S32000000x1 ![0] bcast_S32000000_S32000000x1_0
      (shapeCast _ (stIdx pred tg) shapeCasts_S2000000x16_S32000000))
    (broadcastInDim S32000000 ![] bcast_S_S32000000 (constant (F := Ideal) S_ .f32 0x3F800000#32))

/-- %18 … %35: the per-bin weights from the histogram and the running averages. With v = (counts > 0):
    3.2e7 / where(v, where(v, 0.75 · acc + 0.25 · counts, acc), 1) / max(float(Σ v), 1). -/
def refW (counts acc : FVec Ideal S30 .f32) : FVec Ideal S30 .f32 :=
  Host.divf
    (Host.divf (splatB 0x4BF42400#32)
      (select (cmpf (F := Ideal) .ogt counts (splatB 0x00000000#32))
        (select (cmpf (F := Ideal) .ogt counts (splatB 0x00000000#32))
          (addf (mulf (splatB 0x3F400000#32) acc) (mulf (splatB 0x3E800000#32) counts))
          acc)
        (splatB 0x3F800000#32)))
    (broadcastInDim S30 ![] bcast_S_S30
      (maximumf
        (sitofp .f32
          (Host.reduce IntOp.addi (extui 32 (cmpf (F := Ideal) .ogt counts (splatB 0x00000000#32)) natLt_1_32)
            (constantI S_ 32 0#32) reducesTo_S30_S_d0 h_S_))
        (constant (F := Ideal) S_ .f32 0x3F800000#32)))

/-- %36 … %42: each element's weight: the gather of the per-bin weights at the bin index, 30 added when negative. -/
def stWeights (pred : S2000000x16.Idx → Ideal .f32) (tg : S2000000x16.Idx → BitVec 32) (acc : FVec Ideal S30 .f32) :
    FVec Ideal S2000000x16 .f32 :=
  Host.gather gather_S30_S2000000x16x1_S2000000x16_n_0_n_n_0_2_1 (refW (stCounts pred tg) acc)
    (broadcastInDim S2000000x16x1 ![0, 1] bcast_S2000000x16_S2000000x16x1_0_1
      (select (cmpi .slt (stIdx pred tg) (splatI 0#32)) (addi (stIdx pred tg) (splatI 30#32)) (stIdx pred tg)))

/-- The outlined softplus: max(x, 0) + log1p(exp(−|x − 0|)), or x + 0 where x − 0 differs from itself. -/
def stSoftplus (x : FVec Ideal S2000000x16 .f32) : FVec Ideal S2000000x16 .f32 :=
  select (cmpf (F := Ideal) .une (subf x (splatF 0x00000000#32)) (subf x (splatF 0x00000000#32)))
    (addf x (splatF 0x00000000#32))
    (addf (maximumf x (splatF 0x00000000#32))
      (Host.log1p (Host.exp (Host.negf (Host.absf (subf x (splatF 0x00000000#32)))))))

/-- %43 … %50: the cross-entropy t · softplus(−pred) + (1 − t) · softplus(pred). -/
def stBce (pred : S2000000x16.Idx → Ideal .f32) (tg : S2000000x16.Idx → BitVec 32) : FVec Ideal S2000000x16 .f32 :=
  addf (mulf (stT tg) (stSoftplus (Host.negf pred)))
    (mulf (subf (splatF 0x3F800000#32) (stT tg)) (stSoftplus pred))

/-- %51, %52: the sum over both axes of cross-entropy times weight, from 0. -/
def stSum (pred : S2000000x16.Idx → Ideal .f32) (tg : S2000000x16.Idx → BitVec 32) (acc : FVec Ideal S30 .f32) :
    FVec Ideal S_ .f32 :=
  Host.reduceAdd (mulf (stBce pred tg) (stWeights pred tg acc)) (constant (F := Ideal) S_ .f32 0x00000000#32)
    reducesTo_S2000000x16_S_d0_1 h_S_

/-- %53, %54: divided by 3.2e7, multiplied by 1. -/
def stOut (pred : S2000000x16.Idx → Ideal .f32) (tg : S2000000x16.Idx → BitVec 32) (acc : FVec Ideal S30 .f32) :
    FVec Ideal S_ .f32 :=
  mulf (Host.divf (stSum pred tg acc) (constant (F := Ideal) S_ .f32 0x4BF42400#32))
    (constant (F := Ideal) S_ .f32 0x3F800000#32)

/-- The reference's histogram: per bin, the zero word plus the number of elements whose bin it is. -/
def refCounts (pred : S2000000x16.Idx → Ideal .f32) (tg : S2000000x16.Idx → BitVec 32) : FVec Ideal S30 .f32 :=
  fun b => Ideal.ofBits .f32 0x00000000#32 + ∑ i : Fin 2000000, ∑ q : Fin 16,
    (if Cert.Spec.binOf (pred (ix2 i q)) (tg (ix2 i q)) = BitVec.ofNat 32 (b 0).val then (1 : EReal) else 0)

/-- The reference's result: the sum over all elements of the cross-entropy times the weight of the element's bin, from
    the zero word, divided by 3.2e7 and multiplied by 1. -/
def refLoss (pred : S2000000x16.Idx → Ideal .f32) (tg : S2000000x16.Idx → BitVec 32) (acc : FVec Ideal S30 .f32) : EReal :=
  FloatOps.mulf (FloatOps.hostDivf (Ideal.ofBits .f32 0x00000000#32 + ∑ i : Fin 2000000, ∑ q : Fin 16,
      Cert.Spec.bceOf (pred (ix2 i q)) (tg (ix2 i q))
        * refW (refCounts pred tg) acc (ix1 (⟨(Cert.Spec.binOf (pred (ix2 i q)) (tg (ix2 i q))).toNat, Cert.Spec.binOf_lt _ _⟩ : Fin 30)))
    (Ideal.ofBits .f32 0x4BF42400#32)) (Ideal.ofBits .f32 0x3F800000#32)

end Cert.ReferenceIdeal.RefValue

end
-- ==== Proof.RefRun.lean ====
/-
  The reference's run: from any memory with zero counters every weakly fair execution of @main terminates; its result
  buffer then holds the last stage (the sum of cross-entropy times weight over all elements, divided by 3.2e7 and
  multiplied by 1) of the three arguments' contents at launch, and the arguments are unchanged.

  The run of a list of host operations leaves each buffer at the fold of the operations' results over the launch
  contents; read back at the result buffer, the fold is the stages' composition, operation by operation.
-/
import proofs.«181526_j69131793596448_2_alg».proof.Proof.RefOps
import proofs.«181526_j69131793596448_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

/-! An outlined function's operations are stated over references that carry the type of the value they hold; contents
    move between that type and the buffer's own type along the equation of the two. At a literal buffer the two types
    are the same and the move is the identity: stated once for a move there and back, and once per buffer that is
    written at one type and read at the other. -/

namespace Cast
theorem ofBuf_toBuf {Val : EltTy → Type} {T : BufTy} (x : TRef sig T) (v : T.Contents Val) : x.ofBuf (x.toBuf v) = v := by
  obtain ⟨r, h, h2, h3⟩ := x
  subst h
  rfl
theorem ofBuf_main_c (h1 h2 h3) (v : (⟨S_, .i32⟩ : BufTy).Contents (Elt Ideal)) :
    (TRef.of (T := ⟨S_, .i32⟩) main_c h1 h2 h3).ofBuf v = v := rfl
theorem ofBuf_main_c_2 (h1 h2 h3) (v : (⟨S_, .i32⟩ : BufTy).Contents (Elt Ideal)) :
    (TRef.of (T := ⟨S_, .i32⟩) main_c_2 h1 h2 h3).ofBuf v = v := rfl
theorem ofBuf_main_v11 (h1 h2 h3) (v : (⟨S2000000x16, .i32⟩ : BufTy).Contents (Elt Ideal)) :
    (TRef.of (T := ⟨S2000000x16, .i32⟩) main_v11 h1 h2 h3).ofBuf v = v := rfl
theorem ofBuf_main_v19 (h1 h2 h3) (v : (⟨S30, .i1⟩ : BufTy).Contents (Elt Ideal)) :
    (TRef.of (T := ⟨S30, .i1⟩) main_v19 h1 h2 h3).ofBuf v = v := rfl
theorem ofBuf_main_v24 (h1 h2 h3) (v : (⟨S30, .f32⟩ : BufTy).Contents (Elt Ideal)) :
    (TRef.of (T := ⟨S30, .f32⟩) main_v24 h1 h2 h3).ofBuf v = v := rfl
theorem ofBuf_main_arg2 (h1 h2 h3) (v : (⟨S30, .f32⟩ : BufTy).Contents (Elt Ideal)) :
    (TRef.of (T := ⟨S30, .f32⟩) main_arg2 h1 h2 h3).ofBuf v = v := rfl
theorem ofBuf_main_v25 (h1 h2 h3) (v : (⟨S30, .f32⟩ : BufTy).Contents (Elt Ideal)) :
    (TRef.of (T := ⟨S30, .f32⟩) main_v25 h1 h2 h3).ofBuf v = v := rfl
theorem ofBuf_main_v26 (h1 h2 h3) (v : (⟨S30, .f32⟩ : BufTy).Contents (Elt Ideal)) :
    (TRef.of (T := ⟨S30, .f32⟩) main_v26 h1 h2 h3).ofBuf v = v := rfl
theorem ofBuf_main_v43 (h1 h2 h3) (v : (⟨S2000000x16, .f32⟩ : BufTy).Contents (Elt Ideal)) :
    (TRef.of (T := ⟨S2000000x16, .f32⟩) main_v43 h1 h2 h3).ofBuf v = v := rfl
theorem ofBuf_main_arg0 (h1 h2 h3) (v : (⟨S2000000x16, .f32⟩ : BufTy).Contents (Elt Ideal)) :
    (TRef.of (T := ⟨S2000000x16, .f32⟩) main_arg0 h1 h2 h3).ofBuf v = v := rfl
theorem toBuf_main_v12 (h1 h2 h3) (v : (⟨S2000000x16, .i32⟩ : BufTy).Contents (Elt Ideal)) :
    (TRef.of (T := ⟨S2000000x16, .i32⟩) main_v12 h1 h2 h3).toBuf v = v := rfl
theorem toBuf_main_v25 (h1 h2 h3) (v : (⟨S30, .f32⟩ : BufTy).Contents (Elt Ideal)) :
    (TRef.of (T := ⟨S30, .f32⟩) main_v25 h1 h2 h3).toBuf v = v := rfl
theorem toBuf_main_v27 (h1 h2 h3) (v : (⟨S30, .f32⟩ : BufTy).Contents (Elt Ideal)) :
    (TRef.of (T := ⟨S30, .f32⟩) main_v27 h1 h2 h3).toBuf v = v := rfl
theorem toBuf_main_v44 (h1 h2 h3) (v : (⟨S2000000x16, .f32⟩ : BufTy).Contents (Elt Ideal)) :
    (TRef.of (T := ⟨S2000000x16, .f32⟩) main_v44 h1 h2 h3).toBuf v = v := rfl
theorem toBuf_main_v48 (h1 h2 h3) (v : (⟨S2000000x16, .f32⟩ : BufTy).Contents (Elt Ideal)) :
    (TRef.of (T := ⟨S2000000x16, .f32⟩) main_v48 h1 h2 h3).toBuf v = v := rfl

end Cast

set_option maxRecDepth 8192 in
set_option maxHeartbeats 42400000 in
/-- The fold of the 106 operations, read at the result buffer: the last stage of the arguments' launch contents. -/
theorem after_out (m : (ℓ : Loc nD τ sig) → Buf (Elt Ideal) ℓ) (c : Dev nD) :
    after (Seq.ops (F := Ideal)) (launchContents m c) (Proc.devRef .tc main_v54)
      = stOut (m ((c.tc : Thread nD τ).loc main_arg0)) (m ((c.tc : Thread nD τ).loc main_arg1)) (m ((c.tc : Thread nD τ).loc main_arg2)) := by
  after_results_simp
  simp only [Cast.ofBuf_toBuf, Cast.ofBuf_main_c, Cast.ofBuf_main_c_2, Cast.ofBuf_main_v11, Cast.ofBuf_main_v19, Cast.ofBuf_main_v24, Cast.ofBuf_main_arg2, Cast.ofBuf_main_v25, Cast.ofBuf_main_v26, Cast.ofBuf_main_v43, Cast.ofBuf_main_arg0, Cast.toBuf_main_v12, Cast.toBuf_main_v25, Cast.toBuf_main_v27, Cast.toBuf_main_v44, Cast.toBuf_main_v48]
  unfold stOut stSum stWeights stBce stSoftplus refW stCounts stIdx stG stSig stT splatF splatB splatI
  rfl

set_option maxRecDepth 8192 in
set_option maxHeartbeats 42400000 in
/-- No operation writes an argument: the fold leaves the three argument buffers at their launch contents. -/
theorem after_args (m : (ℓ : Loc nD τ sig) → Buf (Elt Ideal) ℓ) (c : Dev nD) :
    after (Seq.ops (F := Ideal)) (launchContents m c) (Proc.devRef .tc main_arg0) = m ((c.tc : Thread nD τ).loc main_arg0)
    ∧ after (Seq.ops (F := Ideal)) (launchContents m c) (Proc.devRef .tc main_arg1) = m ((c.tc : Thread nD τ).loc main_arg1)
    ∧ after (Seq.ops (F := Ideal)) (launchContents m c) (Proc.devRef .tc main_arg2) = m ((c.tc : Thread nD τ).loc main_arg2) := by
  refine ⟨?_, ?_, ?_⟩
  · after_results_simp <;> rfl
  · after_results_simp <;> rfl
  · after_results_simp <;> rfl

/-- Every weakly fair execution of the reference's @main terminates with the result buffer at the last stage of the
    arguments and the arguments unchanged. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54) = stOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v54).trans (after_out m c),
      (h c main_arg0).trans (after_args m c).1,
      (h c main_arg1).trans (after_args m c).2.1,
      (h c main_arg2).trans (after_args m c).2.2⟩)
    (run_seq Seq.scopedRefs_eq Seq.scopedSems_eq defs main (fun _ => Seq.ops) Seq.main_eq (fun _ => Seq.ops_sub) m ρ)

end Cert.ReferenceIdeal.RefValue

end
-- ==== Proof.RefHistOne.lean ====
/-
  The single-precision word 0x3F800000 denotes the number one.
-/
import Idealize.ShloMosaic.PureOps.Ideal

noncomputable section

namespace Cert.ReferenceIdeal.RefValue.PH

open Idealize.ShloMosaic

/-- The word of 1.0 denotes 1. -/
theorem ofBits_one_f32 : Ideal.ofBits .f32 0x3F800000#32 = 1 := by
  simp [Ideal.ofBits, Ideal.ieee, -EReal.coe_mul]; norm_num

end Cert.ReferenceIdeal.RefValue.PH

end
-- ==== Proof.RefMathElt.lean ====
/- The reference's per-element functions are the specification's. The sigmoid written as 1 / (1 + exp(−x)) is the logistic
   function; the clipped, truncated, scaled gradient density is the bin; the outlined softplus, whose guard compares a
   value with itself, is the specification's; and so is the cross-entropy built from it. Then the same, read at one index of
   the reference's stages. -/
import proofs.«181526_j69131793596448_2_alg».proof.Proof.RefStages
import proofs.«181526_j69131793596448_2_alg».proof.Proof.RefHistOne

noncomputable section

open scoped BigOperators

namespace Cert.ReferenceIdeal.RefValue

open Cert.ReferenceIdeal Cert.ReferenceIdeal.Gen Idealize.ShloMosaic Idealize.ShloMosaic.ValueIdx

namespace PM

/-- The word of 1.0 denotes the real 1. -/
theorem ofBits_one : Ideal.ofBits .f32 0x3F800000#32 = 1 := PH.ofBits_one_f32

/-- 1 / (1 + exp(−x)), in the host's operations, is the logistic function at every extended real. -/
theorem sigm_eq (x : Ideal .f32) :
    FloatOps.hostDivf (Ideal.ofBits .f32 0x3F800000#32) (FloatOps.addf (Ideal.ofBits .f32 0x3F800000#32) (FloatOps.hostUnary .exp (FloatOps.hostNegf x))) = FloatOps.logistic x := by
  rw [ofBits_one]; rfl

/-- The reference's bin of one element is the specification's. -/
theorem bin_eq (p : Ideal .f32) (t : BitVec 32) :
    IntOp.minsi 29#32 (IntOp.maxsi 0#32 (FloatOps.fptosi 32 (FloatOps.mulf (FloatOps.hostAbsf (FloatOps.subf
      (FloatOps.hostDivf (Ideal.ofBits .f32 0x3F800000#32) (FloatOps.addf (Ideal.ofBits .f32 0x3F800000#32) (FloatOps.hostUnary .exp (FloatOps.hostNegf p))))
      (FloatOps.sitofp .f32 t))) (Ideal.ofBits .f32 0x41F00000#32)))) = Cert.Spec.binOf p t := by
  rw [sigm_eq]; rfl

/-- No extended real differs from itself: both spellings of the guard are the zero bit. -/
theorem cmp_une_self (d : Ideal .f32) : FloatOps.cmpf .une d d = 0#1 := by
  show Ideal.cmp .une d d = 0#1
  simp [Ideal.cmp]
theorem cmp_one_self (d : Ideal .f32) : FloatOps.cmpf .one d d = 0#1 := by
  show Ideal.cmp .one d d = 0#1
  simp [Ideal.cmp]

/-- The negation is the difference from the zero word. -/
theorem neg_eq_zero_sub (y : Ideal .f32) : FloatOps.hostNegf y = FloatOps.subf (Ideal.ofBits .f32 0x00000000#32) y := by
  show -y = Ideal.ofBits .f32 0x00000000#32 - y
  rw [Ideal.ofBits_zero_f32, zero_sub]

/-- The outlined softplus of one element is the specification's. -/
theorem softplus_eq (x : Ideal .f32) :
    (Scalar.select (FloatOps.cmpf .une (FloatOps.subf x (Ideal.ofBits .f32 0x00000000#32)) (FloatOps.subf x (Ideal.ofBits .f32 0x00000000#32))) (FloatOps.addf x (Ideal.ofBits .f32 0x00000000#32))
      (FloatOps.addf (FloatOps.maximumf x (Ideal.ofBits .f32 0x00000000#32)) (FloatOps.hostUnary .log1p (FloatOps.hostUnary .exp (FloatOps.hostNegf (FloatOps.hostAbsf (FloatOps.subf x (Ideal.ofBits .f32 0x00000000#32)))))))) = Cert.Spec.softplusOf x := by
  unfold Cert.Spec.softplusOf
  rw [cmp_une_self, cmp_one_self, neg_eq_zero_sub]
  rfl

/-- The reference's cross-entropy of one element is the specification's. -/
theorem bce_eq (p : Ideal .f32) (t : BitVec 32) :
    FloatOps.addf (FloatOps.mulf (FloatOps.sitofp .f32 t) (Scalar.select (FloatOps.cmpf .une (FloatOps.subf (FloatOps.hostNegf p) (Ideal.ofBits .f32 0x00000000#32)) (FloatOps.subf (FloatOps.hostNegf p) (Ideal.ofBits .f32 0x00000000#32))) (FloatOps.addf (FloatOps.hostNegf p) (Ideal.ofBits .f32 0x00000000#32))
      (FloatOps.addf (FloatOps.maximumf (FloatOps.hostNegf p) (Ideal.ofBits .f32 0x00000000#32)) (FloatOps.hostUnary .log1p (FloatOps.hostUnary .exp (FloatOps.hostNegf (FloatOps.hostAbsf (FloatOps.subf (FloatOps.hostNegf p) (Ideal.ofBits .f32 0x00000000#32)))))))))
      (FloatOps.mulf (FloatOps.subf (Ideal.ofBits .f32 0x3F800000#32) (FloatOps.sitofp .f32 t)) (Scalar.select (FloatOps.cmpf .une (FloatOps.subf p (Ideal.ofBits .f32 0x00000000#32)) (FloatOps.subf p (Ideal.ofBits .f32 0x00000000#32))) (FloatOps.addf p (Ideal.ofBits .f32 0x00000000#32))
      (FloatOps.addf (FloatOps.maximumf p (Ideal.ofBits .f32 0x00000000#32)) (FloatOps.hostUnary .log1p (FloatOps.hostUnary .exp (FloatOps.hostNegf (FloatOps.hostAbsf (FloatOps.subf p (Ideal.ofBits .f32 0x00000000#32))))))))) = Cert.Spec.bceOf p t := by
  unfold Cert.Spec.bceOf
  rw [softplus_eq, softplus_eq, neg_eq_zero_sub]

/-- A bin is not negative, so the wrap "add 30 when negative" leaves it. -/
theorem sel_bin (k : BitVec 32) (h : k.toNat < 30) :
    Scalar.select (IntOp.cmpi .slt k 0#32) (IntOp.addi k 30#32) k = k := by
  have hs : k.slt 0#32 = false := by
    rw [BitVec.slt, decide_eq_false_iff_not, BitVec.toInt_eq_toNat_cond]
    have e0 : (0#32 : BitVec 32).toInt = 0 := by decide
    rw [e0]; split <;> omega
  unfold Scalar.select IntOp.cmpi
  simp [hs]

end PM

/-- The bin index at an element is the specification's bin of that element. -/
theorem stIdx_apply (pred : S2000000x16.Idx → Ideal .f32) (tg : S2000000x16.Idx → BitVec 32) (y : S2000000x16.Idx) :
    stIdx pred tg y = Cert.Spec.binOf (pred y) (tg y) :=
  PM.bin_eq (pred y) (tg y)

/-- The cross-entropy at an element is the specification's of that element. -/
theorem stBce_apply (pred : S2000000x16.Idx → Ideal .f32) (tg : S2000000x16.Idx → BitVec 32) (y : S2000000x16.Idx) :
    stBce pred tg y = Cert.Spec.bceOf (pred y) (tg y) :=
  PM.bce_eq (pred y) (tg y)

end Cert.ReferenceIdeal.RefValue

end
-- ==== Proof.RefMathGather.lean ====
/- The reference's gather of the per-bin weights and its sum over both axes, read in closed form. A gather of a vector
   at a column of start indices, read at an element whose index word is a bin, is the vector at that bin (start indices are
   read signed and clamped; a bin is in range, so neither changes it), stated for arbitrary extents and then read at the
   reference's. The host's sum over both axes from the zero word is the zero word plus the double sum over rows and columns. -/
import proofs.«181526_j69131793596448_2_alg».proof.Proof.RefMathElt
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

namespace PM

/-- An array set over a new trailing unit axis, read at (t, j, 0), is the array at (t, j). -/
theorem bcast_col {R C : Nat} {α : Type} (hR : R ≠ 1) (hC : C ≠ 1)
    (hb : (⟨2, ![R, C]⟩ : Shape).BroadcastsInDim ⟨3, ![R, C, 1]⟩ ![0, 1]) (x : (⟨2, ![R, C]⟩ : Shape).Idx → α)
    (y : (⟨2, ![R, C]⟩ : Shape).Idx) :
    broadcastInDim ⟨3, ![R, C, 1]⟩ ![0, 1] hb x (takeIdx y) = x y := by
  refine broadcastInDim_apply _ hb x _ y (fun a => ?_)
  match a with
  | ⟨0, h0⟩ =>
    have h1 : ¬ ((⟨2, ![R, C]⟩ : Shape).size ⟨0, h0⟩ = 1) := hR
    rw [if_neg h1]; rfl
  | ⟨1, h0⟩ =>
    have h1 : ¬ ((⟨2, ![R, C]⟩ : Shape).size ⟨1, h0⟩ = 1) := hC
    rw [if_neg h1]; rfl

/-- A word below 2^31 read signed is its value. -/
theorem toInt_of_small (k : BitVec 32) (N : Nat) (hlt : k.toNat < N) (hsm : N ≤ 2 ^ 31) : k.toInt = (k.toNat : Int) := by
  rw [BitVec.toInt_eq_toNat_cond]
  split <;> omega

/-- The gather of a vector of `N` entries at a column of start indices, read at an element whose index word is `k`,
    in range: the vector at `k`. -/
theorem gather_bins {N R C : Nat} {α : Type} (hN : 0 < N) (hR : R ≠ 1) (hC : C ≠ 1)
    (wf : GatherDims.WF ⟨1, ![N]⟩ ⟨3, ![R, C, 1]⟩ ⟨2, ![R, C]⟩ [] [0] [] [0] [] 2 ![1])
    (hb : (⟨2, ![R, C]⟩ : Shape).BroadcastsInDim ⟨3, ![R, C, 1]⟩ ![0, 1])
    (x : (⟨1, ![N]⟩ : Shape).Idx → α) (idx : IVec ⟨2, ![R, C]⟩ 32) (y : (⟨2, ![R, C]⟩ : Shape).Idx)
    (k : BitVec 32) (hk : idx y = k) (hlt : k.toNat < N) (hsm : N ≤ 2 ^ 31) :
    Host.gather (takeDims N R C wf) x (broadcastInDim ⟨3, ![R, C, 1]⟩ ![0, 1] hb idx) y = x (ix1 ⟨k.toNat, hlt⟩) := by
  rw [gather_take_apply hN]
  refine congrArg (fun z : Fin N => x (ix1 z)) (Fin.ext ?_)
  show min (broadcastInDim ⟨3, ![R, C, 1]⟩ ![0, 1] hb idx (takeIdx y)).toInt.toNat (N - 1) = k.toNat
  rw [bcast_col hR hC, hk, toInt_of_small k N hlt hsm, Int.toNat_natCast]
  omega

end PM

/-- Each element's weight is the per-bin weight at the element's bin. -/
theorem stWeights_apply (pred : S2000000x16.Idx → Ideal .f32) (tg : S2000000x16.Idx → BitVec 32) (acc : FVec Ideal S30 .f32)
    (y : S2000000x16.Idx) :
    stWeights pred tg acc y
      = refW (stCounts pred tg) acc (ix1 (⟨(Cert.Spec.binOf (pred y) (tg y)).toNat, Cert.Spec.binOf_lt _ _⟩ : Fin 30)) := by
  unfold stWeights
  refine PM.gather_bins (N := 30) (R := 2000000) (C := 16) (by decide) (by decide) (by decide)
    gather_S30_S2000000x16x1_S2000000x16_n_0_n_n_0_2_1_wf bcast_S2000000x16_S2000000x16x1_0_1
    (refW (stCounts pred tg) acc) _ y (Cert.Spec.binOf (pred y) (tg y)) ?_ (Cert.Spec.binOf_lt _ _) (by decide)
  show Scalar.select (IntOp.cmpi .slt (stIdx pred tg y) 0#32) (IntOp.addi (stIdx pred tg y) 30#32) (stIdx pred tg y) = _
  rw [stIdx_apply]
  exact PM.sel_bin _ (Cert.Spec.binOf_lt _ _)

/-- The sum over both axes of cross-entropy times weight, from the zero word: the zero word plus the double sum. -/
theorem stSum_apply (pred : S2000000x16.Idx → Ideal .f32) (tg : S2000000x16.Idx → BitVec 32) (acc : FVec Ideal S30 .f32)
    (j : S_.Idx) :
    stSum pred tg acc j = Ideal.ofBits .f32 0x00000000#32
      + ∑ i : Fin 2000000, ∑ q : Fin 16, stBce pred tg (ix2 i q) * stWeights pred tg acc (ix2 i q) := by
  show Ideal.hostReduceAdd reducesTo_S2000000x16_S_d0_1 (mulf (stBce pred tg) (stWeights pred tg acc))
    (Ideal.ofBits .f32 0x00000000#32) j = _
  rw [Ideal.hostReduceAdd_total _ (fun b => b.elim0), sum_idx2]
  rfl

end Cert.ReferenceIdeal.RefValue

end
-- ==== Proof.RefMathOut.lean ====
/- The reference's result in closed form, given its histogram. With the histogram stage equal to the closed-form
   counts, the result stage is the closed-form loss: the sum over both axes read as the zero word plus the double sum, each
   element's cross-entropy and weight read at the element, then the division by 3.2e7 and the multiplication by 1. -/
import proofs.«181526_j69131793596448_2_alg».proof.Proof.RefMathGather

noncomputable section

open scoped BigOperators

namespace Cert.ReferenceIdeal.RefValue

open Cert.ReferenceIdeal Cert.ReferenceIdeal.Gen Idealize.ShloMosaic Idealize.ShloMosaic.ValueIdx

/-- The result stage is the closed-form loss, given that the histogram stage is the closed-form counts. -/
theorem stOut_eq_of_counts (pred : S2000000x16.Idx → Ideal .f32) (tg : S2000000x16.Idx → BitVec 32) (acc : FVec Ideal S30 .f32)
    (hc : stCounts pred tg = refCounts pred tg) :
    stOut pred tg acc = fun _ => refLoss pred tg acc := by
  funext j
  show FloatOps.mulf (FloatOps.hostDivf (stSum pred tg acc j) (Ideal.ofBits .f32 0x4BF42400#32)) (Ideal.ofBits .f32 0x3F800000#32)
    = refLoss pred tg acc
  rw [stSum_apply]
  unfold refLoss
  simp only [stBce_apply, stWeights_apply, hc]

end Cert.ReferenceIdeal.RefValue

end
-- ==== Proof.LibVecScatter.lean ====
/-
  General lemmas for one-dimensional host data: a scatter into a vector of `N` entries from a column of `E` index
  words lands update `e` on the entry its word names read signed, and on none when the word is outside `[0, N)`;
  a two-piece concatenation of vectors read in its first and in its second piece; a sum over a vector's indices
  as a sum over `Fin N`, and split at a cut `n₁ + n₂ = N`.
-/
import Idealize.ShloMosaic.Lib.ValueIdx
import Idealize.ShloMosaic.Lib.Pipeline.Value

noncomputable section

open scoped BigOperators

namespace Cert.LibVecScatter

open Idealize.ShloMosaic Idealize.ShloMosaic.ValueIdx

variable {α : Type}

/-! ## A scatter into a vector from a column of index words -/

/-- The dimension numbers of `x.at[idx].add(u)` for a vector `x` of `N` entries and a column of `E` index words. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The start of update `j`'s window: its index word, read signed. -/
theorem vecScatter_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatter N E wf).start j idx 0 = (idx (ix2 (j 0) (⟨0, Nat.one_pos⟩ : Fin 1))).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl

/-- The window has one element: its coordinate is zero. -/
theorem vecScatter_window {N E : Nat} (wf : ScatterDims.WF ⟨1, ![N]⟩ ⟨2, ![E, 1]⟩ ⟨1, ![E]⟩ [] [0] [0] 1)
    (j : (⟨1, ![E]⟩ : Shape).Idx) : (vecScatter N E wf).window j 0 = 0 := by
  unfold ScatterDims.window
  rw [dif_neg]
  intro h
  have h2 := (List.mem_filter.mp h).2
  simp at h2

/-- Update `j` lands on entry `c` exactly when its index word, read signed, is `c`. -/
theorem vecScatter_lands {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (c : Fin N) :
    (vecScatter N E wf).resultIdx? j idx = some (ix1 c)
      ↔ (idx (ix2 (j 0) (⟨0, Nat.one_pos⟩ : Fin 1))).toInt = (c.val : Int) := by
  have hsum : ∀ a : Fin 1, (vecScatter N E wf).start j idx a + ((vecScatter N E wf).window j a : Int)
      = (idx (ix2 (j 0) (⟨0, Nat.one_pos⟩ : Fin 1))).toInt := by
    intro a
    obtain rfl : a = 0 := Subsingleton.elim _ _
    rw [vecScatter_start, vecScatter_window]; simp
  unfold ScatterDims.resultIdx?
  constructor
  · intro h
    split at h
    · rename_i hin
      have h1 := congrFun (Option.some.inj h) 0
      have h2 := congrArg Fin.val h1
      have h3 := hin 0
      rw [hsum 0] at h3
      simp only [hsum 0] at h2
      show _ = (c.val : Int)
      have : ((idx (ix2 (j 0) (⟨0, Nat.one_pos⟩ : Fin 1))).toInt.toNat : Int) = (c.val : Int) := by
        exact_mod_cast h2
      omega
    · exact absurd h (by simp)
  · intro h
    have hin : ∀ a : Fin 1, 0 ≤ (vecScatter N E wf).start j idx a + ((vecScatter N E wf).window j a : Int)
        ∧ (vecScatter N E wf).start j idx a + ((vecScatter N E wf).window j a : Int) < ((⟨1, ![N]⟩ : Shape).size a : Int) := by
      intro a
      obtain rfl : a = 0 := Subsingleton.elim _ _
      rw [hsum 0, h]
      have := c.isLt
      refine ⟨by omega, ?_⟩
      show (c.val : Int) < (N : Int)
      omega
    rw [dif_pos hin]
    congr 1
    funext a
    obtain rfl : a = 0 := Subsingleton.elim _ _
    refine Fin.ext ?_
    show ((vecScatter N E wf).start j idx 0 + ((vecScatter N E wf).window j 0 : Int)).toNat = c.val
    rw [hsum 0, h]; simp

/-! ## A two-piece concatenation of vectors -/

/-- Below the cut, the concatenation is its first piece. -/
theorem concat1_left {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₁) (hk : k.val < N) :
    concatenate ⟨1, ![N]⟩ 0 [⟨⟨1, ![n₁]⟩, x₁⟩, ⟨⟨1, ![n₂]⟩, x₂⟩] h (ix1 ⟨k.val, hk⟩) = x₁ (ix1 k) :=
  concatenate_pair_apply_left 0 x₁ x₂ h _ rfl (ix1 k) (fun b => by
    match b with
    | ⟨0, _⟩ => rfl)

/-- From the cut on, the concatenation is its second piece, the cut less. -/
theorem concat1_right {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₂) (hk : n₁ + k.val < N) :
    concatenate ⟨1, ![N]⟩ 0 [⟨⟨1, ![n₁]⟩, x₁⟩, ⟨⟨1, ![n₂]⟩, x₂⟩] h (ix1 ⟨n₁ + k.val, hk⟩) = x₂ (ix1 k) :=
  concatenate_pair_apply_right 0 x₁ x₂ h _ rfl rfl (ix1 k)
    (fun b hb => absurd (Subsingleton.elim _ _) hb)
    (by show k.val + n₁ = n₁ + k.val; omega)

/-! ## Sums over a vector's indices -/

/-- A vector's indices are `Fin N`. -/
def idx1Equiv (N : Nat) : Fin N ≃ (⟨1, ![N]⟩ : Shape).Idx where
  toFun := ix1
  invFun := fun j => j 0
  left_inv := fun _ => rfl
  right_inv := fun j => (eq_ix1 j).symm

theorem sum_idx1 {M : Type*} [AddCommMonoid M] {N : Nat} (f : (⟨1, ![N]⟩ : Shape).Idx → M) :
    ∑ j, f j = ∑ k : Fin N, f (ix1 k) :=
  (Equiv.sum_comp (idx1Equiv N) f).symm

/-- A sum over a vector's indices, split at a cut. -/
theorem sum_idx1_split {M : Type*} [AddCommMonoid M] {n₁ n₂ N : Nat} (hN : n₁ + n₂ = N)
    (f : (⟨1, ![N]⟩ : Shape).Idx → M) :
    ∑ j, f j = (∑ k : Fin n₁, f (ix1 ⟨k.val, by omega⟩)) + ∑ k : Fin n₂, f (ix1 ⟨n₁ + k.val, by omega⟩) := by
  subst hN
  rw [sum_idx1, Fin.sum_univ_add]
  rfl

end Cert.LibVecScatter

end
-- ==== Proof.RefHistGen.lean ====
/-
  A scatter-add into a vector of N entries from a column of E = R·C index words that is the row-major flattening of an
  R × C array of 32-bit words, every update being one constant u: entry b ends with its own contents plus u once for
  every array element whose word is b. All extents are variables.

  Three steps: the scatter-add of a constant is the entry plus a sum over the E positions of "u if the position's word,
  read signed, is b"; position t·C + r of the column is element (t, r) of the array; a word below 2^31 read signed is a
  natural number below 2^31 exactly when it is that number's word. The sum over E positions is then taken tile by tile.
-/
import proofs.«181526_j69131793596448_2_alg».proof.Proof.LibVecScatter
import proofs.«181526_j69131793596448_2_alg».proof.Proof.Bridge
import Idealize.ShloMosaic.Lib.ValueIdx
import Idealize.ShloMosaic.Lib.Pipeline.Value

noncomputable section

open scoped BigOperators

namespace Cert.ReferenceIdeal.RefValue.PH

open Idealize.ShloMosaic Idealize.ShloMosaic.ValueIdx Cert.LibVecScatter

/-- A 32-bit word below 2^31, read signed, is the natural number n below 2^31 exactly when it is the word n. -/
theorem word_toInt_eq_iff (v : BitVec 32) (n : ℕ) (hv : v.toNat < 2147483648) (hn : n < 2147483648) :
    v.toInt = (n : Int) ↔ v = BitVec.ofNat 32 n := by
  have hi : v.toInt = (v.toNat : Int) := by
    rw [BitVec.toInt_eq_toNat_cond]
    split
    · rfl
    · omega
  rw [hi]
  constructor
  · intro h
    apply BitVec.eq_of_toNat_eq
    rw [BitVec.toNat_ofNat]
    have h' : v.toNat = n := by exact_mod_cast h
    rw [h']
    exact (Nat.mod_eq_of_lt (by omega)).symm
  · rintro rfl
    rw [BitVec.toNat_ofNat, Nat.mod_eq_of_lt (by omega)]

/-- The scatter-add of one constant at a column of index words: the entry plus the constant once per position whose
    word, read signed, names the entry. -/
theorem scatterAdd_const {N E w : ℕ} (wf : ScatterDims.WF ⟨1, ![N]⟩ ⟨2, ![E, 1]⟩ ⟨1, ![E]⟩ [] [0] [0] 1)
    (x : FVec Ideal ⟨1, ![N]⟩ .f32) (col : IVec ⟨2, ![E, 1]⟩ w) (upd : FVec Ideal ⟨1, ![E]⟩ .f32) (u : EReal)
    (hu : ∀ j, upd j = u) (b : (⟨1, ![N]⟩ : Shape).Idx) :
    Host.scatterAdd (F := Ideal) (vecScatter N E wf) x col upd b
      = x b + ∑ k : Fin E, if (col (ix2 k (⟨0, Nat.one_pos⟩ : Fin 1))).toInt = ((b 0).val : Int) then u else 0 := by
  show Ideal.hostScatterAdd (vecScatter N E wf) x col upd b = _
  unfold Ideal.hostScatterAdd
  congr 1
  rw [Finset.sum_filter, sum_idx1]
  refine Finset.sum_congr rfl fun k _ => ?_
  rw [hu]
  refine if_congr ?_ rfl rfl
  conv_lhs => rw [eq_ix1 b]
  exact vecScatter_lands wf (ix1 k) col (b 0)

/-- The column made of the row-major flattening of an R × C array, read at position t·C + r: element (t, r). -/
theorem col_apply {R C E : ℕ} {α : Type} (hs : (⟨2, ![R, C]⟩ : Shape).ShapeCasts ⟨1, ![E]⟩)
    (hb : (⟨1, ![E]⟩ : Shape).BroadcastsInDim ⟨2, ![E, 1]⟩ (![0] : Fin 1 → Fin 2))
    (idx : (⟨2, ![R, C]⟩ : Shape).Idx → α) (t : Fin R) (r : Fin C) (h : t.val * C + r.val < E) :
    broadcastInDim ⟨2, ![E, 1]⟩ ![0] hb (shapeCast ⟨1, ![E]⟩ idx hs) (ix2 ⟨t.val * C + r.val, h⟩ (⟨0, Nat.one_pos⟩ : Fin 1))
      = idx (ix2 t r) := by
  rw [broadcastInDim_apply ![0] hb _ _ (ix1 ⟨t.val * C + r.val, h⟩) (by
    intro a
    obtain rfl : a = 0 := Subsingleton.elim _ _
    show t.val * C + r.val = if E = 1 then 0 else t.val * C + r.val
    split <;> omega)]
  exact shapeCast_apply idx hs _ (ix2 t r) (by rw [Shape.rowMajor_val_two, Shape.rowMajor_val_one]; rfl)

/-- The histogram: the scatter-add of one constant at the flattened array of words, entry by entry. -/
theorem hist_general {N R C E : ℕ} (hE : E = R * C)
    (wf : ScatterDims.WF ⟨1, ![N]⟩ ⟨2, ![E, 1]⟩ ⟨1, ![E]⟩ [] [0] [0] 1)
    (hs : (⟨2, ![R, C]⟩ : Shape).ShapeCasts ⟨1, ![E]⟩)
    (hb : (⟨1, ![E]⟩ : Shape).BroadcastsInDim ⟨2, ![E, 1]⟩ (![0] : Fin 1 → Fin 2))
    (x : FVec Ideal ⟨1, ![N]⟩ .f32) (upd : FVec Ideal ⟨1, ![E]⟩ .f32) (u : EReal) (hu : ∀ j, upd j = u)
    (idx : IVec ⟨2, ![R, C]⟩ 32) (hidx : ∀ i, (idx i).toNat < 2147483648) (hN : N ≤ 2147483648)
    (b : (⟨1, ![N]⟩ : Shape).Idx) :
    Host.scatterAdd (F := Ideal) (vecScatter N E wf) x
        (broadcastInDim ⟨2, ![E, 1]⟩ ![0] hb (shapeCast ⟨1, ![E]⟩ idx hs)) upd b
      = x b + ∑ i : Fin R, ∑ q : Fin C, if idx (ix2 i q) = BitVec.ofNat 32 (b 0).val then u else 0 := by
  rw [scatterAdd_const wf x _ upd u hu b, Cert.Bridge.sum_tiles' E R C hE]
  congr 1
  refine Finset.sum_congr rfl fun t _ => Finset.sum_congr rfl fun r _ => ?_
  rw [col_apply hs hb idx t r]
  exact if_congr (word_toInt_eq_iff _ _ (hidx _) (lt_of_lt_of_le (b 0).isLt hN)) rfl rfl

end Cert.ReferenceIdeal.RefValue.PH

end
-- ==== Proof.RefHist.lean ====
/-
  The reference's histogram, at the printed extents: thirty bins, an array of 2000000 × 16 bin words flattened to
  32000000 positions. The statement is the general one (every extent a variable) instantiated once.
-/
import proofs.«181526_j69131793596448_2_alg».proof.Proof.Gen.ReferenceIdeal
import proofs.«181526_j69131793596448_2_alg».proof.Proof.RefHistGen
import proofs.«181526_j69131793596448_2_alg».proof.Proof.RefHistOne

noncomputable section

open scoped BigOperators

namespace Cert.ReferenceIdeal.RefValue

open Cert.ReferenceIdeal Cert.ReferenceIdeal.Gen Idealize.ShloMosaic Idealize.ShloMosaic.ValueIdx

namespace PH

/-- The printed scatter's dimension numbers are those of a scatter into a vector from a column of index words. -/
theorem scat_eq : scatter_S30_S32000000x1_S32000000_n_0_0_1
    = Cert.LibVecScatter.vecScatter 30 32000000 scatter_S30_S32000000x1_S32000000_n_0_0_1_wf := rfl

end PH

/-- The reference's histogram: the scatter-add of ones into thirty zeros at the array of bin words — flattened row-major
    and set as a column — leaves in bin b the zero word plus the number of array elements whose word is b. -/
theorem hist_eq (idx : IVec S2000000x16 32) (hidx : ∀ i, (idx i).toNat < 30) (b : S30.Idx) :
    Host.scatterAdd (F := Ideal) scatter_S30_S32000000x1_S32000000_n_0_0_1
        (broadcastInDim S30 ![] bcast_S_S30 (constant (F := Ideal) S_ .f32 0x00000000#32))
        (broadcastInDim S32000000x1 ![0] bcast_S32000000_S32000000x1_0
          (shapeCast S32000000 idx shapeCasts_S2000000x16_S32000000))
        (broadcastInDim S32000000 ![] bcast_S_S32000000 (constant (F := Ideal) S_ .f32 0x3F800000#32)) b
      = Ideal.ofBits .f32 0x00000000#32 + ∑ i : Fin 2000000, ∑ q : Fin 16,
          (if idx (ix2 i q) = BitVec.ofNat 32 (b 0).val then (1 : EReal) else 0) := by
  rw [PH.scat_eq]
  refine (PH.hist_general (N := 30) (R := 2000000) (C := 16) (E := 32000000) (by norm_num) _
    shapeCasts_S2000000x16_S32000000 bcast_S32000000_S32000000x1_0 _ _ (Ideal.ofBits .f32 0x3F800000#32) (fun _ => rfl)
    idx (fun i => lt_trans (hidx i) (by norm_num)) (by norm_num) b).trans ?_
  rw [PH.ofBits_one_f32]
  rfl

end Cert.ReferenceIdeal.RefValue

end
-- ==== Proof.RefMath.lean ====
/- The reference's result in closed form. The histogram stage is the closed-form counts (the scatter-add of ones at the bin
   words counts, per bin, the elements whose bin it is, and each element's bin word is the specification's bin); hence the
   result stage is the closed-form loss. -/
import proofs.«181526_j69131793596448_2_alg».proof.Proof.RefMathOut
import proofs.«181526_j69131793596448_2_alg».proof.Proof.RefHist

noncomputable section

open scoped BigOperators

namespace Cert.ReferenceIdeal.RefValue

open Cert.ReferenceIdeal Cert.ReferenceIdeal.Gen Idealize.ShloMosaic Idealize.ShloMosaic.ValueIdx

/-- The histogram stage is the closed-form counts. -/
theorem stCounts_eq (pred : S2000000x16.Idx → Ideal .f32) (tg : S2000000x16.Idx → BitVec 32) :
    stCounts pred tg = refCounts pred tg := by
  funext b
  refine (hist_eq (stIdx pred tg) (fun i => ?_) b).trans ?_
  · rw [stIdx_apply]; exact Cert.Spec.binOf_lt _ _
  · unfold refCounts
    simp only [stIdx_apply]

/-- The result stage is the closed-form loss. -/
theorem stOut_eq (pred : S2000000x16.Idx → Ideal .f32) (tg : S2000000x16.Idx → BitVec 32) (acc : FVec Ideal S30 .f32) :
    stOut pred tg acc = fun _ => refLoss pred tg acc :=
  stOut_eq_of_counts pred tg acc (stCounts_eq pred tg)

end Cert.ReferenceIdeal.RefValue

end
-- ==== Proof.RefValue.lean ====
/-
  The reference's run and value: from any memory with zero counters every weakly fair execution of the reference's @main
  terminates; its result buffer then holds, at its one index, the closed-form loss of the three arguments' contents at
  launch — the sum over all elements of the cross-entropy times the weight of the element's bin, from the zero word,
  divided by 3.2e7 and multiplied by 1 — and the arguments are unchanged.
-/
import proofs.«181526_j69131793596448_2_alg».proof.Proof.RefRun
import proofs.«181526_j69131793596448_2_alg».proof.Proof.RefMath

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The run to the last stage, with the last stage read in closed form. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = (fun _ => refLoss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun _ h c => ⟨(h c).1.trans (stOut_eq _ _ _), (h c).2⟩) (run_stages m ρ)

end Cert.ReferenceIdeal.RefValue

end
-- ==== Proof.Final.lean ====
/-
  The kernel's closed form is the reference's.

  Both are the sum over all 2000000 × 16 elements of the cross-entropy times the weight of the element's bin, divided
  by 3.2e7 and multiplied by 1, the weights the same host function of the bin counts and the running averages; and
  count b is on both sides the number of elements of bin b (the reference adds it to the zero word, which is 0).
-/
import proofs.«181526_j69131793596448_2_alg».proof.Proof.KMath
import proofs.«181526_j69131793596448_2_alg».proof.Proof.RefStages
import Idealize.ShloMosaic.PureOps.Ideal.Laws

noncomputable section

open scoped BigOperators

namespace Cert.Proof.Final

open Idealize.ShloMosaic Idealize.ShloMosaic.ValueIdx
open Cert.KernelIdeal.Hand (perBinW kCounts kSum kLoss kCounts_apply kSum_eq lossOut)
open Cert.ReferenceIdeal.RefValue (refW refCounts refLoss)

/-- The weights are one host function of the counts and the running averages in both programs. -/
theorem perBinW_eq_refW (counts acc : FVec Ideal Cert.KernelIdeal.S30 .f32) : perBinW counts acc = refW counts acc := rfl

variable (pred : Cert.KernelIdeal.S2000000x16.Idx → Ideal .f32) (tg : Cert.KernelIdeal.S2000000x16.Idx → BitVec 32)
  (acc : FVec Ideal Cert.KernelIdeal.S30 .f32)

/-- The counts the host cuts out of the kernel's histogram row are the reference's scatter-added counts. -/
theorem kCounts_eq : kCounts pred tg = refCounts pred tg := by
  funext b
  obtain ⟨b', rfl⟩ : ∃ b' : Fin 30, b = ix1 b' := ⟨b 0, eq_ix1 b⟩
  rw [kCounts_apply]
  unfold refCounts
  rw [Ideal.ofBits_zero_f32, zero_add]

/-- The kernel's returned scalar is the reference's. -/
theorem kLoss_eq : kLoss pred tg acc = fun _ => refLoss pred tg acc := by
  funext j
  unfold kLoss lossOut refLoss
  show FloatOps.mulf (FloatOps.hostDivf (kSum pred tg acc) (Ideal.ofBits .f32 0x4BF42400#32)) (Ideal.ofBits .f32 0x3F800000#32) = _
  rw [kSum_eq, Ideal.ofBits_zero_f32, zero_add, kCounts_eq]
  rfl

end Cert.Proof.Final

end
-- ==== Proof.LibTileSums.lean ====
/-
  GENERAL LEMMAS: running totals and sums over row tiles, in any commutative monoid (the extended reals are one), with
  nothing of any program in them; imports Mathlib only.
    chain_eq_sum / chain_last : a running total ch over the points n < N of a grid — ch 0 = g 0, ch (n+1) = ch n + g (n+1),
      the points carrying their bound proofs as a grid accumulator's recursion does — is the sum of the terms so far, and
      after the last point the sum over Fin N.
    tile_lt, sum_tiles, sum_tiles' : a sum over Fin (a·b) — or over Fin N with N = a·b — is the sum over the a tiles of the
      sum over a tile's b rows, row r of tile t being row t·b + r.
  Two facts about sums in a commutative monoid (the extended reals are one), with nothing of the programs in them.

  A running total — the first term, then one more term at every step — is the sum of the terms so far.
  A sum over a·b rows is the sum over a tiles of the sum over each tile's b rows, row r of tile t being row t·b + r.
  Together: a loop over row tiles that keeps a running total of the tiles' sums ends with the sum over all rows.
-/
import Mathlib.Algebra.BigOperators.Fin
import Mathlib.Logic.Equiv.Fin.Basic

open scoped BigOperators

namespace Cert.LibTileSums

variable {M : Type*} [AddCommMonoid M]

/-- A running total is the sum of the terms so far. -/
theorem chain_eq_sum (N : ℕ) (g ch : (n : ℕ) → n < N → M)
    (h0 : ∀ h, ch 0 h = g 0 h)
    (hs : ∀ n (h : n + 1 < N), ch (n + 1) h = ch n (Nat.lt_of_succ_lt h) + g (n + 1) h) :
    ∀ (n : ℕ) (h : n < N), ch n h = ∑ t : Fin (n + 1), g t.val (lt_of_le_of_lt (Nat.le_of_lt_succ t.isLt) h)
  | 0, h => by
    rw [h0 h, Fin.sum_univ_one]
    rfl
  | n + 1, h => by
    rw [hs n h, chain_eq_sum N g ch h0 hs n (Nat.lt_of_succ_lt h)]
    conv_rhs => rw [Fin.sum_univ_castSucc]
    rfl

/-- The running total after the last of N steps is the sum of all N terms. -/
theorem chain_last (N : ℕ) (g ch : (n : ℕ) → n < N → M)
    (h0 : ∀ h, ch 0 h = g 0 h)
    (hs : ∀ n (h : n + 1 < N), ch (n + 1) h = ch n (Nat.lt_of_succ_lt h) + g (n + 1) h)
    (n : ℕ) (hn : n < N) (hN : n + 1 = N) :
    ch n hn = ∑ t : Fin N, g t.val t.isLt := by
  subst hN
  exact chain_eq_sum (n + 1) g ch h0 hs n hn

/-- Row r of tile t is a row. -/
theorem tile_lt {a b : ℕ} (t : Fin a) (r : Fin b) : t.val * b + r.val < a * b := by
  have h1 : t.val + 1 ≤ a := t.isLt
  have h2 := r.isLt
  calc t.val * b + r.val < t.val * b + b := by omega
    _ = (t.val + 1) * b := (Nat.succ_mul _ _).symm
    _ ≤ a * b := Nat.mul_le_mul_right b h1

/-- A sum over a·b rows, tile by tile. -/
theorem sum_tiles (a b : ℕ) (f : Fin (a * b) → M) :
    ∑ i : Fin (a * b), f i = ∑ t : Fin a, ∑ r : Fin b, f ⟨t.val * b + r.val, tile_lt t r⟩ := by
  rw [← Fintype.sum_prod_type']
  refine (Fintype.sum_equiv finProdFinEquiv _ _ (fun p => ?_)).symm
  congr 1
  apply Fin.ext
  simp [finProdFinEquiv, Nat.mul_comm, Nat.add_comm]

/-- The same for a number of rows N known to be a·b. -/
theorem sum_tiles' (N a b : ℕ) (hN : N = a * b) (f : Fin N → M) :
    ∑ i : Fin N, f i = ∑ t : Fin a, ∑ r : Fin b, f ⟨t.val * b + r.val, hN ▸ tile_lt t r⟩ := by
  subst hN
  exact sum_tiles a b f

end Cert.LibTileSums
-- ==== Proof.lean ====
/-
  A gradient-harmonised loss computed by two accumulating kernels and host glue, against its jax.numpy reference.

  The data: logits pred and integer targets tg, 2000000 rows of 16, and thirty running averages acc.  Every element has
  a gradient density g = |σ(pred) − tg| and a bin, g · 30 truncated and clipped to 0 … 29.  The loss is
      (∑ over all elements of  bce(pred, tg) · w(bin)) / 3.2e7 · 1,
  bce the binary cross-entropy with logits and w the weight of a bin, a host function of the thirty bin counts and of acc.

  The kernel program walks the rows in 1000 tiles of 2000 rows, twice.  Its first call keeps a lane-padded histogram
  row in a scratch buffer: zeroed at the first tile, increased at every tile by the tile's count of each bin (thirty
  compare-and-sum rounds), written out after the last tile.  The host cuts the thirty counts out of the row, forms the
  weights and pads them into a row.  Its second call keeps one running total: zeroed at the first tile, increased at
  every tile by the tile's sum of bce times the weight of the element's bin (found by thirty compare-and-select
  rounds over the padded row), written out after the last tile; the host divides by 3.2e7 and multiplies by 1.
  The reference counts the bins by one scatter-add of ones, looks a weight up by one gather and sums once.

  At the ideal values (floats extended reals, every operation exact) the two agree: a running total over the tiles
  is the sum over the tiles, row r of tile t is row t·2000 + r, so the tiles' sums are the sum over all rows
  (addition of extended reals is commutative and associative; nothing else is used, so the finiteness of the inputs
  is not needed); a bin is < 30, so the select rounds find exactly the gathered weight; the logistic function is
  1/(1 + e^(−x)) by definition, and no extended real differs from itself, so both softplus guards are off.

  Frames: each kernel's body is run once per control case (first tile, middle tiles, last tile); what the scratch
  holds after each tile is defined by recursion on the tile and carried in the region's invariant; the two regions and
  the host stretches between them are chained by the library's several-region launch theorem.  The same text proves the
  word-level program's frame and the idealized program's.
-/
import proofs.«181526_j69131793596448_2_alg».proof.Defs
import proofs.«181526_j69131793596448_2_alg».proof.Proof.Gen.Kernel
import proofs.«181526_j69131793596448_2_alg».proof.Proof.Gen.KernelIdeal
import proofs.«181526_j69131793596448_2_alg».proof.Proof.Gen.ReferenceIdeal
import proofs.«181526_j69131793596448_2_alg».proof.Proof.Gen.Pre_finite_inputs
import proofs.«181526_j69131793596448_2_alg».proof.Proof.BMainRun
import proofs.«181526_j69131793596448_2_alg».proof.Proof.IMainRun
import proofs.«181526_j69131793596448_2_alg».proof.Proof.IValue
import proofs.«181526_j69131793596448_2_alg».proof.Proof.RefValue
import proofs.«181526_j69131793596448_2_alg».proof.Proof.Final
import proofs.«181526_j69131793596448_2_alg».proof.Proof.LibTileSums

noncomputable section

namespace Cert.Proof

open Idealize.ShloMosaic Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- At the ideal values both programs end with the same scalar: the closed form of the launched arrays. -/
theorem algebraic : Cert.algebraic_KernelIdeal_ReferenceIdeal := by
  intro m ρ m' ρ' _ hagree
  refine ⟨fun c => Cert.KernelIdeal.Hand.kLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_all m ρ)
    · exact (h c _ (Cert.KernelIdeal.Hand.mem_uc Cert.KernelIdeal.main_v29 (by decide))).trans (Cert.KernelIdeal.Hand.result_eq m c)
    · exact (h c _ (Cert.KernelIdeal.Hand.mem_uc Cert.KernelIdeal.main_arg0 (by decide))).trans (Cert.KernelIdeal.Hand.W8_main_arg0 m c)
    · exact (h c _ (Cert.KernelIdeal.Hand.mem_uc Cert.KernelIdeal.main_arg1 (by decide))).trans (Cert.KernelIdeal.Hand.W8_main_arg1 m c)
    · exact (h c _ (Cert.KernelIdeal.Hand.mem_uc Cert.KernelIdeal.main_arg2 (by decide))).trans (Cert.KernelIdeal.Hand.W8_main_arg2 m c)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2]
    exact (Cert.Proof.Final.kLoss_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
